-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1000 : Shape := ⟨2, ![131072, 1000]⟩
abbrev S131072 : Shape := ⟨1, ![131072]⟩
abbrev S_ : Shape := ⟨0, ![]⟩

class Facts : Prop where
  bcast_S_S131072x1000 : S_.BroadcastsInDim S131072x1000 (![] : Fin 0 → Fin S131072x1000.rank)
  reducesTo_S131072x1000_S_d0_1 : S131072x1000.ReducesTo [0, 1] S_
  h_S_ : 0 < S_.numel

variable [Facts]

def fn {F : FTy → Type} [FloatOps F] (main_arg0 : FVec F S131072x1000 .f32) (main_arg1 : IVec S131072 32) : IVec S_ 1 :=
  let main_v0 : FVec F S131072x1000 .f32 := Host.absf main_arg0
  let main_cst : FVec F S_ .f32 := constant S_ .f32 0x7F800000#32
  let main_v1 : FVec F S131072x1000 .f32 := broadcastInDim S131072x1000 ![] bcast_S_S131072x1000 main_cst
  let main_v2 : IVec S131072x1000 1 := cmpf .olt main_v0 main_v1
  let main_c : IVec S_ 1 := constantI S_ 1 1#1
  let main_v3 : IVec S_ 1 := (fun x v => Host.reduce IntOp.andi x v reducesTo_S131072x1000_S_d0_1 h_S_) main_v2 main_c
  main_v3
-- ==== Kernel.lean ====
abbrev S131072x1000 : Shape := ⟨2, ![131072, 1000]⟩
abbrev S131072 : Shape := ⟨1, ![131072]⟩
abbrev S131072x1 : Shape := ⟨2, ![131072, 1]⟩
abbrev S_ : Shape := ⟨0, ![]⟩
abbrev S131072x1x1 : Shape := ⟨3, ![131072, 1, 1]⟩
abbrev S1 : Shape := ⟨1, ![1]⟩
abbrev S1x1x1 : Shape := ⟨3, ![1, 1, 1]⟩
abbrev S2x1x1000 : Shape := ⟨3, ![2, 1, 1000]⟩
abbrev S2x1x1 : Shape := ⟨3, ![2, 1, 1]⟩
abbrev S1024x1000 : Shape := ⟨2, ![1024, 1000]⟩
abbrev S1024x1 : Shape := ⟨2, ![1024, 1]⟩
abbrev S1x1x1000 : Shape := ⟨3, ![1, 1, 1000]⟩
abbrev S1024 : Shape := ⟨1, ![1024]⟩
abbrev S1x1 : Shape := ⟨2, ![1, 1]⟩
abbrev S1000 : Shape := ⟨1, ![1000]⟩
abbrev S1x1000 : Shape := ⟨2, ![1, 1000]⟩

abbrev nBuf : Space → Nat
  | .hbm => 63
  | .vmem => 8
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S131072x1, .i32⟩
  | .hbm, ⟨3, _⟩ => ⟨S_, .i32⟩
  | .hbm, ⟨4, _⟩ => ⟨S131072x1, .i32⟩
  | .hbm, ⟨5, _⟩ => ⟨S131072x1, .i1⟩
  | .hbm, ⟨6, _⟩ => ⟨S_, .i32⟩
  | .hbm, ⟨7, _⟩ => ⟨S131072x1, .i32⟩
  | .hbm, ⟨8, _⟩ => ⟨S131072x1, .i32⟩
  | .hbm, ⟨9, _⟩ => ⟨S131072x1, .i32⟩
  | .hbm, ⟨10, _⟩ => ⟨S131072x1x1, .i32⟩
  | .hbm, ⟨11, _⟩ => ⟨S1, .i32⟩
  | .hbm, ⟨12, _⟩ => ⟨S_, .i32⟩
  | .hbm, ⟨13, _⟩ => ⟨S131072x1x1, .i32⟩
  | .hbm, ⟨14, _⟩ => ⟨S131072x1x1, .i1⟩
  | .hbm, ⟨15, _⟩ => ⟨S1x1x1, .i32⟩
  | .hbm, ⟨16, _⟩ => ⟨S131072x1x1, .i32⟩
  | .hbm, ⟨17, _⟩ => ⟨S131072x1x1, .i1⟩
  | .hbm, ⟨18, _⟩ => ⟨S131072x1x1, .i1⟩
  | .hbm, ⟨19, _⟩ => ⟨S_, .i1⟩
  | .hbm, ⟨20, _⟩ => ⟨S131072x1, .i1⟩
  | .hbm, ⟨21, _⟩ => ⟨S131072x1, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S2x1x1000, .f32⟩
  | .hbm, ⟨26, _⟩ => ⟨S2x1x1, .f32⟩
  | .hbm, ⟨27, _⟩ => ⟨S_, .f32⟩
  | .hbm, ⟨28, _⟩ => ⟨S1x1000, .f32⟩
  | .hbm, ⟨29, _⟩ => ⟨S1000, .f32⟩
  | .hbm, ⟨30, _⟩ => ⟨S_, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1000, .f32⟩
  | .hbm, ⟨37, _⟩ => ⟨S1000, .f32⟩
  | .hbm, ⟨38, _⟩ => ⟨S_, .f32⟩
  | .hbm, ⟨39, _⟩ => ⟨S1000, .f32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S_, .f32⟩
  | .hbm, ⟨49, _⟩ => ⟨S131072, .f32⟩
  | .hbm, ⟨50, _⟩ => ⟨S1000, .f32⟩
  | .hbm, ⟨51, _⟩ => ⟨S_, .f32⟩
  | .hbm, ⟨52, _⟩ => ⟨S1000, .f32⟩
  | .hbm, ⟨53, _⟩ => ⟨S1000, .f32⟩
  | .hbm, ⟨54, _⟩ => ⟨S1000, .f32⟩
  | .hbm, ⟨55, _⟩ => ⟨S1000, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .f32⟩
  | .local _ .vmem, ⟨3, _⟩ => ⟨S1024x1, .f32⟩
  | .local _ .vmem, ⟨4, _⟩ => ⟨S1x1x1000, .f32⟩
  | .local _ .vmem, ⟨5, _⟩ => ⟨S1x1x1000, .f32⟩
  | .local _ .vmem, ⟨6, _⟩ => ⟨S1x1x1, .f32⟩
  | .local _ .vmem, ⟨7, _⟩ => ⟨S1x1x1, .f32⟩
  | _, _ => ⟨S131072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2_0 : Ref sig .tc := ⟨.hbm, 25, rfl⟩
abbrev main_v2_1 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_cst_3 : Ref sig .tc := ⟨.hbm, 38, rfl⟩
abbrev main_v10 : Ref sig .tc := ⟨.hbm, 39, rfl⟩
abbrev main_c : Ref sig .tc := ⟨.hbm, 40, rfl⟩
abbrev main_v11 : Ref sig .tc := ⟨.hbm, 41, rfl⟩
abbrev main_v12 : Ref sig .tc := ⟨.hbm, 42, rfl⟩
abbrev main_c_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_5 : Ref sig .tc := ⟨.hbm, 48, rfl⟩
abbrev main_v17 : Ref sig .tc := ⟨.hbm, 49, rfl⟩
abbrev main_v18 : Ref sig .tc := ⟨.hbm, 50, rfl⟩
abbrev main_cst_6 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_7 : Ref sig .tc := ⟨.hbm, 56, rfl⟩
abbrev main_v23 : Ref sig .tc := ⟨.hbm, 57, rfl⟩
abbrev main_cst_8 : Ref sig .tc := ⟨.hbm, 58, rfl⟩
abbrev main_v24 : Ref sig .tc := ⟨.hbm, 59, rfl⟩
abbrev main_cst_9 : Ref sig .tc := ⟨.hbm, 60, rfl⟩
abbrev main_v25 : Ref sig .tc := ⟨.hbm, 61, rfl⟩
abbrev main_v26 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S131072_S131072x1_0 : S131072.BroadcastsInDim S131072x1 (![0] : Fin 1 → Fin S131072x1.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  inb_S1x1x1000_S1x1x1000_0_0_0 : ∀ a, (![0, 0, 0] : Fin 3 → Nat) a + S1x1x1000.size a ≤ S1x1x1000.size a
  h_S1x1x1000 : 0 < S1x1x1000.numel
  inb_S1x1x1_S1x1x1_0_0_0 : ∀ a, (![0, 0, 0] : Fin 3 → Nat) a + S1x1x1.size a ≤ S1x1x1.size a
  h_S1x1x1 : 0 < S1x1x1.numel
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1000_S1024 : S1024x1000.Reduces [1] S1024
  shapeCasts_S1024_S1024x1 : S1024.ShapeCasts S1024x1
  broadcasts_S1024x1_S1024x1000 : S1024x1.Broadcasts S1024x1000
  reduces_S1024x1_S1 : S1024x1.Reduces [0] S1
  shapeCasts_S1_S1x1 : S1.ShapeCasts S1x1
  reduces_S1024x1000_S1000 : S1024x1000.Reduces [0] S1000
  shapeCasts_S1000_S1x1000 : S1000.ShapeCasts S1x1000
  shapeCasts_S1x1x1000_S1x1x1000 : S1x1x1000.ShapeCasts S1x1x1000
  shapeCasts_S1x1000_S1x1x1000 : S1x1000.ShapeCasts S1x1x1000
  shapeCasts_S1x1x1_S1x1x1 : S1x1x1.ShapeCasts S1x1x1
  shapeCasts_S1x1_S1x1x1 : S1x1.ShapeCasts S1x1x1
  reducesTo_S2x1x1000_S1x1000_d0 : S2x1x1000.ReducesTo [0] S1x1000
  shapeCasts_S1x1000_S1000 : S1x1000.ShapeCasts S1000
  reducesTo_S2x1x1_S1x1_d0 : S2x1x1.ReducesTo [0] S1x1
  shapeCasts_S1x1_S_ : S1x1.ShapeCasts S_
  bcast_S_S1000 : S_.BroadcastsInDim S1000 (![] : Fin 0 → Fin S1000.rank)
  bcast_S_S131072 : S_.BroadcastsInDim S131072 (![] : Fin 0 → Fin S131072.rank)
  reducesTo_S1000_S_d0 : S1000.ReducesTo [0] S_
  gather_S131072x1000_S131072x1x1_S131072x1_n_1_0_0_1_2_11_wf : GatherDims.WF S131072x1000 S131072x1x1 S131072x1 [] [1] [0] [1] [0] 2 ![1, 1]
  scatter_S1000_S131072x1_S131072_n_0_0_1_wf : ScatterDims.WF S1000 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S131072x1000.size a
  hwx0_0 : ∀ i : grid0.Coords, EltTy.bits .f32 = 32 ∨ (Rect.block (s := S131072x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .f32 = 32 ∨ (Rect.block (s := S131072x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S2x1x1000.size a
  hwx0_2 : ∀ i : grid0.Coords, EltTy.bits .f32 = 32 ∨ (Rect.block (s := S2x1x1000) S1x1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def gather_S131072x1000_S131072x1x1_S131072x1_n_1_0_0_1_2_11 : GatherDims S131072x1000 S131072x1x1 S131072x1 where
  offsetDims := []
  collapsedSliceDims := [1]
  operandBatchingDims := [0]
  startIndicesBatchingDims := [0]
  startIndexMap := [1]
  indexVectorDim := 2
  sliceSizes := ![1, 1]
  wf := gather_S131072x1000_S131072x1x1_S131072x1_n_1_0_0_1_2_11_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x1000 : Shape := ⟨2, ![131072, 1000]⟩
abbrev S131072 : Shape := ⟨1, ![131072]⟩
abbrev S_ : Shape := ⟨0, ![]⟩
abbrev S131072x1 : Shape := ⟨2, ![131072, 1]⟩
abbrev S131072x1x1 : Shape := ⟨3, ![131072, 1, 1]⟩
abbrev S1 : Shape := ⟨1, ![1]⟩
abbrev S1x1x1 : Shape := ⟨3, ![1, 1, 1]⟩
abbrev S1000 : Shape := ⟨1, ![1000]⟩

abbrev nBuf : Space → Nat
  | .hbm => 98
  | .vmem => 0
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S_, .f32⟩
  | .hbm, ⟨3, _⟩ => ⟨S131072, .f32⟩
  | .hbm, ⟨4, _⟩ => ⟨S_, .f32⟩
  | .hbm, ⟨5, _⟩ => ⟨S131072, .f32⟩
  | .hbm, ⟨6, _⟩ => ⟨S131072, .f32⟩
  | .hbm, ⟨7, _⟩ => ⟨S131072x1, .f32⟩
  | .hbm, ⟨8, _⟩ => ⟨S131072x1000, .f32⟩
  | .hbm, ⟨9, _⟩ => ⟨S131072x1000, .f32⟩
  | .hbm, ⟨10, _⟩ => ⟨S131072x1000, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1, .f32⟩
  | .hbm, ⟨15, _⟩ => ⟨S131072x1000, .f32⟩
  | .hbm, ⟨16, _⟩ => ⟨S131072x1000, .f32⟩
  | .hbm, ⟨17, _⟩ => ⟨S131072x1, .i32⟩
  | .hbm, ⟨18, _⟩ => ⟨S_, .i32⟩
  | .hbm, ⟨19, _⟩ => ⟨S131072x1, .i32⟩
  | .hbm, ⟨20, _⟩ => ⟨S131072x1, .i1⟩
  | .hbm, ⟨21, _⟩ => ⟨S_, .i32⟩
  | .hbm, ⟨22, _⟩ => ⟨S131072x1, .i32⟩
  | .hbm, ⟨23, _⟩ => ⟨S131072x1, .i32⟩
  | .hbm, ⟨24, _⟩ => ⟨S131072x1, .i32⟩
  | .hbm, ⟨25, _⟩ => ⟨S131072x1x1, .i32⟩
  | .hbm, ⟨26, _⟩ => ⟨S1, .i32⟩
  | .hbm, ⟨27, _⟩ => ⟨S_, .i32⟩
  | .hbm, ⟨28, _⟩ => ⟨S131072x1x1, .i32⟩
  | .hbm, ⟨29, _⟩ => ⟨S131072x1x1, .i1⟩
  | .hbm, ⟨30, _⟩ => ⟨S1x1x1, .i32⟩
  | .hbm, ⟨31, _⟩ => ⟨S131072x1x1, .i32⟩
  | .hbm, ⟨32, _⟩ => ⟨S131072x1x1, .i1⟩
  | .hbm, ⟨33, _⟩ => ⟨S131072x1x1, .i1⟩
  | .hbm, ⟨34, _⟩ => ⟨S_, .i1⟩
  | .hbm, ⟨35, _⟩ => ⟨S131072x1, .i1⟩
  | .hbm, ⟨36, _⟩ => ⟨S131072x1, .f32⟩
  | .hbm, ⟨37, _⟩ => ⟨S_, .f32⟩
  | .hbm, ⟨38, _⟩ => ⟨S131072x1, .f32⟩
  | .hbm, ⟨39, _⟩ => ⟨S131072x1, .f32⟩
  | .hbm, ⟨40, _⟩ => ⟨S131072, .f32⟩
  | .hbm, ⟨41, _⟩ => ⟨S131072, .f32⟩
  | .hbm, ⟨42, _⟩ => ⟨S_, .f32⟩
  | .hbm, ⟨43, _⟩ => ⟨S131072, .f32⟩
  | .hbm, ⟨44, _⟩ => ⟨S131072, .f32⟩
  | .hbm, ⟨45, _⟩ => ⟨S_, .f32⟩
  | .hbm, ⟨46, _⟩ => ⟨S131072, .f32⟩
  | .hbm, ⟨47, _⟩ => ⟨S131072, .f32⟩
  | .hbm, ⟨48, _⟩ => ⟨S131072, .f32⟩
  | .hbm, ⟨49, _⟩ => ⟨S131072, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S131072, .f32⟩
  | .hbm, ⟨56, _⟩ => ⟨S_, .f32⟩
  | .hbm, ⟨57, _⟩ => ⟨S131072, .f32⟩
  | .hbm, ⟨58, _⟩ => ⟨S131072, .f32⟩
  | .hbm, ⟨59, _⟩ => ⟨S131072x1, .f32⟩
  | .hbm, ⟨60, _⟩ => ⟨S131072x1000, .f32⟩
  | .hbm, ⟨61, _⟩ => ⟨S131072x1000, .f32⟩
  | .hbm, ⟨62, _⟩ => ⟨S131072x1000, .f32⟩
  | .hbm, ⟨63, _⟩ => ⟨S_, .f32⟩
  | .hbm, ⟨64, _⟩ => ⟨S131072, .f32⟩
  | .hbm, ⟨65, _⟩ => ⟨S131072x1, .f32⟩
  | .hbm, ⟨66, _⟩ => ⟨S131072x1000, .f32⟩
  | .hbm, ⟨67, _⟩ => ⟨S131072x1000, .f32⟩
  | .hbm, ⟨68, _⟩ => ⟨S_, .f32⟩
  | .hbm, ⟨69, _⟩ => ⟨S1000, .f32⟩
  | .hbm, ⟨70, _⟩ => ⟨S_, .f32⟩
  | .hbm, ⟨71, _⟩ => ⟨S1000, .f32⟩
  | .hbm, ⟨72, _⟩ => ⟨S1000, .f32⟩
  | .hbm, ⟨73, _⟩ => ⟨S_, .f32⟩
  | .hbm, ⟨74, _⟩ => ⟨S1000, .f32⟩
  | .hbm, ⟨75, _⟩ => ⟨S_, .i32⟩
  | .hbm, ⟨76, _⟩ => ⟨S131072, .i32⟩
  | .hbm, ⟨77, _⟩ => ⟨S131072, .i1⟩
  | .hbm, ⟨78, _⟩ => ⟨S_, .i32⟩
  | .hbm, ⟨79, _⟩ => ⟨S131072, .i32⟩
  | .hbm, ⟨80, _⟩ => ⟨S131072, .i32⟩
  | .hbm, ⟨81, _⟩ => ⟨S131072, .i32⟩
  | .hbm, ⟨82, _⟩ => ⟨S131072x1, .i32⟩
  | .hbm, ⟨83, _⟩ => ⟨S_, .f32⟩
  | .hbm, ⟨84, _⟩ => ⟨S131072, .f32⟩
  | .hbm, ⟨85, _⟩ => ⟨S1000, .f32⟩
  | .hbm, ⟨86, _⟩ => ⟨S_, .f32⟩
  | .hbm, ⟨87, _⟩ => ⟨S1000, .f32⟩
  | .hbm, ⟨88, _⟩ => ⟨S1000, .f32⟩
  | .hbm, ⟨89, _⟩ => ⟨S1000, .f32⟩
  | .hbm, ⟨90, _⟩ => ⟨S1000, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S131072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_1 : Ref sig .tc := ⟨.hbm, 50, rfl⟩
abbrev main_v11 : Ref sig .tc := ⟨.hbm, 51, rfl⟩
abbrev main_cst_2 : Ref sig .tc := ⟨.hbm, 52, rfl⟩
abbrev main_v12 : Ref sig .tc := ⟨.hbm, 53, rfl⟩
abbrev main_cst_3 : Ref sig .tc := ⟨.hbm, 54, rfl⟩
abbrev main_v13 : Ref sig .tc := ⟨.hbm, 55, rfl⟩
abbrev main_cst_4 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_5 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_6 : Ref sig .tc := ⟨.hbm, 68, rfl⟩
abbrev main_v24 : Ref sig .tc := ⟨.hbm, 69, rfl⟩
abbrev main_cst_7 : Ref sig .tc := ⟨.hbm, 70, rfl⟩
abbrev main_v25 : Ref sig .tc := ⟨.hbm, 71, rfl⟩
abbrev main_v26 : Ref sig .tc := ⟨.hbm, 72, rfl⟩
abbrev main_cst_8 : Ref sig .tc := ⟨.hbm, 73, rfl⟩
abbrev main_v27 : Ref sig .tc := ⟨.hbm, 74, rfl⟩
abbrev main_c : Ref sig .tc := ⟨.hbm, 75, rfl⟩
abbrev main_v28 : Ref sig .tc := ⟨.hbm, 76, rfl⟩
abbrev main_v29 : Ref sig .tc := ⟨.hbm, 77, rfl⟩
abbrev main_c_9 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_10 : Ref sig .tc := ⟨.hbm, 83, rfl⟩
abbrev main_v34 : Ref sig .tc := ⟨.hbm, 84, rfl⟩
abbrev main_v35 : Ref sig .tc := ⟨.hbm, 85, rfl⟩
abbrev main_cst_11 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_12 : Ref sig .tc := ⟨.hbm, 91, rfl⟩
abbrev main_v40 : Ref sig .tc := ⟨.hbm, 92, rfl⟩
abbrev main_cst_13 : Ref sig .tc := ⟨.hbm, 93, rfl⟩
abbrev main_v41 : Ref sig .tc := ⟨.hbm, 94, rfl⟩
abbrev main_cst_14 : Ref sig .tc := ⟨.hbm, 95, rfl⟩
abbrev main_v42 : Ref sig .tc := ⟨.hbm, 96, rfl⟩
abbrev main_v43 : Ref sig .tc := ⟨.hbm, 97, rfl⟩

abbrev nD : Nat := 1
abbrev τ : Topo := Topo.v7x

variable {F : FTy → Type} [FloatOps F]

class Facts₀ : Prop where
  reducesTo_S131072x1000_S131072_d1 : S131072x1000.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1000_0_1 : S131072x1.BroadcastsInDim S131072x1000 (![0, 1] : Fin 2 → Fin S131072x1000.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  shapeCasts_S131072x1_S131072 : S131072x1.ShapeCasts S131072
  reducesTo_S131072_S_d0 : S131072.ReducesTo [0] S_
  reducesTo_S131072x1000_S1000_d0 : S131072x1000.ReducesTo [0] S1000
  bcast_S_S1000 : S_.BroadcastsInDim S1000 (![] : Fin 0 → Fin S1000.rank)
  reducesTo_S1000_S_d0 : S1000.ReducesTo [0] S_
  gather_S131072x1000_S131072x1x1_S131072x1_n_1_0_0_1_2_11_wf : GatherDims.WF S131072x1000 S131072x1x1 S131072x1 [] [1] [0] [1] [0] 2 ![1, 1]
  scatter_S1000_S131072x1_S131072_n_0_0_1_wf : ScatterDims.WF S1000 S131072x1 S131072 [] [0] [0] 1

variable [Facts₀]

def gather_S131072x1000_S131072x1x1_S131072x1_n_1_0_0_1_2_11 : GatherDims S131072x1000 S131072x1x1 S131072x1 where
  offsetDims := []
  collapsedSliceDims := [1]
  operandBatchingDims := [0]
  startIndicesBatchingDims := [0]
  startIndexMap := [1]
  indexVectorDim := 2
  sliceSizes := ![1, 1]
  wf := gather_S131072x1000_S131072x1x1_S131072x1_n_1_0_0_1_2_11_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf

class Facts : Prop extends Facts₀ where

variable [Facts]
-- ==== Proof.KernelPieces.lean ====
/-
  What one run of the kernel body leaves in its two accumulators.

  The body first clears both accumulators when its tile is the first of its core (case A) and leaves them alone
  otherwise (case B); it then loads the block of logits and the block of picked target logits, and stores
  into the class accumulator its old contents plus the block's column sums of the probabilities, and into the
  focal accumulator its old contents plus the block's sum of focal terms. Read back through the whole staging
  buffer, the last store's value is what the buffer holds; in case A the old contents are the zeros just stored,
  in case B what the buffer held when the body started. The arithmetic itself stays folded in the body's named
  values (`k0_pay1` … `k0_pay8`); this module only says which of them each accumulator ends as, for any float
  instance.
-/
import proofs.«145446_j66486093742616_2_alg».proof.Proof.Gen.KernelIdeal.Frame
import Idealize.ShloMosaic.Lib.Pipeline.Value

set_option maxRecDepth 16384

noncomputable section

namespace Cert.FocalKernel

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a rank-3 whole-buffer rectangle. -/
theorem zeros3 : (![0, 0, 0] : Fin 3 → Nat) = fun _ => 0 := by funext a; fin_cases a <;> rfl
/-- The zero offsets of a rank-2 whole-buffer rectangle. -/
theorem zeros2 : (![0, 0] : Fin 2 → Nat) = fun _ => 0 := by funext a; fin_cases a <;> rfl

/-- First tile of a core: the class accumulator ends as zeros plus the block's column sums. -/
theorem classAcc_first (c : Dev nD) (i : grid0.Coords) (arg2 : Memref sig .tc .vmem S1024x1000 .f32) (harg2 : arg2.IsWhole) (arg3 : Memref sig .tc .vmem S1024x1 .f32) (harg3 : arg3.IsWhole) (arg4 : Memref sig .tc .vmem S1x1x1000 .f32) (harg4 : arg4.IsWhole) (arg5 : Memref sig .tc .vmem S1x1x1 .f32) (harg5 : arg5.IsWhole) (hc0 : cond0_0 i)
    (x0 : Vec F S1024x1000 .f32) (x1 : Vec F S1024x1 .f32) :
    out0_A_2 c i arg2 harg2 arg3 harg3 arg4 harg4 arg5 harg5 hc0 x0 x1 = k0_pay8 x0 (k0_pay2 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero zeros3]
  simp only [View.readAt_eq_ld, harg2.read_unread, View.ld_unit_zero (S := S1024x1000) zeros2,
    View.readCov_unit_zero (S := S1x1x1000) _ zeros3]

/-- First tile of a core: the focal accumulator ends as zero plus the block's sum of focal terms. -/
theorem focalAcc_first (c : Dev nD) (i : grid0.Coords) (arg2 : Memref sig .tc .vmem S1024x1000 .f32) (harg2 : arg2.IsWhole) (arg3 : Memref sig .tc .vmem S1024x1 .f32) (harg3 : arg3.IsWhole) (arg4 : Memref sig .tc .vmem S1x1x1000 .f32) (harg4 : arg4.IsWhole) (arg5 : Memref sig .tc .vmem S1x1x1 .f32) (harg5 : arg5.IsWhole) (hc0 : cond0_0 i)
    (x0 : Vec F S1024x1000 .f32) (x1 : Vec F S1024x1 .f32) :
    out0_A_3 c i arg2 harg2 arg3 harg3 arg4 harg4 arg5 harg5 hc0 x0 x1 = k0_pay1 (k0_pay7 x0 x1) (k0_pay3 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero zeros3]
  simp only [View.readAt_eq_ld, harg2.read_unread, harg3.read_unread, View.ld_unit_zero (S := S1024x1000) zeros2,
    View.ld_unit_zero (S := S1024x1) zeros2, View.readCov_unit_zero (S := S1x1x1) _ zeros3]

/-- A later tile: the class accumulator ends as what it held plus the block's column sums. -/
theorem classAcc_next (c : Dev nD) (i : grid0.Coords) (arg2 : Memref sig .tc .vmem S1024x1000 .f32) (harg2 : arg2.IsWhole) (arg3 : Memref sig .tc .vmem S1024x1 .f32) (harg3 : arg3.IsWhole) (arg4 : Memref sig .tc .vmem S1x1x1000 .f32) (harg4 : arg4.IsWhole) (arg5 : Memref sig .tc .vmem S1x1x1 .f32) (harg5 : arg5.IsWhole) (hc0 : ¬cond0_0 i)
    (x0 : Vec F S1024x1000 .f32) (x1 : Vec F S1024x1 .f32) (xo2 : Vec F S1x1x1000 .f32) (xo3 : Vec F S1x1x1 .f32) :
    out0_B_2 c i arg2 harg2 arg3 harg3 arg4 harg4 arg5 harg5 hc0 x0 x1 xo2 xo3 = k0_pay8 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero zeros3]
  simp only [View.readAt_eq_ld, harg2.read_unread, harg4.read_unread, View.ld_unit_zero (S := S1024x1000) zeros2,
    View.ld_unit_zero (S := S1x1x1000) zeros3]

/-- A later tile: the focal accumulator ends as what it held plus the block's sum of focal terms. -/
theorem focalAcc_next (c : Dev nD) (i : grid0.Coords) (arg2 : Memref sig .tc .vmem S1024x1000 .f32) (harg2 : arg2.IsWhole) (arg3 : Memref sig .tc .vmem S1024x1 .f32) (harg3 : arg3.IsWhole) (arg4 : Memref sig .tc .vmem S1x1x1000 .f32) (harg4 : arg4.IsWhole) (arg5 : Memref sig .tc .vmem S1x1x1 .f32) (harg5 : arg5.IsWhole) (hc0 : ¬cond0_0 i)
    (x0 : Vec F S1024x1000 .f32) (x1 : Vec F S1024x1 .f32) (xo2 : Vec F S1x1x1000 .f32) (xo3 : Vec F S1x1x1 .f32) :
    out0_B_3 c i arg2 harg2 arg3 harg3 arg4 harg4 arg5 harg5 hc0 x0 x1 xo2 xo3 = k0_pay1 (k0_pay7 x0 x1) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero zeros3]
  simp only [View.readAt_eq_ld, harg2.read_unread, harg3.read_unread, harg5.read_unread,
    View.ld_unit_zero (S := S1024x1000) zeros2, View.ld_unit_zero (S := S1024x1) zeros2,
    View.ld_unit_zero (S := S1x1x1) zeros3]

end Cert.FocalKernel

end
-- ==== Proof.KernelBlocks.lean ====
/-
  Which rows of the arrays each input block holds.

  The grid has 2 × 64 points; point number `t` (core `t / 64`, tile `t % 64`) is handed block `t` of the logits —
  rows `1024·t` to `1024·t + 1023`, all 1000 columns — and block `t` of the column of picked target logits, the same
  rows. So entry (r, c) of the logits block is the logits at (1024·t + r, c), and entry (r, 0) of the other block is
  the column at (1024·t + r, 0). The block's position is the printed index map evaluated at the point, a fact decided
  once over the 128 points.
-/
import proofs.«145446_j66486093742616_2_alg».proof.Proof.Gen.KernelIdeal.Frame
import Idealize.ShloMosaic.Lib.Pipeline.Value
import Idealize.ShloMosaic.Lib.ValueIdx

set_option maxRecDepth 16384

noncomputable section

namespace Cert.FocalKernel

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- There are 128 points. -/
theorem points_lt (t : Fin cfg0.N) : t.val < 128 := lt_of_lt_of_eq t.isLt (show cfg0.N = 128 from N_0)

/-- The logits window's block at point `t` is block `t` along the rows and block 0 along the columns. -/
theorem logits_index : ∀ t : Fin cfg0.N, win0_0.index t 0 = t.val ∧ win0_0.index t 1 = 0 :=
  (by decide +kernel : ∀ t : Fin grid0.N, win0_0.index t 0 = t.val ∧ win0_0.index t 1 = 0)

/-- The picked-logit window's block at point `t` likewise. -/
theorem picked_index : ∀ t : Fin cfg0.N, win0_1.index t 0 = t.val ∧ win0_1.index t 1 = 0 :=
  (by decide +kernel : ∀ t : Fin grid0.N, win0_1.index t 0 = t.val ∧ win0_1.index t 1 = 0)

/-- Row `r` of block `t`, as a row of the whole array. -/
def blockRow (t : Fin cfg0.N) (r : Fin 1024) : Fin 131072 :=
  ⟨1024 * t.val + r.val, by have := points_lt t; have := r.isLt; omega⟩

/-- Entry (r, c) of the logits block at point `t` is the logits at (1024·t + r, c). -/
theorem logits_block_apply (c : Dev nD) (t : Fin cfg0.N) (r : Fin 1024) (q : Fin 1000) :
    (iblk m c 0 t : Vec F S1024x1000 .f32) (ix2 r q) = V m c main_arg0 (ix2 (blockRow t r) q) := by
  unfold iblk
  rw [View.read_apply]
  show V m c main_arg0 _ = V m c main_arg0 _
  congr 1
  funext a
  apply Fin.ext
  match a with
  | ⟨0, _⟩ => show win0_0.index t 0 * 1024 + 1 * r.val = 1024 * t.val + r.val; rw [(logits_index t).1]; omega
  | ⟨1, _⟩ => show win0_0.index t 1 * 1000 + 1 * q.val = q.val; rw [(logits_index t).2]; omega

/-- Entry (r, 0) of the picked-logit block at point `t` is the column at (1024·t + r, 0). -/
theorem picked_block_apply (c : Dev nD) (t : Fin cfg0.N) (r : Fin 1024) :
    (iblk m c 1 t : Vec F S1024x1 .f32) (ix2 r (0 : Fin 1)) = V m c main_v1 (ix2 (blockRow t r) (0 : Fin 1)) := by
  unfold iblk
  rw [View.read_apply]
  show V m c main_v1 _ = V m c main_v1 _
  congr 1
  funext a
  apply Fin.ext
  match a with
  | ⟨0, _⟩ => show win0_1.index t 0 * 1024 + 1 * r.val = 1024 * t.val + r.val; rw [(picked_index t).1]; omega
  | ⟨1, _⟩ => show win0_1.index t 1 * 1 + 1 * 0 = 0; rw [(picked_index t).2]

end Cert.FocalKernel

end
-- ==== Proof.Spec.lean ====
/-
  The two programs, row by row, as functions on the extended reals.

  Both compute a focal loss plus five times a calibration term from logits `x : [131072, 1000]` and one target
  class per row. For a row `b` write `m` for the row's maximum, `S = Σ_c exp (x[b,c] − m)` and `t` for the row's target
  class. The log-probability of the target is `(x[b,t] − m) − log S`, its probability `p` the exponential of that, the
  row's focal term `−(1 − p)² · log p`, and the row's probabilities `exp (x[b,c] − m) / S`. The loss is the mean of the
  focal terms plus five times the mean over the classes of
  `| mean_b probability[b,c] − (number of rows whose target is c) / 131072 |`.

  The two programs differ in four places, which is why each has its own spelling below (`…K` for the kernel,
  `…R` for the reference):
  * the target entry is picked out of `x` before the subtractions (kernel) or out of the finished log-probabilities
    (reference); a target outside `[0, 1000)` picks the fill value instead, on both sides;
  * the square is a product (kernel) or a power with exponent `2.0` (reference);
  * the sign is `0 − y` (kernel) or `−y` (reference);
  * the reference takes the maximum of `−∞` and the row maximum once more.
  And the kernel adds its rows up tile by tile (1024 rows), 64 tiles per core, two cores, where the reference adds
  all 131072 rows at once.

  Which row the target names is decided by integer operations on the targets alone, the same ones in both programs;
  here they are two parameters: `μ b` is the bit "row `b`'s target is in range" and `κ b` the class it names.
-/
import Idealize.ShloMosaic.PureOps.Ideal
import Idealize.ShloMosaic.Lib.ValueIdx

noncomputable section

open scoped BigOperators

namespace Cert.FocalSpec

open Idealize.ShloMosaic Idealize.ShloMosaic.ValueIdx

/-- The logits' shape. -/
abbrev SX : Shape := ⟨2, ![131072, 1000]⟩

/-- The float words the two programs spell, read as extended reals: `−∞`, the fill value of an out-of-range
    pick (a NaN pattern), `1.0` and `2.0`. (The zero word is written `0` throughout: it is `0`.) -/
def negInf : EReal := Ideal.ofBits .f32 0xFF800000#32
def fillv : EReal := Ideal.ofBits .f32 0x7FC00000#32
def oneW : EReal := Ideal.ofBits .f32 0x3F800000#32
def twoW : EReal := Ideal.ofBits .f32 0x40000000#32

/-- Row `b`'s maximum: `max` folded from `−∞` over the row's 1000 entries. -/
def rowMax (x : SX.Idx → EReal) (b : Fin 131072) : EReal :=
  (Finset.univ : Finset (Fin 1000)).fold max negInf (fun c => x (ix2 b c))

/-- The row's entry `c`, shifted by the row maximum and exponentiated. -/
def expShift (x : SX.Idx → EReal) (b : Fin 131072) (c : Fin 1000) : EReal :=
  Ideal.exp (x (ix2 b c) - rowMax x b)

/-- The row's sum of those exponentials. -/
def rowSum (x : SX.Idx → EReal) (b : Fin 131072) : EReal := ∑ c : Fin 1000, expShift x b c

/-- The row's probability of class `c`. -/
def prob (x : SX.Idx → EReal) (b : Fin 131072) (c : Fin 1000) : EReal :=
  Ideal.div (expShift x b c) (rowSum x b)

/-! ## The kernel's spelling -/

/-- The target's logit as the kernel's host code picks it: the row's entry at the named class, or the fill value. -/
def pickedK (x : SX.Idx → EReal) (μ : Fin 131072 → BitVec 1) (κ : Fin 131072 → Fin 1000) (b : Fin 131072) : EReal :=
  Scalar.select (μ b) (x (ix2 b (κ b))) fillv

/-- The target's log-probability in the kernel: `(picked − max) − log (sum)`. -/
def logptK (x : SX.Idx → EReal) (μ : Fin 131072 → BitVec 1) (κ : Fin 131072 → Fin 1000) (b : Fin 131072) : EReal :=
  (pickedK x μ κ b - rowMax x b) - Ideal.log (rowSum x b)

/-- The kernel's focal term of a log-probability `v`: `(0 − (1 − eᵛ)·(1 − eᵛ)) · v`. -/
def focalK (v : EReal) : EReal := (0 - (oneW - Ideal.exp v) * (oneW - Ideal.exp v)) * v

/-- Row number `r` of tile `tile` of core `core`: the kernel's blocks are 1024 rows, 64 blocks per core. -/
def rowOf (core : Fin 2) (tile : Fin 64) (r : Fin 1024) : Fin 131072 :=
  ⟨1024 * (64 * core.val + tile.val) + r.val, by have := core.isLt; have := tile.isLt; have := r.isLt; omega⟩

/-- The kernel's sum of focal terms: rows within a tile, tiles within a core, the two cores. -/
def focalSumK (x : SX.Idx → EReal) (μ : Fin 131072 → BitVec 1) (κ : Fin 131072 → Fin 1000) : EReal :=
  ∑ core : Fin 2, ∑ tile : Fin 64, ∑ r : Fin 1024, focalK (logptK x μ κ (rowOf core tile r))

/-- The kernel's sum of the probabilities of class `c`, in the same order. -/
def probSumK (x : SX.Idx → EReal) (c : Fin 1000) : EReal :=
  ∑ core : Fin 2, ∑ tile : Fin 64, ∑ r : Fin 1024, prob x (rowOf core tile r) c

/-! ## The reference's spelling -/

/-- The reference's row maximum: the maximum of `−∞` and the row maximum. -/
def rowMaxR (x : SX.Idx → EReal) (b : Fin 131072) : EReal := max negInf (rowMax x b)

def expShiftR (x : SX.Idx → EReal) (b : Fin 131072) (c : Fin 1000) : EReal :=
  Ideal.exp (x (ix2 b c) - rowMaxR x b)

def rowSumR (x : SX.Idx → EReal) (b : Fin 131072) : EReal := ∑ c : Fin 1000, expShiftR x b c

/-- The reference's log-probability of class `c` in row `b`. -/
def logpR (x : SX.Idx → EReal) (b : Fin 131072) (c : Fin 1000) : EReal :=
  (x (ix2 b c) - rowMaxR x b) - Ideal.log (rowSumR x b)

/-- The target's log-probability in the reference: picked out of the log-probabilities, or the fill value. -/
def logptR (x : SX.Idx → EReal) (μ : Fin 131072 → BitVec 1) (κ : Fin 131072 → Fin 1000) (b : Fin 131072) : EReal :=
  Scalar.select (μ b) (logpR x b (κ b)) fillv

/-- The reference's focal term of a log-probability `v`: `(−((1 − eᵛ) ^ 2.0)) · v`. -/
def focalR (v : EReal) : EReal := (-(Ideal.pow (oneW - Ideal.exp v) twoW)) * v

def probR (x : SX.Idx → EReal) (b : Fin 131072) (c : Fin 1000) : EReal :=
  Ideal.div (expShiftR x b c) (rowSumR x b)

/-- The reference's sum of focal terms, over all rows at once. -/
def focalSumR (x : SX.Idx → EReal) (μ : Fin 131072 → BitVec 1) (κ : Fin 131072 → Fin 1000) : EReal :=
  ∑ b : Fin 131072, focalR (logptR x μ κ b)

/-- The reference's sum of the probabilities of class `c`. -/
def probSumR (x : SX.Idx → EReal) (c : Fin 1000) : EReal := ∑ b : Fin 131072, probR x b c

end Cert.FocalSpec

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.KernelPayload.lean ====
/-
  The kernel body's arithmetic on one block of 1024 rows, read entry by entry on the extended reals.

  The body loads a block `x0` of 1024 rows of the logits and the column `x1` of the rows' picked target logits. Per
  row it takes the maximum of the row's 1000 entries, the exponentials of the entries shifted by that maximum and
  their sum; from these the row's focal term and the row's 1000 probabilities. It adds the 1024 focal terms into one
  number and, class by class, the 1024 probabilities into a row of 1000 numbers, and adds both into its accumulators.

  Here each of those values is identified with the row-by-row function of the whole logits array `x` that the
  specification names, given only which global row `β r` each row `r` of the block is.
-/
import proofs.«145446_j66486093742616_2_alg».proof.Proof.Gen.KernelIdeal.Skeleton
import proofs.«145446_j66486093742616_2_alg».proof.Proof.Spec
import proofs.«145446_j66486093742616_2_alg».proof.Proof.LibKeepdimsColumn
import Idealize.ShloMosaic.PureOps.Ideal.Laws
import Idealize.ShloMosaic.Lib.Pipeline.Value
import Idealize.ShloMosaic.Lib.ValueIdx
import Idealize.ShloMosaic.Lib.ValueLayout

open scoped BigOperators

namespace Cert.FocalKernel

open Idealize.ShloMosaic Idealize.ShloMosaic.ValueIdx Cert.KernelIdeal Cert.KernelIdeal.Gen Cert.FocalSpec
open Cert.Lib.KeepdimsColumn

/-! ## The index a reduction inserts, at the block's literal shapes -/

/-- Summing a [1024, 1000] block along its columns: over row `r`, the entry with column `c` put back is `(r, c)`. -/
theorem lift_row (h : S1024x1000.Reduces [1] S1024) (r : Fin 1024) (c : Fin 1000) : h.lift (ix1 r) c = ix2 r c :=
  funext fun d => match d with | ⟨0, _⟩ => Fin.ext rfl | ⟨1, _⟩ => Fin.ext rfl

/-- Summing a [1024, 1000] block along its rows: over column `c`, the entry with row `r` put back is `(r, c)`. -/
theorem lift_col (h : S1024x1000.Reduces [0] S1000) (c : Fin 1000) (r : Fin 1024) : h.lift (ix1 c) r = ix2 r c :=
  funext fun d => match d with | ⟨0, _⟩ => Fin.ext rfl | ⟨1, _⟩ => Fin.ext rfl

/-- Summing a [1024, 1] column along its rows: the entry with row `r` put back is `(r, 0)`. -/
theorem lift_col1 (h : S1024x1.Reduces [0] S1) (r : Fin 1024) : h.lift (ix1 (0 : Fin 1)) r = ix2 r (0 : Fin 1) :=
  funext fun d => match d with | ⟨0, _⟩ => Fin.ext rfl | ⟨1, _⟩ => Fin.ext rfl

/-! ## Two pieces of the body that do not depend on the block -/

/-- The body's focal term of a column `v` of log-probabilities, entry by entry: `(0 − (1 − eᵛ)·(1 − eᵛ))·v`. -/
theorem focalCol_at (v : FVec Ideal S1024x1 .f32) (i : S1024x1.Idx) :
    mulf (subf (broadcast S1024x1 (FloatOps.ofBits (F := Ideal) .f32 0x00000000#32))
        (mulf (subf (broadcast S1024x1 (FloatOps.ofBits (F := Ideal) .f32 0x3F800000#32)) (exp v))
          (subf (broadcast S1024x1 (FloatOps.ofBits (F := Ideal) .f32 0x3F800000#32)) (exp v)))) v i
      = focalK (v i) := by
  unfold focalK oneW
  show (Ideal.ofBits .f32 0x00000000#32 - _) * _ = _
  rw [Ideal.ofBits_zero_f32]
  rfl

/-- The [1000] → [1, 1000] → [1, 1, 1000] reshapes, entry `(0, 0, c)`: the `c`-th number. -/
theorem row_cast_at {α : Type} (u : S1000.Idx → α) (h1 : S1000.ShapeCasts S1x1000) (h2 : S1x1000.ShapeCasts S1x1x1000)
    (c : Fin 1000) :
    shapeCast S1x1x1000 (shapeCast S1x1000 u h1) h2 (ix3 (0 : Fin 1) (0 : Fin 1) c) = u (ix1 c) := by
  refine (shapeCast_apply _ h2 _ (ix2 (0 : Fin 1) c) ?_).trans (shapeCast_apply u h1 _ (ix1 c) ?_)
  · rw [Shape.rowMajor_val_two, Shape.rowMajor_val_three]
    show 0 * 1000 + c.val = (0 * 1 + 0) * 1000 + c.val
    omega
  · rw [Shape.rowMajor_val_one, Shape.rowMajor_val_two]
    show c.val = 0 * 1000 + c.val
    omega

section Block

variable (x : SX.Idx → EReal) (β : Fin 1024 → Fin 131072) (x0 : Vec Ideal S1024x1000 .f32)
  (hx0 : ∀ (r : Fin 1024) (c : Fin 1000), x0 (ix2 r c) = x (ix2 (β r) c))

include hx0

/-- The block's column of row maxima, at row `r`: the maximum of global row `β r`. -/
theorem blockMax_at (r : Fin 1024) : k0_pay4 (F := Ideal) x0 (ix2 r (0 : Fin 1)) = rowMax x (β r) := by
  unfold k0_pay4
  refine (column_cast_at (a := 1024) _ shapeCasts_S1024_S1024x1 r).trans ?_
  refine (Ideal.multiReduction_maximumf_single x0 _ _ _ _ (ix1 r)).trans ?_
  unfold rowMax negInf
  refine congrArg (fun f => (Finset.univ : Finset (Fin 1000)).fold max (Ideal.ofBits .f32 0xFF800000#32) f)
    (funext fun c => ?_)
  exact (congrArg x0 (lift_row _ r c)).trans (hx0 r c)

/-- The block's shifted exponentials, at `(r, c)`: those of global row `β r`. -/
theorem blockExp_at (r : Fin 1024) (c : Fin 1000) : k0_pay5 (F := Ideal) x0 (ix2 r c) = expShift x (β r) c := by
  unfold k0_pay5
  have e : broadcastTo S1024x1000 (k0_pay4 (F := Ideal) x0) broadcasts_S1024x1_S1024x1000 (ix2 r c) = rowMax x (β r) :=
    (column_broadcast_at (a := 1024) (b := 1000) (k0_pay4 (F := Ideal) x0) broadcasts_S1024x1_S1024x1000 r c).trans
      (blockMax_at x β x0 hx0 r)
  show Ideal.exp (x0 (ix2 r c) - broadcastTo S1024x1000 (k0_pay4 (F := Ideal) x0) broadcasts_S1024x1_S1024x1000 (ix2 r c)) = _
  rw [e, hx0]
  rfl

/-- The block's column of row sums, at row `r`: the sum of global row `β r`'s shifted exponentials. -/
theorem blockSum_at (r : Fin 1024) : k0_pay6 (F := Ideal) x0 (ix2 r (0 : Fin 1)) = rowSum x (β r) := by
  unfold k0_pay6
  refine (column_cast_at (a := 1024) _ shapeCasts_S1024_S1024x1 r).trans ?_
  refine (Ideal.multiReduction_add_single (k0_pay5 (F := Ideal) x0) _ _ _ _ (ix1 r)).trans ?_
  show ∑ c : Fin 1000, k0_pay5 (F := Ideal) x0 (reduces_S1024x1000_S1024.lift (ix1 r) c) = ∑ c : Fin 1000, expShift x (β r) c
  refine Finset.sum_congr rfl fun c _ => ?_
  exact (congrArg (k0_pay5 (F := Ideal) x0) (lift_row _ r c)).trans (blockExp_at x β x0 hx0 r c)

/-! ## The focal terms of the block -/

section Focal

variable (ℓ : Fin 1024 → EReal) (x1 : Vec Ideal S1024x1 .f32) (hx1 : ∀ r : Fin 1024, x1 (ix2 r (0 : Fin 1)) = ℓ r)

include hx1 in
/-- The target's log-probability of the block's row `r`: `(picked − max) − log (sum)` of global row `β r`. -/
theorem blockLogpt_at (r : Fin 1024) :
    subf (subf (shapeCast S1024x1 x1 shapeCasts_S1024x1_S1024x1) (k0_pay4 (F := Ideal) x0)) (log (k0_pay6 (F := Ideal) x0))
        (ix2 r (0 : Fin 1))
      = (ℓ r - rowMax x (β r)) - Ideal.log (rowSum x (β r)) := by
  show (shapeCast S1024x1 x1 shapeCasts_S1024x1_S1024x1 (ix2 r (0 : Fin 1)) - k0_pay4 (F := Ideal) x0 (ix2 r (0 : Fin 1)))
      - Ideal.log (k0_pay6 (F := Ideal) x0 (ix2 r (0 : Fin 1))) = _
  rw [shapeCast_self x1, blockMax_at x β x0 hx0, blockSum_at x β x0 hx0, hx1]

include hx1 in
/-- The block's sum of focal terms: the 1024 rows' focal terms of their targets' log-probabilities, added up. -/
theorem blockFocal_at :
    k0_pay7 (F := Ideal) x0 x1 (ix2 (0 : Fin 1) (0 : Fin 1))
      = ∑ r : Fin 1024, focalK ((ℓ r - rowMax x (β r)) - Ideal.log (rowSum x (β r))) := by
  unfold k0_pay7
  refine (column_cast_at (a := 1) _ shapeCasts_S1_S1x1 (0 : Fin 1)).trans ?_
  refine (Ideal.multiReduction_add_single _ _ _ _ _ (ix1 (0 : Fin 1))).trans ?_
  refine Finset.sum_congr rfl fun r _ => ?_
  refine (focalCol_at _ _).trans (congrArg focalK ?_)
  exact (congrArg _ (lift_col1 _ r)).trans (blockLogpt_at x β x0 hx0 ℓ x1 hx1 r)

end Focal

/-! ## The probabilities of the block, class by class -/

/-- The block's probability of class `c` in row `r`: that of global row `β r`. -/
theorem blockProb_at (r : Fin 1024) (c : Fin 1000) :
    divf (k0_pay5 (F := Ideal) x0) (broadcastTo S1024x1000 (k0_pay6 (F := Ideal) x0) broadcasts_S1024x1_S1024x1000) (ix2 r c)
      = prob x (β r) c := by
  have e : broadcastTo S1024x1000 (k0_pay6 (F := Ideal) x0) broadcasts_S1024x1_S1024x1000 (ix2 r c) = rowSum x (β r) :=
    (column_broadcast_at (a := 1024) (b := 1000) (k0_pay6 (F := Ideal) x0) broadcasts_S1024x1_S1024x1000 r c).trans
      (blockSum_at x β x0 hx0 r)
  show Ideal.div (k0_pay5 (F := Ideal) x0 (ix2 r c))
    (broadcastTo S1024x1000 (k0_pay6 (F := Ideal) x0) broadcasts_S1024x1_S1024x1000 (ix2 r c)) = _
  rw [e, blockExp_at x β x0 hx0]
  rfl

/-- The accumulated row of class sums after the block: at class `c`, what was there plus the block's 1024
    probabilities of class `c`. -/
theorem blockProbSum_at (acc : Vec Ideal S1x1x1000 .f32) (c : Fin 1000) :
    k0_pay8 (F := Ideal) x0 acc (ix3 (0 : Fin 1) (0 : Fin 1) c)
      = acc (ix3 (0 : Fin 1) (0 : Fin 1) c) + ∑ r : Fin 1024, prob x (β r) c := by
  unfold k0_pay8
  show shapeCast S1x1x1000 acc shapeCasts_S1x1x1000_S1x1x1000 (ix3 (0 : Fin 1) (0 : Fin 1) c)
      + shapeCast S1x1x1000 (shapeCast S1x1000 _ shapeCasts_S1000_S1x1000) shapeCasts_S1x1000_S1x1x1000
          (ix3 (0 : Fin 1) (0 : Fin 1) c) = _
  rw [shapeCast_self acc]
  refine congrArg (fun y => acc (ix3 (0 : Fin 1) (0 : Fin 1) c) + y) ?_
  refine (row_cast_at _ _ _ c).trans ?_
  refine (Ideal.multiReduction_add_single _ _ _ _ _ (ix1 c)).trans ?_
  refine Finset.sum_congr rfl fun r _ => ?_
  exact (congrArg _ (lift_col _ c r)).trans (blockProb_at x β x0 hx0 r c)

end Block

/-! ## The accumulators' other two stores -/

/-- The focal accumulator after the block: what was there plus the block's sum. -/
theorem focalAcc_at (v24 : FVec Ideal S1x1 .f32) (v34 : Vec Ideal S1x1x1 .f32) :
    k0_pay1 (F := Ideal) v24 v34 (ix3 (0 : Fin 1) (0 : Fin 1) (0 : Fin 1))
      = v34 (ix3 (0 : Fin 1) (0 : Fin 1) (0 : Fin 1)) + v24 (ix2 (0 : Fin 1) (0 : Fin 1)) := by
  unfold k0_pay1
  show shapeCast S1x1x1 v34 shapeCasts_S1x1x1_S1x1x1 (ix3 (0 : Fin 1) (0 : Fin 1) (0 : Fin 1))
      + shapeCast S1x1x1 v24 shapeCasts_S1x1_S1x1x1 (ix3 (0 : Fin 1) (0 : Fin 1) (0 : Fin 1)) = _
  rw [shapeCast_self v34]
  refine congrArg (fun y => v34 (ix3 (0 : Fin 1) (0 : Fin 1) (0 : Fin 1)) + y) ?_
  exact shapeCast_apply v24 _ _ (ix2 (0 : Fin 1) (0 : Fin 1)) (by
    rw [Shape.rowMajor_val_two, Shape.rowMajor_val_three]; rfl)

/-- The first tile of a core starts the row of class sums at zero. -/
theorem probInit_at (i : S1x1x1000.Idx) : k0_pay2 (F := Ideal) i = 0 := by
  unfold k0_pay2
  exact Ideal.ofBits_zero_f32

/-- The first tile of a core starts the focal accumulator at zero. -/
theorem focalInit_at (i : S1x1x1.Idx) : k0_pay3 (F := Ideal) i = 0 := by
  unfold k0_pay3
  exact Ideal.ofBits_zero_f32

end Cert.FocalKernel
-- ==== Proof.LibBlockedSum.lean ====
import Idealize.ShloMosaic.Lib.ValueIdx

/-!
# A sum over a matrix taken block by block

In a commutative monoid (the extended reals under addition are one, infinities included) the sum of a function of
two naturals over the positions of an (A·R)-by-(B·C) matrix is the sum, over the A-by-B grid of R-by-C blocks, of each
block's own sum: position (u, m) is (i·R + r, j·C + c) for exactly one block (i, j) and one place (r, c) in it. Also:
a chain that starts from a row's first term and adds the next term at each step holds, after step n, the sum of the
row's terms so far — stated for finitely many steps counted along rows of B steps, as a grid whose last axis is
innermost visits them.
Nothing here evaluates an index set, so the statements apply at any extents.
-/

open scoped BigOperators

namespace Cert.Lib.BlockedSum

/-- Positions below A * R, split as i * R + r. -/
theorem sum_range_mul {M : Type*} [AddCommMonoid M] (f : ℕ → M) (A R : ℕ) :
    ∑ n ∈ Finset.range (A * R), f n = ∑ i ∈ Finset.range A, ∑ r ∈ Finset.range R, f (i * R + r) := by
  induction A with
  | zero => simp
  | succ A ih =>
    rw [Nat.succ_mul, Finset.sum_range_add, ih, Finset.sum_range_succ]

/-- The whole matrix's sum is the sum over the grid of blocks of each block's sum. -/
theorem sum_blocks {M : Type*} [AddCommMonoid M] (f : ℕ → ℕ → M) (A R B C : ℕ) :
    ∑ i ∈ Finset.range A, ∑ j ∈ Finset.range B, ∑ r ∈ Finset.range R, ∑ c ∈ Finset.range C, f (i * R + r) (j * C + c)
      = ∑ u ∈ Finset.range (A * R), ∑ m ∈ Finset.range (B * C), f u m := by
  rw [sum_range_mul]
  refine Finset.sum_congr rfl fun i _ => ?_
  rw [Finset.sum_comm]
  refine Finset.sum_congr rfl fun r _ => ?_
  rw [sum_range_mul]

/-- Steps 0, 1, …, N − 1 numbered along rows of B: step n is in row n / B at place n % B. A quantity defined at every
    step below N that at a row's first step is that step's term, and at every other step is the previous step's
    quantity plus the step's term, is after step n the sum of the row's terms up to place n % B. -/
theorem row_chain {M : Type*} [AddCommMonoid M] (B N : ℕ) (hB : 0 < B) (term : ℕ → ℕ → M) (q : (n : ℕ) → n < N → M)
    (hfirst : ∀ n (h : n < N), n % B = 0 → q n h = term (n / B) 0)
    (hnext : ∀ n (h : n + 1 < N), (n + 1) % B ≠ 0 →
      q (n + 1) h = q n (Nat.lt_of_succ_lt h) + term ((n + 1) / B) ((n + 1) % B)) :
    ∀ n (h : n < N), q n h = ∑ j ∈ Finset.range (n % B + 1), term (n / B) j := by
  intro n
  induction n with
  | zero =>
    intro h
    rw [hfirst 0 h (Nat.zero_mod B), Nat.zero_mod, Finset.sum_range_one]
  | succ n ih =>
    intro h
    by_cases h0 : (n + 1) % B = 0
    · rw [hfirst (n + 1) h h0, h0, Finset.sum_range_one]
    · have hdiv : (n + 1) / B = n / B := by
        have h1 := Nat.div_add_mod (n + 1) B
        have h2 := Nat.div_add_mod n B
        have h3 := Nat.mod_lt n hB
        have h4 := Nat.mod_lt (n + 1) hB
        by_contra hne
        rcases Nat.lt_or_gt_of_ne hne with hlt | hgt
        · have : B * ((n + 1) / B) + B ≤ B * (n / B) := by
            calc B * ((n + 1) / B) + B = B * ((n + 1) / B + 1) := by ring
              _ ≤ B * (n / B) := Nat.mul_le_mul_left B hlt
          omega
        · have hge : B * (n / B) + B ≤ B * ((n + 1) / B) := by
            calc B * (n / B) + B = B * (n / B + 1) := by ring
              _ ≤ B * ((n + 1) / B) := Nat.mul_le_mul_left B hgt
          have : (n + 1) % B = 0 := by omega
          exact h0 this
      have hmod : (n + 1) % B = n % B + 1 := by
        have h1 := Nat.div_add_mod (n + 1) B
        have h2 := Nat.div_add_mod n B
        rw [hdiv] at h1
        omega
      rw [hnext n h h0, ih (Nat.lt_of_succ_lt h), hdiv, hmod, Finset.sum_range_succ (fun j => term (n / B) j) (n % B + 1)]

end Cert.Lib.BlockedSum
-- ==== Proof.KernelAccum.lean ====
/-
  The two accumulators, point by point.

  Point number n of the grid is tile n % 64 of core n / 64. At a core's first tile the body clears both accumulators
  and adds the tile's contribution; at every later tile it adds the tile's contribution to what the accumulators held
  after the point before (their buffers are not written back in between). So after point n the class accumulator
  holds, for each class, the sum over the core's tiles 0 … n % 64 of the tile's column sum of probabilities, and the
  focal accumulator the sum over the same tiles of the tile's sum of focal terms: a chain that restarts at each core,
  which is the sum of the row so far in any commutative monoid.
-/
import proofs.«145446_j66486093742616_2_alg».proof.Proof.KernelPieces
import proofs.«145446_j66486093742616_2_alg».proof.Proof.KernelBlocks
import proofs.«145446_j66486093742616_2_alg».proof.Proof.KernelPayload
import proofs.«145446_j66486093742616_2_alg».proof.Proof.LibBlockedSum

set_option maxRecDepth 16384

noncomputable section

open scoped BigOperators

namespace Cert.FocalKernel

open Idealize.ShloMosaic Idealize.ShloMosaic.TcCoe Idealize.ShloMosaic.ValueIdx
open Idealize.SL Idealize.SL.Sem
open Cert.KernelIdeal Cert.KernelIdeal.Gen Cert.FocalSpec

variable (m : (ℓ : Loc nD τ sig) → Buf (Elt Ideal) ℓ)

/-- The logits as the kernel region finds them. -/
abbrev logits (c : Dev nD) : SX.Idx → EReal := V m c main_arg0
/-- The column of picked target logits as the kernel region finds it. -/
abbrev pickedCol (c : Dev nD) : S131072x1.Idx → EReal := V m c main_v1

/-- Tile `t`'s column sum of the probabilities of class `q`. -/
def tileProb (c : Dev nD) (t : Fin cfg0.N) (q : Fin 1000) : EReal :=
  ∑ r : Fin 1024, prob (logits m c) (blockRow t r) q

/-- Tile `t`'s sum of focal terms. -/
def tileFocal (c : Dev nD) (t : Fin cfg0.N) : EReal :=
  ∑ r : Fin 1024, focalK ((pickedCol m c (ix2 (blockRow t r) (0 : Fin 1)) - rowMax (logits m c) (blockRow t r))
    - Ideal.log (rowSum (logits m c) (blockRow t r)))

/-- A natural number read as a point of the grid (the points are 0 … 127). -/
def pt (k : ℕ) : Fin cfg0.N := ⟨k % 128, by rw [show cfg0.N = 128 from N_0]; exact Nat.mod_lt _ (by norm_num)⟩

theorem pt_of_lt (n : ℕ) (h : n < cfg0.N) (k : ℕ) (hk : k = n) : pt k = ⟨n, h⟩ := by
  subst hk
  have h128 : k < 128 := lt_of_lt_of_eq h (show cfg0.N = 128 from N_0)
  exact Fin.ext (Nat.mod_eq_of_lt h128)

/-- After point n the class accumulator holds, at class q, the sum of the tiles' column sums over the core's tiles so far. -/
theorem classAcc_chain (c : Dev nD) (q : Fin 1000) : ∀ (n : ℕ) (h : n < cfg0.N),
    (outsAt0 m c n h).1 (ix3 (0 : Fin 1) (0 : Fin 1) q)
      = ∑ j ∈ Finset.range (n % 64 + 1), tileProb m c (pt (64 * (n / 64) + j)) q := by
  have key := Cert.Lib.BlockedSum.row_chain 64 cfg0.N (by norm_num)
    (fun core j => tileProb m c (pt (64 * core + j)) q)
    (fun n h => (outsAt0 m c n h).1 (ix3 (0 : Fin 1) (0 : Fin 1) q)) ?first ?next
  · exact key
  case first =>
    intro n h h0
    have e : outsAt0 m c n h = _ := outsAt0_A m c ⟨n, h⟩ h0
    show (outsAt0 m c n h).1 (ix3 (0 : Fin 1) (0 : Fin 1) q) = tileProb m c (pt (64 * (n / 64) + 0)) q
    rw [e]
    dsimp only
    rw [classAcc_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk m c 0 ⟨n, h⟩) (iblk m c 1 ⟨n, h⟩),
      blockProbSum_at (logits m c) (blockRow ⟨n, h⟩) (iblk m c 0 ⟨n, h⟩) (fun r p => logits_block_apply m c ⟨n, h⟩ r p)
        (k0_pay2 (F := Ideal)) q,
      probInit_at, zero_add, pt_of_lt n h _ (by omega)]
    rfl
  case next =>
    intro n h h0
    have e : outsAt0 m c (n + 1) h = _ := outsAt0_B m c ⟨n + 1, h⟩ h0
    show (outsAt0 m c (n + 1) h).1 (ix3 (0 : Fin 1) (0 : Fin 1) q)
      = (outsAt0 m c n (Nat.lt_of_succ_lt h)).1 (ix3 (0 : Fin 1) (0 : Fin 1) q) + tileProb m c (pt (64 * ((n + 1) / 64) + (n + 1) % 64)) q
    rw [e]
    dsimp only
    rw [classAcc_next c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh)) (iblk m c 0 ⟨n + 1, h⟩) (iblk m c 1 ⟨n + 1, h⟩) _ _,
      blockProbSum_at (logits m c) (blockRow ⟨n + 1, h⟩) (iblk m c 0 ⟨n + 1, h⟩) (fun r p => logits_block_apply m c ⟨n + 1, h⟩ r p) _ q,
      pt_of_lt (n + 1) h _ (by have := Nat.div_add_mod (n + 1) 64; omega)]
    rfl

/-- After point n the focal accumulator holds the sum of the tiles' focal sums over the core's tiles so far. -/
theorem focalAcc_chain (c : Dev nD) : ∀ (n : ℕ) (h : n < cfg0.N),
    (outsAt0 m c n h).2 (ix3 (0 : Fin 1) (0 : Fin 1) (0 : Fin 1))
      = ∑ j ∈ Finset.range (n % 64 + 1), tileFocal m c (pt (64 * (n / 64) + j)) := by
  have key := Cert.Lib.BlockedSum.row_chain 64 cfg0.N (by norm_num)
    (fun core j => tileFocal m c (pt (64 * core + j)))
    (fun n h => (outsAt0 m c n h).2 (ix3 (0 : Fin 1) (0 : Fin 1) (0 : Fin 1))) ?first ?next
  · exact key
  case first =>
    intro n h h0
    have e : outsAt0 m c n h = _ := outsAt0_A m c ⟨n, h⟩ h0
    show (outsAt0 m c n h).2 (ix3 (0 : Fin 1) (0 : Fin 1) (0 : Fin 1)) = tileFocal m c (pt (64 * (n / 64) + 0))
    rw [e]
    dsimp only
    rw [focalAcc_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk m c 0 ⟨n, h⟩) (iblk m c 1 ⟨n, h⟩),
      focalAcc_at, focalInit_at, zero_add,
      blockFocal_at (logits m c) (blockRow ⟨n, h⟩) (iblk m c 0 ⟨n, h⟩) (fun r p => logits_block_apply m c ⟨n, h⟩ r p)
        (fun r => pickedCol m c (ix2 (blockRow ⟨n, h⟩ r) (0 : Fin 1))) (iblk m c 1 ⟨n, h⟩) (fun r => picked_block_apply m c ⟨n, h⟩ r),
      pt_of_lt n h _ (by omega)]
    rfl
  case next =>
    intro n h h0
    have e : outsAt0 m c (n + 1) h = _ := outsAt0_B m c ⟨n + 1, h⟩ h0
    show (outsAt0 m c (n + 1) h).2 (ix3 (0 : Fin 1) (0 : Fin 1) (0 : Fin 1))
      = (outsAt0 m c n (Nat.lt_of_succ_lt h)).2 (ix3 (0 : Fin 1) (0 : Fin 1) (0 : Fin 1)) + tileFocal m c (pt (64 * ((n + 1) / 64) + (n + 1) % 64))
    rw [e]
    dsimp only
    rw [focalAcc_next c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh)) (iblk m c 0 ⟨n + 1, h⟩) (iblk m c 1 ⟨n + 1, h⟩) _ _,
      focalAcc_at,
      blockFocal_at (logits m c) (blockRow ⟨n + 1, h⟩) (iblk m c 0 ⟨n + 1, h⟩) (fun r p => logits_block_apply m c ⟨n + 1, h⟩ r p)
        (fun r => pickedCol m c (ix2 (blockRow ⟨n + 1, h⟩ r) (0 : Fin 1))) (iblk m c 1 ⟨n + 1, h⟩) (fun r => picked_block_apply m c ⟨n + 1, h⟩ r),
      pt_of_lt (n + 1) h _ (by have := Nat.div_add_mod (n + 1) 64; omega)]
    rfl

end Cert.FocalKernel

end
-- ==== Proof.KernelArrays.lean ====
/-
  The kernel's two result arrays after the region.

  Each core's accumulators are written back once, after the core's 64th tile (points 63 and 127), into block
  `core` of the result arrays [2, 1, 1000] and [2, 1, 1]. What is written is what the accumulators hold then: the sum
  over the core's 64 tiles. The two blocks cover the arrays, so entry (core, 0, q) of the first array is the core's
  total of the column sums of class q's probabilities, and entry (core, 0, 0) of the second the core's total of the
  focal sums.
-/
import proofs.«145446_j66486093742616_2_alg».proof.Proof.KernelAccum

set_option maxRecDepth 16384

noncomputable section

open scoped BigOperators

namespace Cert.FocalKernel

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.FocalSpec

variable (m : (ℓ : Loc nD τ sig) → Buf (Elt Ideal) ℓ)

/-- A core's total of the tiles' column sums of class `q`. -/
def classTotal (c : Dev nD) (core : Fin 2) (q : Fin 1000) : EReal :=
  ∑ j ∈ Finset.range 64, tileProb m c (pt (64 * core.val + j)) q

/-- A core's total of the tiles' focal sums. -/
def focalTotal (c : Dev nD) (core : Fin 2) : EReal :=
  ∑ j ∈ Finset.range 64, tileFocal m c (pt (64 * core.val + j))

/-- The first result array: entry (core, 0, q) is the core's total for class `q`. -/
def classArray (c : Dev nD) : S2x1x1000.Idx → EReal :=
  fun i => classTotal m c ⟨(i 0).val, (i 0).isLt⟩ ⟨(i 2).val, (i 2).isLt⟩

/-- The second result array: entry (core, 0, 0) is the core's focal total. -/
def focalArray (c : Dev nD) : S2x1x1.Idx → EReal :=
  fun i => focalTotal m c ⟨(i 0).val, (i 0).isLt⟩

theorem classArray_apply (c : Dev nD) (core : Fin 2) (q : Fin 1000) :
    classArray m c (ix3 core (0 : Fin 1) q) = classTotal m c core q := rfl
theorem focalArray_apply (c : Dev nD) (core : Fin 2) :
    focalArray m c (ix3 core (0 : Fin 1) (0 : Fin 1)) = focalTotal m c core := rfl

/-- The class accumulator's block at point `t` is block `t / 64` of its array. -/
theorem class_index : ∀ t : Fin cfg0.N, win0_2.index t 0 = t.val / 64 ∧ win0_2.index t 1 = 0 ∧ win0_2.index t 2 = 0 :=
  (by decide +kernel : ∀ t : Fin grid0.N, win0_2.index t 0 = t.val / 64 ∧ win0_2.index t 1 = 0 ∧ win0_2.index t 2 = 0)
/-- The focal accumulator's block at point `t` likewise. -/
theorem focal_index : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)

/-- What a write-back of the class accumulator writes: the block of `classArray` it lands on. -/
theorem class_flushed (c : Dev nD) (t : Fin cfg0.N) (hf : (cfg0.win 2).flush t = true) :
    (dats m 0 c).flushed 2 t = ((cfg0.win 2).blk t).view.read (Elt Ideal) (classArray m c) := by
  have h63 : t.val % 64 = 63 := (flush0_2 t).mp hf
  have hN := points_lt t
  show (cfg0.win 2).cut (grid0.coords t) ((dats m 0 c).after 2 t) = _
  rw [after0_2]
  funext y
  rw [View.read_apply]
  obtain ⟨a0, a1, q, rfl⟩ : ∃ (a0 : Fin 1) (a1 : Fin 1) (q : Fin 1000), y = ix3 a0 a1 q := ⟨y 0, y 1, y 2, eq_ix3 y⟩
  obtain rfl : a0 = 0 := Subsingleton.elim _ _
  obtain rfl : a1 = 0 := Subsingleton.elim _ _
  show (outsAt0 m c t.val t.isLt).1 (ix3 (0 : Fin 1) (0 : Fin 1) q) = classArray m c _
  rw [classAcc_chain m c q t.val t.isLt, h63]
  show _ = classTotal m c _ _
  unfold classTotal
  refine Finset.sum_congr rfl fun j _ => ?_
  have i0 : win0_2.index t 0 = t.val / 64 := (class_index t).1
  have i2 : win0_2.index t 2 = 0 := (class_index t).2.2
  have e0 : (⟨win0_2.index t 0 * 1 + 1 * 0, by omega⟩ : Fin 2) = ⟨t.val / 64, by omega⟩ :=
    Fin.ext (by show win0_2.index t 0 * 1 + 1 * 0 = t.val / 64; omega)
  have e2 : (⟨win0_2.index t 2 * 1000 + 1 * q.val, by have := q.isLt; omega⟩ : Fin 1000) = q :=
    Fin.ext (by show win0_2.index t 2 * 1000 + 1 * q.val = q.val; omega)
  show tileProb m c (pt (64 * (t.val / 64) + j)) q
    = tileProb m c (pt (64 * (⟨win0_2.index t 0 * 1 + 1 * 0, _⟩ : Fin 2).val + j)) (⟨win0_2.index t 2 * 1000 + 1 * q.val, _⟩ : Fin 1000)
  rw [e0, e2]

/-- What a write-back of the focal accumulator writes: the block of `focalArray` it lands on. -/
theorem focal_flushed (c : Dev nD) (t : Fin cfg0.N) (hf : (cfg0.win 3).flush t = true) :
    (dats m 0 c).flushed 3 t = ((cfg0.win 3).blk t).view.read (Elt Ideal) (focalArray m c) := by
  have h63 : t.val % 64 = 63 := (flush0_3 t).mp hf
  have hN := points_lt t
  show (cfg0.win 3).cut (grid0.coords t) ((dats m 0 c).after 3 t) = _
  rw [after0_3]
  funext y
  rw [View.read_apply]
  obtain ⟨a0, a1, a2, rfl⟩ : ∃ (a0 : Fin 1) (a1 : Fin 1) (a2 : Fin 1), y = ix3 a0 a1 a2 := ⟨y 0, y 1, y 2, eq_ix3 y⟩
  obtain rfl : a0 = 0 := Subsingleton.elim _ _
  obtain rfl : a1 = 0 := Subsingleton.elim _ _
  obtain rfl : a2 = 0 := Subsingleton.elim _ _
  show (outsAt0 m c t.val t.isLt).2 (ix3 (0 : Fin 1) (0 : Fin 1) (0 : Fin 1)) = focalArray m c _
  rw [focalAcc_chain m c t.val t.isLt, h63]
  show _ = focalTotal m c _
  unfold focalTotal
  refine Finset.sum_congr rfl fun j _ => ?_
  have i0 : win0_3.index t 0 = t.val / 64 := (focal_index t).1
  have e0 : (⟨win0_3.index t 0 * 1 + 1 * 0, by omega⟩ : Fin 2) = ⟨t.val / 64, by omega⟩ :=
    Fin.ext (by show win0_3.index t 0 * 1 + 1 * 0 = t.val / 64; omega)
  show tileFocal m c (pt (64 * (t.val / 64) + j))
    = tileFocal m c (pt (64 * (⟨win0_3.index t 0 * 1 + 1 * 0, _⟩ : Fin 2).val + j))
  rw [e0]

/-- The point that writes core `k`'s blocks back: its last tile. -/
theorem lastTile_val (k : ℕ) (hk : k < 2) : (pt (64 * k + 63)).val = 64 * k + 63 := by
  show (64 * k + 63) % 128 = 64 * k + 63
  omega

/-- An index of the first result array is in point `t`'s block iff each coordinate is in the block's range on its axis. -/
theorem mem_class_block (t : Fin cfg0.N) (i : S2x1x1000.Idx) :
    i ∈ ((cfg0.win 2).blk t).view.set ↔ ∀ a : Fin 3, win0_2.index t a * S1x1x1000.size a ≤ (i a).val
      ∧ (i a).val < win0_2.index t a * S1x1x1000.size a + S1x1x1000.size a := by
  show i ∈ ((View.whole main_v2_0).slice (win0_2.rect t)).set ↔ _
  rw [View.set_slice_whole, Rect.mem_set_unit]
  exact Iff.rfl

/-- The same for the second result array. -/
theorem mem_focal_block (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v2_1).slice (win0_3.rect t)).set ↔ _
  rw [View.set_slice_whole, Rect.mem_set_unit]
  exact Iff.rfl

/-- Every entry (core, ·, ·) of the first result array is in the block written back after the core's last tile. -/
theorem class_cover (i : S2x1x1000.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1000 := (i 2).isLt
  have hT := lastTile_val (i 0).val h0
  obtain ⟨q0, q1, q2⟩ := class_index (pt (64 * (i 0).val + 63))
  rw [hT] at q0
  refine ⟨pt (64 * (i 0).val + 63), (flush0_2 _).mpr (by rw [hT]; omega), ?_⟩
  rw [mem_class_block]
  intro a
  match a with
  | ⟨0, _⟩ =>
    show win0_2.index (pt (64 * (i 0).val + 63)) (0 : Fin 3) * 1 ≤ (i 0).val
      ∧ (i 0).val < win0_2.index (pt (64 * (i 0).val + 63)) (0 : Fin 3) * 1 + 1
    omega
  | ⟨1, _⟩ =>
    show win0_2.index (pt (64 * (i 0).val + 63)) (1 : Fin 3) * 1 ≤ (i 1).val
      ∧ (i 1).val < win0_2.index (pt (64 * (i 0).val + 63)) (1 : Fin 3) * 1 + 1
    omega
  | ⟨2, _⟩ =>
    show win0_2.index (pt (64 * (i 0).val + 63)) (2 : Fin 3) * 1000 ≤ (i 2).val
      ∧ (i 2).val < win0_2.index (pt (64 * (i 0).val + 63)) (2 : Fin 3) * 1000 + 1000
    omega

/-- Every entry of the second result array likewise. -/
theorem focal_cover (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hT := lastTile_val (i 0).val h0
  obtain ⟨q0, q1, q2⟩ := focal_index (pt (64 * (i 0).val + 63))
  rw [hT] at q0
  refine ⟨pt (64 * (i 0).val + 63), (flush0_3 _).mpr (by rw [hT]; omega), ?_⟩
  rw [mem_focal_block]
  intro a
  match a with
  | ⟨0, _⟩ =>
    show win0_3.index (pt (64 * (i 0).val + 63)) (0 : Fin 3) * 1 ≤ (i 0).val
      ∧ (i 0).val < win0_3.index (pt (64 * (i 0).val + 63)) (0 : Fin 3) * 1 + 1
    omega
  | ⟨1, _⟩ =>
    show win0_3.index (pt (64 * (i 0).val + 63)) (1 : Fin 3) * 1 ≤ (i 1).val
      ∧ (i 1).val < win0_3.index (pt (64 * (i 0).val + 63)) (1 : Fin 3) * 1 + 1
    omega
  | ⟨2, _⟩ =>
    show win0_3.index (pt (64 * (i 0).val + 63)) (2 : Fin 3) * 1 ≤ (i 2).val
      ∧ (i 2).val < win0_3.index (pt (64 * (i 0).val + 63)) (2 : Fin 3) * 1 + 1
    omega

/-- THE FIRST RESULT ARRAY after the region: each core's class totals. -/
theorem class_final (c : Dev nD) : (dats m 0 c).arrAt 2 cfg0.N = classArray m c :=
  (dats m 0 c).arrAt_eq_of_cover 2 (classArray m c) (class_flushed m c) fun i => class_cover i

/-- THE SECOND RESULT ARRAY after the region: each core's focal total. -/
theorem focal_final (c : Dev nD) : (dats m 0 c).arrAt 3 cfg0.N = focalArray m c :=
  (dats m 0 c).arrAt_eq_of_cover 3 (focalArray m c) (focal_flushed m c) fun i => focal_cover i

end Cert.FocalKernel

end
-- ==== Proof.KernelTail.lean ====
/-
  The kernel's last steps, and the kernel's run.

  After the region the program adds the two cores' rows of class sums into one row of 1000 numbers and the two cores'
  focal sums into one number, and from these two sums and the targets it computes the loss: the focal sum divided by
  131072, plus five times the mean over the classes of `| class sum / 131072 − share of the rows naming the class |`.
  Here those last steps are spelled as one function of the two sums and the targets, the result buffer after the whole
  program is identified with that function of the cores' totals, and the program's run is stated with that value.
-/
import proofs.«145446_j66486093742616_2_alg».proof.Proof.KernelArrays
import Idealize.ShloMosaic.Lib.StableHlo.Run
import Idealize.ShloMosaic.Lib.Pipeline.Value
import Idealize.ShloMosaic.PureOps.Ideal.Laws
import Idealize.ShloMosaic.Lib.ValueIdx

noncomputable section

open scoped BigOperators

namespace Cert.FocalKernel

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.FocalSpec

/-! ## The last steps as one function -/

/-- The loss from the sum `f` of the focal terms, the per-class sums `p` of the probabilities and the targets `t`:
    `f / 131072.0 + 5.0 · ((Σ_c | p c / 131072.0 − share c |) / 1000.0)`, where `share` is ones scatter-added into
    zeros at the targets (a negative target wrapped by adding 1000), divided by `131072.0`. -/
def tailK (f : S_.Idx → EReal) (p : S1000.Idx → EReal) (t : S131072.Idx → BitVec 32) : S_.Idx → EReal :=
  addf
    (Host.divf f (constant (F := Ideal) S_ .f32 0x48000000#32))
    (mulf (constant (F := Ideal) S_ .f32 0x40A00000#32)
      (Host.divf
        (Host.reduceAdd
          (Host.absf
            (subf
              (Host.divf p (broadcastInDim S1000 ![] bcast_S_S1000 (constant (F := Ideal) S_ .f32 0x48000000#32)))
              (Host.divf
                (Host.scatterAdd scatter_S1000_S131072x1_S131072_n_0_0_1
                  (broadcastInDim S1000 ![] bcast_S_S1000 (constant (F := Ideal) S_ .f32 0x00000000#32))
                  (broadcastInDim S131072x1 ![0] bcast_S131072_S131072x1_0
                    (select
                      (cmpi .slt t (broadcastInDim S131072 ![] bcast_S_S131072 (constantI S_ 32 0#32)))
                      (addi t (broadcastInDim S131072 ![] bcast_S_S131072 (constantI S_ 32 1000#32)))
                      t))
                  (broadcastInDim S131072 ![] bcast_S_S131072 (constant (F := Ideal) S_ .f32 0x3F800000#32)))
                (broadcastInDim S1000 ![] bcast_S_S1000 (constant (F := Ideal) S_ .f32 0x48000000#32)))))
          (constant (F := Ideal) S_ .f32 0x00000000#32) reducesTo_S1000_S_d0 h_S_)
        (constant (F := Ideal) S_ .f32 0x447A0000#32)))

/-- The two cores' focal sums added up: the sum over the first axis of the [2, 1, 1] array, as a rank-0 value. -/
def coresFocalK (a : FVec Ideal S2x1x1 .f32) : FVec Ideal S_ .f32 :=
  shapeCast S_ (Host.reduceAdd a (constant (F := Ideal) S_ .f32 0x00000000#32) reducesTo_S2x1x1_S1x1_d0 h_S_)
    shapeCasts_S1x1_S_

/-- The two cores' rows of class sums added up: the sum over the first axis of the [2, 1, 1000] array, as a row of
    1000 numbers. -/
def coresClassK (a : FVec Ideal S2x1x1000 .f32) : FVec Ideal S1000 .f32 :=
  shapeCast S1000 (Host.reduceAdd a (constant (F := Ideal) S_ .f32 0x00000000#32) reducesTo_S2x1x1000_S1x1000_d0 h_S_)
    shapeCasts_S1x1000_S1000

attribute [local irreducible] Host.reduceAdd Host.scatterAdd in
set_option maxRecDepth 8192 in
set_option maxHeartbeats 400000 in
/-- The result buffer after the operations that follow the region, from any contents: the last steps applied to the
    two cores' sums of the two result arrays and to the targets (the fold over the operation list, unrolled; each
    operation writes its own buffer only). -/
theorem after_tail_result (W : Valuation τ sig (Elt Ideal)) :
    after hostOps1 W (Proc.devRef .tc main_v26)
      = tailK (coresFocalK (W (Proc.devRef .tc main_v2_1))) (coresClassK (W (Proc.devRef .tc main_v2_0)))
          (W (Proc.devRef .tc main_arg1)) := by
  simp only [hostOps1, after_cons, after_nil]
  rfl

/-! ## The two cores' sums of the result arrays -/

/-- Adding along the first axis of a [2, 1, 1] array: over entry `(0, 0)`, the entry with core `k` put back is
    `(k, 0, 0)`. -/
theorem lift_core1 (h : S2x1x1.Reduces [0] S1x1) (k : Fin 2) :
    h.lift (ix2 (0 : Fin 1) (0 : Fin 1)) k = ix3 k (0 : Fin 1) (0 : Fin 1) :=
  funext fun d => match d with | ⟨0, _⟩ => Fin.ext rfl | ⟨1, _⟩ => Fin.ext rfl | ⟨2, _⟩ => Fin.ext rfl

/-- Adding along the first axis of a [2, 1, 1000] array: over entry `(0, q)`, the entry with core `k` put back is
    `(k, 0, q)`. -/
theorem lift_core1000 (h : S2x1x1000.Reduces [0] S1x1000) (q : Fin 1000) (k : Fin 2) :
    h.lift (ix2 (0 : Fin 1) q) k = ix3 k (0 : Fin 1) q :=
  funext fun d => match d with | ⟨0, _⟩ => Fin.ext rfl | ⟨1, _⟩ => Fin.ext rfl | ⟨2, _⟩ => Fin.ext rfl

variable (m : (ℓ : Loc nD τ sig) → Buf (Elt Ideal) ℓ)

/-- The two cores' focal sums added up are the sum over the cores of the cores' focal totals. -/
theorem coresFocalK_focalArray (c : Dev nD) :
    coresFocalK (focalArray m c) = fun _ => ∑ core : Fin 2, focalTotal m c core := by
  funext j
  unfold coresFocalK
  have hred : S2x1x1.Reduces [0] S1x1 := by decide
  refine (shapeCast_apply _ shapeCasts_S1x1_S_ j (ix2 (0 : Fin 1) (0 : Fin 1)) ?_).trans ?_
  · rw [Shape.rowMajor_val_two]
    exact (Shape.rowMajorPi_zero _ j).symm
  refine (Ideal.hostReduceAdd_single reducesTo_S2x1x1_S1x1_d0 hred (focalArray m c) _ (ix2 (0 : Fin 1) (0 : Fin 1))).trans ?_
  show Ideal.ofBits .f32 0x00000000#32 + ∑ k : Fin 2, focalArray m c (hred.lift (ix2 (0 : Fin 1) (0 : Fin 1)) k) = _
  rw [Ideal.ofBits_zero_f32, zero_add]
  refine Finset.sum_congr rfl fun core _ => ?_
  exact (congrArg (focalArray m c) (lift_core1 hred core)).trans (focalArray_apply m c core)

/-- The two cores' rows of class sums added up are, class by class, the sum over the cores of the cores' class
    totals. -/
theorem coresClassK_classArray (c : Dev nD) :
    coresClassK (classArray m c) = fun j => ∑ core : Fin 2, classTotal m c core ⟨(j 0).val, (j 0).isLt⟩ := by
  funext j
  obtain ⟨q, rfl⟩ : ∃ q : Fin 1000, j = ix1 q := ⟨j 0, eq_ix1 j⟩
  unfold coresClassK
  have hred : S2x1x1000.Reduces [0] S1x1000 := by decide
  refine (shapeCast_apply _ shapeCasts_S1x1000_S1000 (ix1 q) (ix2 (0 : Fin 1) q) ?_).trans ?_
  · rw [Shape.rowMajor_val_two, Shape.rowMajor_val_one]
    show 0 * 1000 + q.val = q.val
    omega
  refine (Ideal.hostReduceAdd_single reducesTo_S2x1x1000_S1x1000_d0 hred (classArray m c) _ (ix2 (0 : Fin 1) q)).trans ?_
  show Ideal.ofBits .f32 0x00000000#32 + ∑ k : Fin 2, classArray m c (hred.lift (ix2 (0 : Fin 1) q) k) = _
  rw [Ideal.ofBits_zero_f32, zero_add]
  refine Finset.sum_congr rfl fun core _ => ?_
  exact (congrArg (classArray m c) (lift_core1000 hred q core)).trans (classArray_apply m c core q)

/-! ## The result buffer after the whole program -/

/-- The result buffer after the region and the operations that follow it: the last steps applied to the sums over
    the two cores of the cores' totals, and to the targets as the region found them. -/
theorem tail_value (c : Dev nD) :
    Pipeline.afterTail₀ cfgs (dats m) 0 (V0 m) [hostOps1] c main_v26
      = tailK (fun _ => ∑ core : Fin 2, focalTotal m c core)
          (fun j => ∑ core : Fin 2, classTotal m c core ⟨(j 0).val, (j 0).isLt⟩) (V m c main_arg1) := by
  unfold Pipeline.afterTail₀
  show after hostOps1 _ (Proc.devRef .tc main_v26) = _
  refine (after_tail_result _).trans ?_
  have e1 : Pipeline.withArrays spec0 c (V0 m c) (fun w => (dats m 0 c).arrAt w cfg0.N) (Proc.devRef .tc main_v2_1)
      = focalArray m c :=
    (Pipeline.withArrays_arr spec0 launch0.win.arr_inj c _ _ 3).trans (focal_final m c)
  have e2 : Pipeline.withArrays spec0 c (V0 m c) (fun w => (dats m 0 c).arrAt w cfg0.N) (Proc.devRef .tc main_v2_0)
      = classArray m c :=
    (Pipeline.withArrays_arr spec0 launch0.win.arr_inj c _ _ 2).trans (class_final m c)
  have e3 : Pipeline.withArrays spec0 c (V0 m c) (fun w => (dats m 0 c).arrAt w cfg0.N) (Proc.devRef .tc main_arg1)
      = V m c main_arg1 :=
    Pipeline.withArrays_of_ne _ c (V0 m c) _ main_arg1 (by exact (by decide : ∀ w, Pipeline.arrRef spec0 w ≠ main_arg1))
  exact congr (congr (congrArg tailK ((congrArg coresFocalK e1).trans (coresFocalK_focalArray m c)))
    ((congrArg coresClassK e2).trans (coresClassK_classArray m c))) e3

/-! ## The kernel's run -/

/-- Every weakly fair execution of the kernel's program terminates without a fault, with the result buffer at the
    last steps applied to the cores' totals and the launch targets, and with both argument arrays as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v26)
          = tailK (fun _ => ∑ core : Fin 2, focalTotal m c core)
              (fun j => ∑ core : Fin 2, classTotal m c core ⟨(j 0).val, (j 0).isLt⟩)
              (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨(((h c).2 main_v26 (Pipeline.mem_restRefs_of main_v26 (by decide) (by decide))).trans (tail_value m c)).trans
        (congrArg (tailK (fun _ => ∑ core : Fin 2, focalTotal m c core)
          (fun j => ∑ core : Fin 2, classTotal m c core ⟨(j 0).val, (j 0).isLt⟩)) (V_main_arg1 m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.FocalKernel

end
-- ==== Proof.LibTakeAlong.lean ====
/-
  One entry picked out of every row.

  `take_along_axis` of an [N, C] matrix along its columns at one index per row is a gather whose row axis is a
  batching axis of both the matrix and the indices ([N, 1, 1] of them), whose column axis is collapsed and is the one
  the start index names, with 1-by-1 slices. Result entry (b, 0) is therefore the matrix at row b and at SOME column
  that the indices alone decide (the start index of row b, read signed and clamped into the row): the same column
  whatever matrix is gathered from. That is all a proof needs when two programs gather from two matrices at the same
  indices, and it is what is stated here; which column it is never has to be computed.
-/
import Idealize.ShloMosaic.PureOps.ShapeOps
import Idealize.ShloMosaic.PureOps.Dims
import Idealize.ShloMosaic.Lib.ValueIdx

noncomputable section

namespace Cert.Lib.TakeAlong

open Idealize.ShloMosaic Idealize.ShloMosaic.ValueIdx

/-- The dimension numbers of that gather for a matrix [N, C], indices [N, 1, 1] and a result [N, 1]: no offset axes,
    the column axis collapsed, the row axis batching on both sides, the start index naming the column. -/
abbrev alongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The column result row `b` reads: the second coordinate of the gathered index. It depends on the indices only. -/
def alongCol {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (b : Fin N) : Fin C :=
  (alongDims N C wf).operandIdx (ix2 (n0 := N) (n1 := 1) b ⟨0, Nat.one_pos⟩) idx 1

/-- The gathered index of result entry (b, 0) lies in row `b`: on the batching axis the start and the offset are
    zero and the batching coordinate is the result's row. -/
theorem operandIdx_row {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (b : Fin N) :
    (((alongDims N C wf).operandIdx (ix2 (n0 := N) (n1 := 1) b ⟨0, Nat.one_pos⟩) idx 0 : Fin N) : Nat) = b.val := by
  have hb : (0 : Fin 2) ∈ (alongDims N C wf).operandBatchingDims := List.mem_singleton.mpr rfl
  show (alongDims N C wf).start _ idx 0 + (alongDims N C wf).batchCoord _ 0 + (alongDims N C wf).offCoord _ 0 = b.val
  rw [(alongDims N C wf).start_batching _ idx 0 hb,
    (alongDims N C wf).offCoord_eq_zero _ 0 (fun h => (((alongDims N C wf).mem_sKept 0).1 h).2 hb),
    Nat.zero_add, Nat.add_zero]
  unfold GatherDims.batchCoord
  rw [dif_pos hb]
  rfl

/-- THE GATHER READ AT (b, 0): the matrix at row `b` and the column the indices name for that row. -/
theorem gather_along_apply {α : Type} {N C w : Nat}
    (wf : GatherDims.WF ⟨2, ![N, C]⟩ ⟨3, ![N, 1, 1]⟩ ⟨2, ![N, 1]⟩ [] [1] [0] [1] [0] 2 ![1, 1])
    (A : (⟨2, ![N, C]⟩ : Shape).Idx → α) (idx : IVec ⟨3, ![N, 1, 1]⟩ w) (b : Fin N) :
    Host.gather (alongDims N C wf) A idx (ix2 (n0 := N) (n1 := 1) b ⟨0, Nat.one_pos⟩) = A (ix2 b (alongCol wf idx b)) := by
  unfold Host.gather
  congr 1
  funext a
  match a with
  | ⟨0, _⟩ => exact Fin.ext (operandIdx_row wf idx b)
  | ⟨1, _⟩ => rfl

end Cert.Lib.TakeAlong

end
-- ==== Proof.KernelPrefix.lean ====
/-
  What the kernel's second input window stages: the column of picked target logits.

  Before the kernel's region the program turns the targets into a column, wraps a negative target `t` to
  `t + 1000`, reshapes the result to a list of one-entry index vectors, decides per row whether the wrapped target
  lies in `[0, 999]`, gathers from every row of the logits the entry that row's index vector names, and keeps the
  gathered entry where the target is in range and the fill value (a NaN pattern) where it is not. Here that array
  is read at a row `b`: it is the specification's picked logit, with the in-range bit and the named class given by
  the program's own integer operations on the targets.
-/
import proofs.«145446_j66486093742616_2_alg».proof.Proof.Gen.KernelIdeal.Frame
import proofs.«145446_j66486093742616_2_alg».proof.Proof.Spec
import proofs.«145446_j66486093742616_2_alg».proof.Proof.LibTakeAlong
import Idealize.ShloMosaic.Lib.StableHlo.Run
import Idealize.ShloMosaic.Lib.ValueIdx
import Idealize.ShloMosaic.Lib.Pipeline.Value
import Idealize.ShloMosaic.PureOps.Ideal.Laws

noncomputable section

namespace Cert.FocalKernel

open Idealize.ShloMosaic Idealize.ShloMosaic.ValueIdx Idealize.ShloMosaic.StableHlo Idealize.SL.Sem
open Cert.KernelIdeal Cert.KernelIdeal.Gen Cert.FocalSpec

/-! ## The program's integer operations on the targets -/

/-- The targets as a column: `[131072] → [131072, 1]`. -/
def targetColK (t : IVec S131072 32) : IVec S131072x1 32 :=
  broadcastInDim S131072x1 ![0] bcast_S131072_S131072x1_0 t

/-- The index vectors: a negative target `t` wrapped to `t + 1000`, reshaped to `[131072, 1, 1]`. -/
def targetIdxK (t : IVec S131072 32) : IVec S131072x1x1 32 :=
  shapeCast S131072x1x1
    (select (cmpi .slt (targetColK t) (broadcastInDim S131072x1 ![] bcast_S_S131072x1 (constantI S_ 32 0#32)))
      (addi (targetColK t) (broadcastInDim S131072x1 ![] bcast_S_S131072x1 (constantI S_ 32 1000#32)))
      (targetColK t))
    shapeCasts_S131072x1_S131072x1x1

/-- Per row, whether the wrapped target lies in `[0, 999]`: the conjunction over the index vector's one entry. -/
def targetInRangeK (t : IVec S131072 32) : IVec S131072x1 1 :=
  Host.reduce IntOp.andi
    (andi (cmpi .sge (targetIdxK t) (broadcastInDim S131072x1x1 ![] bcast_S_S131072x1x1 (constantI S_ 32 0#32)))
      (cmpi .sle (targetIdxK t)
        (broadcastInDim S131072x1x1 ![0, 1, 2] bcast_S1x1x1_S131072x1x1_0_1_2
          (broadcastInDim S1x1x1 ![2] bcast_S1_S1x1x1_2 (constantI S1 32 999#32)))))
    (constantI S_ 1 1#1) reducesTo_S131072x1x1_S131072x1_d2 h_S_

/-- The staged column as the program computes it from the logits and the targets. -/
def pickedArrayK (A : FVec Ideal S131072x1000 .f32) (t : IVec S131072 32) : FVec Ideal S131072x1 .f32 :=
  select (targetInRangeK t)
    (Host.gather gather_S131072x1000_S131072x1x1_S131072x1_n_1_0_0_1_2_11 A (targetIdxK t))
    (broadcastInDim S131072x1 ![] bcast_S_S131072x1 (constant (F := Ideal) S_ .f32 0x7FC00000#32))

/-- The bit "row `b`'s target is in range". -/
def maskK (t : S131072.Idx → BitVec 32) : Fin 131072 → BitVec 1 :=
  fun b => targetInRangeK t (ix2 b (0 : Fin 1))

/-- The class row `b`'s target names: the column the gather reads in row `b`, decided by the index vectors alone. -/
def colK (t : S131072.Idx → BitVec 32) : Fin 131072 → Fin 1000 :=
  fun b => Cert.Lib.TakeAlong.alongCol gather_S131072x1000_S131072x1x1_S131072x1_n_1_0_0_1_2_11_wf (targetIdxK t) b

/-! ## The staged column at a row -/

/-- The staged column at row `b`: the logit of row `b` at the named class when the target is in range, the fill
    value when it is not. -/
theorem pickedArrayK_at (A : FVec Ideal S131072x1000 .f32) (t : IVec S131072 32) (b : Fin 131072) :
    pickedArrayK A t (ix2 b (0 : Fin 1)) = pickedK A (maskK t) (colK t) b := by
  unfold pickedArrayK pickedK maskK colK fillv
  show Scalar.select (targetInRangeK t (ix2 b (0 : Fin 1)))
      (Host.gather (Cert.Lib.TakeAlong.alongDims 131072 1000 gather_S131072x1000_S131072x1x1_S131072x1_n_1_0_0_1_2_11_wf) A
        (targetIdxK t) (ix2 b (0 : Fin 1)))
      (Ideal.ofBits .f32 0x7FC00000#32) = _
  exact congrArg (fun y => Scalar.select (targetInRangeK t (ix2 b (0 : Fin 1))) y (Ideal.ofBits .f32 0x7FC00000#32))
    (Cert.Lib.TakeAlong.gather_along_apply gather_S131072x1000_S131072x1x1_S131072x1_n_1_0_0_1_2_11_wf A (targetIdxK t) b)

attribute [local irreducible] Host.reduce Host.gather in
set_option maxRecDepth 8192 in
set_option maxHeartbeats 400000 in
/-- The buffer of the staged column after the host operations before the region, from any contents: the program's
    operations composed (the fold over the operation list, unrolled; each operation writes its own buffer only). -/
theorem after_prefix_picked (W : Valuation τ sig (Elt Ideal)) :
    after (List.flatten [hostOps0, hostOps0_1]) W (Proc.devRef .tc main_v1)
      = pickedArrayK (W (Proc.devRef .tc main_arg0)) (W (Proc.devRef .tc main_arg1)) := by
  simp only [hostOps0, hostOps0_1, List.flatten_cons, List.flatten_nil, List.append_nil, List.cons_append, List.nil_append,
    after_cons, after_nil]
  rfl

/-- The array the second input window stages, at row `b`: the specification's picked logit of row `b`. -/
theorem picked_array (m : (ℓ : Loc nD τ sig) → Buf (Elt Ideal) ℓ) (c : Dev nD) (b : Fin 131072) :
    V m c main_v1 (ix2 b (0 : Fin 1))
      = pickedK (V m c main_arg0) (maskK (V m c main_arg1)) (colK (V m c main_arg1)) b := by
  have e : V m c main_v1 = pickedArrayK (V m c main_arg0) (V m c main_arg1) :=
    after_prefix_picked (fun r => m (c, r))
  rw [e, pickedArrayK_at]

end Cert.FocalKernel
-- ==== Proof.KernelSpec.lean ====
/-
  The kernel's totals are the row-by-row sums of the specification.

  A core's total is the sum over its 64 tiles of the tile's sum over its 1024 rows; row r of tile `tile` of core `core`
  is row 1024·(64·core + tile) + r of the arrays. The picked target logit of a row is the row's entry at the class its
  target names, or the fill value, so a tile's focal summand is the kernel's focal term of the row's
  log-probability. Adding the two cores gives the kernel's two sums of the specification, over the logits and over
  the mask and class the targets decide.
-/
import proofs.«145446_j66486093742616_2_alg».proof.Proof.KernelArrays
import proofs.«145446_j66486093742616_2_alg».proof.Proof.KernelPrefix

set_option maxRecDepth 16384

noncomputable section

open scoped BigOperators

namespace Cert.FocalKernel

open Idealize.ShloMosaic Idealize.ShloMosaic.TcCoe Idealize.ShloMosaic.ValueIdx
open Idealize.SL Idealize.SL.Sem
open Cert.KernelIdeal Cert.KernelIdeal.Gen Cert.FocalSpec

variable (m : (ℓ : Loc nD τ sig) → Buf (Elt Ideal) ℓ)

/-- Row r of the block at point 64·core + tile is the specification's row of that core, tile and place. -/
theorem blockRow_eq_rowOf (core : Fin 2) (tile : Fin 64) (r : Fin 1024) :
    blockRow (pt (64 * core.val + tile.val)) r = rowOf core tile r := by
  have h0 := core.isLt
  have h1 := tile.isLt
  apply Fin.ext
  show 1024 * ((64 * core.val + tile.val) % 128) + r.val = 1024 * (64 * core.val + tile.val) + r.val
  rw [Nat.mod_eq_of_lt (by omega)]

/-- The two cores' focal totals add up to the kernel's sum of focal terms. -/
theorem focalTotals_eq (c : Dev nD) :
    ∑ core : Fin 2, focalTotal m c core
      = focalSumK (logits m c) (maskK (V m c main_arg1)) (colK (V m c main_arg1)) := by
  unfold focalSumK focalTotal
  refine Finset.sum_congr rfl fun core _ => ?_
  rw [Finset.sum_range (fun j => tileFocal m c (pt (64 * core.val + j)))]
  refine Finset.sum_congr rfl fun tile _ => ?_
  unfold tileFocal
  refine Finset.sum_congr rfl fun r _ => ?_
  rw [blockRow_eq_rowOf core tile r]
  unfold logptK
  exact congrArg (fun z => focalK (z - rowMax (logits m c) (rowOf core tile r) - Ideal.log (rowSum (logits m c) (rowOf core tile r))))
    (picked_array m c (rowOf core tile r))

/-- The two cores' class totals add up to the kernel's sum of the class's probabilities. -/
theorem classTotals_eq (c : Dev nD) (q : Fin 1000) :
    ∑ core : Fin 2, classTotal m c core q = probSumK (logits m c) q := by
  unfold probSumK classTotal
  refine Finset.sum_congr rfl fun core _ => ?_
  rw [Finset.sum_range (fun j => tileProb m c (pt (64 * core.val + j)) q)]
  refine Finset.sum_congr rfl fun tile _ => ?_
  unfold tileProb
  refine Finset.sum_congr rfl fun r _ => ?_
  rw [blockRow_eq_rowOf core tile r]

end Cert.FocalKernel

end
-- ==== Proof.RefRows.lean ====
/-
  The reference's two softmax passes, read row by row.

  The reference normalises the logits twice: once inside its log-softmax, whose result entry `(b, c)` is the
  log-probability `(x[b,c] − m_b) − log S_b`, and once more for the probabilities `exp (x[b,c] − m_b) / S_b`, where
  `m_b` is the maximum of `−∞` and row `b`'s maximum and `S_b` the row's sum of the shifted exponentials. Each
  stage of either pass is a pointwise operation, a broadcast of a per-row number along the classes, or a reduction
  along the classes; read at row `b` (and class `c`) each is the corresponding row quantity of the specification.
  The last stage here adds the probabilities of one class over all rows.
-/
import proofs.«145446_j66486093742616_2_alg».proof.Proof.RefStages
import proofs.«145446_j66486093742616_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.FocalRef

open Cert.ReferenceIdeal Cert.ReferenceIdeal.Gen Cert.ReferenceIdeal.ReadP Cert.FocalSpec
open Idealize.ShloMosaic Idealize.ShloMosaic.ValueIdx Idealize.ShloMosaic.TcCoe Idealize.SL.Sem Idealize.ShloMosaic.StableHlo

/-! ## Where the broadcasts and reductions read -/

/-- A per-row number broadcast to a column and then along the classes is read, at `(b, c)`, at row `b`. -/
theorem row_of_entry_max (b : Fin 131072) (c : Fin 1000) :
    idx_main_call0_v3 (idx_main_call0_v4 (ix2 b c)) = ix1 b :=
  funext fun a => Fin.ext (by match a with | ⟨0, _⟩ => rfl)

theorem row_of_entry_log (b : Fin 131072) (c : Fin 1000) :
    idx_main_call0_v8 (idx_main_call0_v10 (ix2 b c)) = ix1 b :=
  funext fun a => Fin.ext (by match a with | ⟨0, _⟩ => rfl)

theorem row_of_entry_max' (b : Fin 131072) (c : Fin 1000) :
    idx_main_v16 (idx_main_v17 (ix2 b c)) = ix1 b :=
  funext fun a => Fin.ext (by match a with | ⟨0, _⟩ => rfl)

theorem row_of_entry_sum' (b : Fin 131072) (c : Fin 1000) :
    idx_main_v21 (idx_main_v22 (ix2 b c)) = ix1 b :=
  funext fun a => Fin.ext (by match a with | ⟨0, _⟩ => rfl)

/-- Term `k` of a sum along the classes in row `b` is entry `(b, k)`. -/
theorem entry_of_row_sum (b : Fin 131072) (k : Fin 1000) : idx_main_call0_v7 (ix1 b) k = ix2 b k :=
  funext fun a => Fin.ext (by match a with | ⟨0, _⟩ => rfl | ⟨1, _⟩ => rfl)

theorem entry_of_row_sum' (b : Fin 131072) (k : Fin 1000) : idx_main_v20 (ix1 b) k = ix2 b k :=
  funext fun a => Fin.ext (by match a with | ⟨0, _⟩ => rfl | ⟨1, _⟩ => rfl)

/-- Term `k` of the sum over the rows for class `j` is entry `(k, j)`. -/
theorem entry_of_class_sum (c : Fin 1000) (k : Fin 131072) : idx_main_v24 (ix1 c) k = ix2 k c :=
  funext fun a => Fin.ext (by match a with | ⟨0, _⟩ => rfl | ⟨1, _⟩ => rfl)

/-! ## The row maximum -/

/-- A maximum-reduce of the logits along the classes, started from `−∞`, read at row `b`: the maximum folded
    from `−∞` over the row's entries. -/
theorem rowMax_reduce (x : S131072x1000.Idx → EReal) (init : S_.Idx → EReal)
    (hinit : init (Shape.Idx.first h_S_) = negInf) (b : Fin 131072) :
    Host.reduce (FloatOps.maximumf (F := Ideal) (φ := .f32)) x init reducesTo_S131072x1000_S131072_d1 h_S_ (ix1 b)
      = rowMax x b := by
  have h : S131072x1000.Reduces [1] S131072 := by decide
  rw [Host.reduce_eq_fold_single _ x init reducesTo_S131072x1000_S131072_d1 h h_S_ (ix1 b), hinit]
  show Finset.fold max negInf (fun c : Fin 1000 => x (h.lift (ix1 b) c)) Finset.univ = _
  unfold rowMax
  refine congrArg (fun f => Finset.fold max negInf f Finset.univ) (funext fun c => congrArg x (funext fun a => Fin.ext ?_))
  match a with
  | ⟨0, _⟩ => rfl
  | ⟨1, _⟩ => rfl

/-! ## The log-softmax -/

theorem call0_v2_at (x : S131072x1000.Idx → EReal) (b : Fin 131072) :
    val_main_call0_v2 (F := Ideal) x (ix1 b) = rowMaxR x b := by
  rw [val_main_call0_v2_apply, val_main_call0_v1_apply, val_main_call0_cst_0_apply]
  unfold val_main_call0_v0
  rw [rowMax_reduce x _ rfl b]
  rfl

theorem call0_v5_at (x : S131072x1000.Idx → EReal) (b : Fin 131072) (c : Fin 1000) :
    val_main_call0_v5 (F := Ideal) x (ix2 b c) = x (ix2 b c) - rowMaxR x b := by
  rw [val_main_call0_v5_apply, val_main_call0_v4_apply, val_main_call0_v3_apply, row_of_entry_max, call0_v2_at]
  rfl

theorem call0_v6_at (x : S131072x1000.Idx → EReal) (b : Fin 131072) (c : Fin 1000) :
    val_main_call0_v6 (F := Ideal) x (ix2 b c) = expShiftR x b c := by
  rw [val_main_call0_v6_apply, call0_v5_at]
  rfl

theorem call0_v7_at (x : S131072x1000.Idx → EReal) (b : Fin 131072) :
    val_main_call0_v7 (F := Ideal) x (ix1 b) = rowSumR x b := by
  rw [val_main_call0_v7_apply, val_main_call0_cst_1_apply, Ideal.ofBits_def, Ideal.ofBits_zero_f32, zero_add]
  unfold rowSumR
  exact Finset.sum_congr rfl fun k _ => by rw [entry_of_row_sum, call0_v6_at]

/-- The log-softmax's result at `(b, c)`: the log-probability of class `c` in row `b`. -/
theorem main_v0_at (x : S131072x1000.Idx → EReal) (b : Fin 131072) (c : Fin 1000) :
    val_main_v0 (F := Ideal) x (ix2 b c) = logpR x b c := by
  rw [val_main_v0_apply, call0_v5_at, val_main_call0_v10_apply, val_main_call0_v9_apply, val_main_call0_v8_apply,
    row_of_entry_log, call0_v7_at]
  rfl

/-! ## The softmax, once more -/

theorem main_v15_at (x : S131072x1000.Idx → EReal) (b : Fin 131072) :
    val_main_v15 (F := Ideal) x (ix1 b) = rowMaxR x b := by
  rw [val_main_v15_apply, val_main_v14_apply, val_main_cst_4_apply]
  unfold val_main_v13
  rw [rowMax_reduce x _ rfl b]
  rfl

theorem main_v19_at (x : S131072x1000.Idx → EReal) (b : Fin 131072) (c : Fin 1000) :
    val_main_v19 (F := Ideal) x (ix2 b c) = expShiftR x b c := by
  rw [val_main_v19_apply, val_main_v18_apply, val_main_v17_apply, val_main_v16_apply, row_of_entry_max', main_v15_at]
  rfl

theorem main_v20_at (x : S131072x1000.Idx → EReal) (b : Fin 131072) :
    val_main_v20 (F := Ideal) x (ix1 b) = rowSumR x b := by
  rw [val_main_v20_apply, val_main_cst_5_apply, Ideal.ofBits_def, Ideal.ofBits_zero_f32, zero_add]
  unfold rowSumR
  exact Finset.sum_congr rfl fun k _ => by rw [entry_of_row_sum', main_v19_at]

/-- The second pass's result at `(b, c)`: the probability of class `c` in row `b`. -/
theorem main_v23_at (x : S131072x1000.Idx → EReal) (b : Fin 131072) (c : Fin 1000) :
    val_main_v23 (F := Ideal) x (ix2 b c) = probR x b c := by
  rw [val_main_v23_apply, main_v19_at, val_main_v22_apply, val_main_v21_apply, row_of_entry_sum', main_v20_at]
  rfl

/-- The sum over the rows of the probabilities of class `c`. -/
theorem probSum_stage_at (x : S131072x1000.Idx → EReal) (c : Fin 1000) :
    val_main_v24 (F := Ideal) x (ix1 c) = probSumR x c := by
  rw [val_main_v24_apply, val_main_cst_6_apply, Ideal.ofBits_def, Ideal.ofBits_zero_f32, zero_add]
  unfold probSumR
  exact Finset.sum_congr rfl fun k _ => by rw [entry_of_class_sum, main_v23_at]

/-- The same at any index of the per-class array: its one coordinate is the class. -/
theorem probSum_stage (x : S131072x1000.Idx → EReal) (j : S1000.Idx) :
    val_main_v24 (F := Ideal) x j = probSumR x (j 0) := by
  obtain ⟨c, rfl⟩ : ∃ c : Fin 1000, j = ix1 c := ⟨j 0, eq_ix1 j⟩
  exact probSum_stage_at x c

end Cert.FocalRef

end
-- ==== Proof.RefValue.lean ====
/-
  The reference's sum of focal terms.

  The reference picks, in every row `b`, one entry out of the finished log-probabilities: the entry at the class the
  row's target names, or a fill value when the target is out of range. Which class that is, and whether the target
  is in range, are decided by integer operations on the targets alone (`colR`, `maskR` below: kept as the literal
  composition of the reference's integer stages, never simplified). From the picked log-probability `v` the row's
  focal term is `(−((1 − eᵛ) ^ 2.0)) · v`, and the stage read here is the sum of the focal terms over all rows.
-/
import proofs.«145446_j66486093742616_2_alg».proof.Proof.RefRows
import proofs.«145446_j66486093742616_2_alg».proof.Proof.LibTakeAlong

noncomputable section

open scoped BigOperators

namespace Cert.FocalRef

open Cert.ReferenceIdeal Cert.ReferenceIdeal.Gen Cert.ReferenceIdeal.ReadP Cert.FocalSpec Cert.Lib.TakeAlong
open Idealize.ShloMosaic Idealize.ShloMosaic.ValueIdx Idealize.ShloMosaic.TcCoe Idealize.SL.Sem Idealize.ShloMosaic.StableHlo

/-! ## What the targets decide -/

/-- The bit "row `b`'s target is in range": the reference's and-reduce of `0 ≤ index ∧ index ≤ 999` at `(b, 0)`,
    the index being the target with a negative one wrapped by adding 1000. -/
def maskR (t : S131072.Idx → BitVec 32) : Fin 131072 → BitVec 1 :=
  fun b => val_main_call1_v12 (F := Ideal) t (ix2 b ⟨0, Nat.one_pos⟩)

/-- The class row `b`'s target names: the column the reference's gather reads in row `b`, a function of the
    wrapped targets (as a [131072, 1, 1] array of indices) alone. -/
def colR (t : S131072.Idx → BitVec 32) : Fin 131072 → Fin 1000 :=
  fun b => alongCol gather_S131072x1000_S131072x1x1_S131072x1_n_1_0_0_1_2_11_wf (val_main_call1_v5 (F := Ideal) t) b

/-! ## The picked log-probability -/

/-- The reference's gather is the one-entry-per-row gather along the classes. -/
theorem gather_record_eq :
    gather_S131072x1000_S131072x1x1_S131072x1_n_1_0_0_1_2_11
      = alongDims 131072 1000 gather_S131072x1000_S131072x1x1_S131072x1_n_1_0_0_1_2_11_wf := rfl

/-- The gathered entry of row `b`: the log-probability of the class the target names. -/
theorem call1_v13_at (x : S131072x1000.Idx → EReal) (t : S131072.Idx → BitVec 32) (b : Fin 131072) :
    val_main_call1_v13 (F := Ideal) x t (ix2 b ⟨0, Nat.one_pos⟩) = logpR x b (colR t b) := by
  unfold val_main_call1_v13
  rw [gather_record_eq, gather_along_apply, main_v0_at]
  rfl

/-- The pick at `(b, 0)`: the gathered entry when the target is in range, the fill value otherwise. -/
theorem main_v2_at (x : S131072x1000.Idx → EReal) (t : S131072.Idx → BitVec 32) (b : Fin 131072) :
    val_main_v2 (F := Ideal) x t (ix2 b ⟨0, Nat.one_pos⟩) = logptR x (maskR t) (colR t) b := by
  rw [val_main_v2_apply, call1_v13_at, val_main_call1_v14_apply, val_main_call1_cst_apply]
  rfl

/-- The column [131072, 1] read as a vector [131072]: entry `b` is entry `(b, 0)`. -/
theorem col_of_row (b : Fin 131072) : idx_main_v3 (ix1 b) = ix2 b ⟨0, Nat.one_pos⟩ :=
  funext fun a => Fin.ext (by
    match a with
    | ⟨0, _⟩ => exact Nat.div_one _
    | ⟨1, _⟩ => rfl)

theorem main_v3_at (x : S131072x1000.Idx → EReal) (t : S131072.Idx → BitVec 32) (b : Fin 131072) :
    val_main_v3 (F := Ideal) x t (ix1 b) = logptR x (maskR t) (colR t) b := by
  rw [val_main_v3_apply, col_of_row, main_v2_at]

/-! ## The focal term and its sum -/

/-- Row `b`'s focal term: `(−((1 − eᵛ) ^ 2.0)) · v` at the picked log-probability `v`. -/
theorem main_v10_at (x : S131072x1000.Idx → EReal) (t : S131072.Idx → BitVec 32) (b : Fin 131072) :
    val_main_v10 (F := Ideal) x t (ix1 b) = focalR (logptR x (maskR t) (colR t) b) := by
  rw [val_main_v10_apply, val_main_v9_apply, val_main_v8_apply, val_main_v6_apply, val_main_v5_apply,
    val_main_cst_apply, val_main_v4_apply, val_main_v7_apply, val_main_cst_0_apply, main_v3_at]
  unfold focalR oneW twoW
  simp only [Ideal.mulf_def, Ideal.hostNegf_def, Ideal.negf_def, Ideal.hostPowf_def, Ideal.subf_def, Ideal.ofBits_def,
    Ideal.hostUnary_exp_def]

/-- An index of a vector of 131072 entries is its one coordinate. -/
def rowEquiv : S131072.Idx ≃ Fin 131072 where
  toFun j := j 0
  invFun b := ix1 b
  left_inv j := (eq_ix1 j).symm
  right_inv _ := rfl

/-- The sum of the focal terms over all rows. -/
theorem focalSum_stage (x : S131072x1000.Idx → EReal) (t : S131072.Idx → BitVec 32) (i : S_.Idx) :
    val_main_v11 (F := Ideal) x t i = focalSumR x (maskR t) (colR t) := by
  rw [val_main_v11_apply, val_main_cst_1_apply, Ideal.ofBits_def, Ideal.ofBits_zero_f32, zero_add]
  unfold focalSumR
  refine Fintype.sum_equiv rowEquiv _ _ fun j => ?_
  obtain ⟨b, rfl⟩ : ∃ b : Fin 131072, j = ix1 b := ⟨j 0, eq_ix1 j⟩
  exact main_v10_at x t b

end Cert.FocalRef

end
-- ==== Proof.RefTail.lean ====
/-
  The last steps of the reference, as one function of the two sums they start from.

  Once the reference has the sum `f` of the rows' focal terms and, for every class `c`, the sum `p c` of the rows'
  probabilities of `c`, what is left is arithmetic on 1001 numbers and on the targets:
  the focal part is `f / 131072`; the share of the rows naming each class is a scatter-add of ones at the targets
  (a negative target first wrapped by adding 1000) divided by 131072; the calibration part is the sum over the classes
  of `| p c / 131072 − share c |`, divided by 1000; and the result is the focal part plus five times the calibration
  part. Nothing here is ever computed: the steps are spelled exactly as the reference spells them, so that another
  program ending in the same steps can be compared with it step by step.
-/
import proofs.«145446_j66486093742616_2_alg».proof.Proof.RefStages

noncomputable section

namespace Cert.FocalRef

open Cert.ReferenceIdeal Cert.ReferenceIdeal.Gen Idealize.ShloMosaic Idealize.ShloMosaic.TcCoe Idealize.SL.Sem Idealize.ShloMosaic.StableHlo

/-- The reference's result from the sum `f` of the focal terms, the per-class sums `p` of the probabilities and the
    targets `t`: `f / 131072.0 + 5.0 · ((Σ_c | p c / 131072.0 − share c |) / 1000.0)`, where `share` is ones
    scatter-added into zeros at the targets (a negative target wrapped by adding 1000), divided by `131072.0`. -/
def tailR (f : S_.Idx → EReal) (p : S1000.Idx → EReal) (t : S131072.Idx → BitVec 32) : S_.Idx → EReal :=
  addf
    (Host.divf f (constant (F := Ideal) S_ .f32 0x48000000#32))
    (mulf (constant (F := Ideal) S_ .f32 0x40A00000#32)
      (Host.divf
        (Host.reduceAdd
          (Host.absf
            (subf
              (Host.divf p (broadcastInDim S1000 ![] bcast_S_S1000 (constant (F := Ideal) S_ .f32 0x48000000#32)))
              (Host.divf
                (Host.scatterAdd scatter_S1000_S131072x1_S131072_n_0_0_1
                  (broadcastInDim S1000 ![] bcast_S_S1000 (constant (F := Ideal) S_ .f32 0x00000000#32))
                  (broadcastInDim S131072x1 ![0] bcast_S131072_S131072x1_0
                    (select
                      (cmpi .slt t (broadcastInDim S131072 ![] bcast_S_S131072 (constantI S_ 32 0#32)))
                      (addi t (broadcastInDim S131072 ![] bcast_S_S131072 (constantI S_ 32 1000#32)))
                      t))
                  (broadcastInDim S131072 ![] bcast_S_S131072 (constant (F := Ideal) S_ .f32 0x3F800000#32)))
                (broadcastInDim S1000 ![] bcast_S_S1000 (constant (F := Ideal) S_ .f32 0x48000000#32)))))
          (constant (F := Ideal) S_ .f32 0x00000000#32) reducesTo_S1000_S_d0 h_S_)
        (constant (F := Ideal) S_ .f32 0x447A0000#32)))

/-- The reference's last stage is those steps applied to its two sums. -/
theorem val_main_v43_eq_tailR (x : S131072x1000.Idx → EReal) (t : S131072.Idx → BitVec 32) :
    ReadP.val_main_v43 (F := Ideal) x t
      = tailR (ReadP.val_main_v11 (F := Ideal) x t) (ReadP.val_main_v24 (F := Ideal) x) t := by
  unfold tailR
  unfold ReadP.val_main_v43 ReadP.val_main_v42 ReadP.val_main_v41 ReadP.val_main_v40 ReadP.val_main_v39
    ReadP.val_main_v38 ReadP.val_main_v37 ReadP.val_main_v36 ReadP.val_main_v35 ReadP.val_main_v34
    ReadP.val_main_v33 ReadP.val_main_v32 ReadP.val_main_v31 ReadP.val_main_v30 ReadP.val_main_v29
    ReadP.val_main_v28 ReadP.val_main_v27 ReadP.val_main_v26 ReadP.val_main_v25 ReadP.val_main_v12
    ReadP.val_main_cst_2 ReadP.val_main_cst_7 ReadP.val_main_cst_8 ReadP.val_main_c ReadP.val_main_c_9
    ReadP.val_main_cst_10 ReadP.val_main_cst_11 ReadP.val_main_cst_12 ReadP.val_main_cst_13 ReadP.val_main_cst_14
  rfl

end Cert.FocalRef

end
-- ==== Proof.RowRegroup.lean ====
/-
  A sum over the 131072 rows, taken all at once, is the same sum taken tile by tile: 1024 rows to a tile, 64 tiles to
  a core, two cores. Row `1024 * (64 * core + tile) + r` is reached from exactly one triple `(core, tile, r)`, so the
  triples and the rows are in bijection; a sum in a commutative monoid does not depend on the order of its terms.
-/
import proofs.«145446_j66486093742616_2_alg».proof.Proof.Spec

open scoped BigOperators

namespace Cert.FocalAlgebra

open Idealize.ShloMosaic Cert.FocalSpec

/-- The row of a triple `(core, tile, r)`. -/
def rowOfTriple (p : (Fin 2 × Fin 64) × Fin 1024) : Fin 131072 := rowOf p.1.1 p.1.2 p.2

/-- Two triples with the same row are the same triple: `r` is the row modulo 1024, `tile` the quotient modulo 64,
    `core` what is left. -/
theorem rowOfTriple_injective : Function.Injective rowOfTriple := by
  rintro ⟨⟨c, t⟩, r⟩ ⟨⟨c', t'⟩, r'⟩ h
  have hv : 1024 * (64 * c.val + t.val) + r.val = 1024 * (64 * c'.val + t'.val) + r'.val :=
    congrArg Fin.val h
  have hc := c.isLt; have hc' := c'.isLt; have ht := t.isLt; have ht' := t'.isLt
  have hr := r.isLt; have hr' := r'.isLt
  have e1 : c = c' := Fin.ext (by omega)
  have e2 : t = t' := Fin.ext (by omega)
  have e3 : r = r' := Fin.ext (by omega)
  rw [e1, e2, e3]

/-- There are as many triples as rows, so the injection is a bijection. -/
theorem rowOfTriple_bijective : Function.Bijective rowOfTriple := by
  rw [Fintype.bijective_iff_injective_and_card]
  refine ⟨rowOfTriple_injective, ?_⟩
  simp [Fintype.card_prod, Fintype.card_fin]

/-- A sum over all rows is the sum over the cores of the sum over a core's tiles of the sum over a tile's rows. -/
theorem sum_rows_eq_sum_core_tile_row {M : Type*} [AddCommMonoid M] (f : Fin 131072 → M) :
    ∑ b : Fin 131072, f b = ∑ core : Fin 2, ∑ tile : Fin 64, ∑ r : Fin 1024, f (rowOf core tile r) := by
  rw [← Fintype.sum_bijective rowOfTriple rowOfTriple_bijective (fun p => f (rowOfTriple p)) f (fun _ => rfl)]
  rw [Fintype.sum_prod_type, Fintype.sum_prod_type]
  rfl

end Cert.FocalAlgebra
-- ==== Proof.FocalWords.lean ====
/-
  The four float words the two programs spell, as extended reals: the pattern of minus infinity is the bottom
  element, a NaN pattern reads as the bottom element too (the documented junk value), and the patterns of 1.0 and
  2.0 are the numbers one and two.
-/
import proofs.«145446_j66486093742616_2_alg».proof.Proof.Spec
import Idealize.ShloMosaic.Lib.IdealHost

namespace Cert.FocalAlgebra

open Idealize.ShloMosaic Cert.FocalSpec

/-- The pattern `0xFF800000` (sign set, exponent all ones, fraction zero) is minus infinity. -/
theorem negInf_eq : negInf = ⊥ := by
  unfold negInf; simp [Ideal.ofBits, Ideal.ieee]

/-- The pattern `0x7FC00000` (exponent all ones, fraction not zero) is a NaN: it reads as the bottom element. -/
theorem fillv_eq : fillv = ⊥ := by
  unfold fillv; simp [Ideal.ofBits, Ideal.ieee]

/-- The pattern `0x3F800000` is the number one. -/
theorem oneW_eq : oneW = 1 := Ideal.ofBits_one_f32

/-- The pattern `0x40000000` is the number two. -/
theorem twoW_eq : twoW = ((2 : ℝ) : EReal) := by
  unfold twoW
  simp [Ideal.ofBits, Ideal.ieee, -EReal.coe_mul]; norm_num

end Cert.FocalAlgebra
-- ==== Proof.RowSoftmax.lean ====
/-
  One row of the softmax, in the two spellings.

  Without any hypothesis: the reference's extra maximum with `−∞` changes nothing, so its shifted exponentials, their
  sum, its probabilities and its log-probabilities are the kernel's; and the target's log-probability is the same on
  both sides — for a target in range both are `(x[b,t] − m) − log S`, and for a target out of range the kernel has
  `(−∞ − m) − log S = −∞` (`−∞` absorbs in a sum of extended reals) where the reference has the fill value `−∞`.

  For finite logits: the row maximum is one of the row's entries, a real number `m`; every shifted exponential is the
  real `e^{x − m} > 0`, so their sum `S` is a positive real and `log S` a real; hence the target's log-probability is a
  real number or `−∞`, never `+∞`.
-/
import proofs.«145446_j66486093742616_2_alg».proof.Proof.FocalWords

open scoped BigOperators

namespace Cert.FocalAlgebra

open Idealize.ShloMosaic Idealize.ShloMosaic.ValueIdx Cert.FocalSpec

/-! ## The two spellings agree, with no hypothesis -/

/-- The maximum of `−∞` and the row maximum is the row maximum. -/
theorem rowMaxR_eq (x : SX.Idx → EReal) (b : Fin 131072) : rowMaxR x b = rowMax x b := by
  unfold rowMaxR; rw [negInf_eq]; exact max_eq_right bot_le

/-- The reference's shifted exponential is the kernel's. -/
theorem expShiftR_eq (x : SX.Idx → EReal) (b : Fin 131072) (c : Fin 1000) : expShiftR x b c = expShift x b c := by
  unfold expShiftR expShift; rw [rowMaxR_eq]

/-- The reference's row sum is the kernel's. -/
theorem rowSumR_eq (x : SX.Idx → EReal) (b : Fin 131072) : rowSumR x b = rowSum x b := by
  unfold rowSumR rowSum; simp only [expShiftR_eq]

/-- The reference's probability is the kernel's. -/
theorem probR_eq (x : SX.Idx → EReal) (b : Fin 131072) (c : Fin 1000) : probR x b c = prob x b c := by
  unfold probR prob; rw [expShiftR_eq, rowSumR_eq]

/-- The reference's log-probability of class `c`, over the kernel's row maximum and row sum. -/
theorem logpR_eq (x : SX.Idx → EReal) (b : Fin 131072) (c : Fin 1000) :
    logpR x b c = (x (ix2 b c) - rowMax x b) - Ideal.log (rowSum x b) := by
  unfold logpR; rw [rowMaxR_eq, rowSumR_eq]

/-- The target's log-probability is the same in both programs: picked before the subtractions or after them, and
    `−∞` on both sides when the target is out of range. -/
theorem logptK_eq_logptR (x : SX.Idx → EReal) (μ : Fin 131072 → BitVec 1) (κ : Fin 131072 → Fin 1000)
    (b : Fin 131072) : logptK x μ κ b = logptR x μ κ b := by
  unfold logptK logptR pickedK
  by_cases h : μ b = 1#1
  · rw [h, select_one, select_one, logpR_eq]
  · rw [eq_zero_of_ne_one h, select_zero, select_zero, fillv_eq, EReal.bot_sub, EReal.bot_sub]

/-! ## Finite logits -/

/-- The maximum, folded from `−∞`, of real numbers over a nonempty finite set is a real number. -/
theorem fold_max_real {ι : Type} [DecidableEq ι] (f : ι → EReal) (hf : ∀ i, ∃ r : ℝ, f i = (r : EReal))
    (s : Finset ι) (hs : s.Nonempty) : ∃ r : ℝ, s.fold max ⊥ f = (r : EReal) := by
  induction s using Finset.induction_on with
  | empty => exact absurd hs (by simp)
  | insert a s ha ih =>
    rw [Finset.fold_insert ha]
    obtain ⟨ra, hra⟩ := hf a
    rcases s.eq_empty_or_nonempty with rfl | hne
    · exact ⟨ra, by rw [Finset.fold_empty, hra]; exact max_eq_left bot_le⟩
    · obtain ⟨r, hr⟩ := ih hne
      exact ⟨max ra r, by rw [hra, hr]; exact (EReal.coe_strictMono.monotone.map_max).symm⟩

/-- A finite sum of real numbers, taken in the extended reals, is the real sum. -/
theorem sum_coe_real {ι : Type} (s : Finset ι) (h : ι → ℝ) :
    ∑ i ∈ s, ((h i : ℝ) : EReal) = ((∑ i ∈ s, h i : ℝ) : EReal) := by
  classical
  induction s using Finset.induction_on with
  | empty => simp
  | insert a s ha ih => rw [Finset.sum_insert ha, Finset.sum_insert ha, ih, EReal.coe_add]

variable (x : SX.Idx → EReal) (hfin : ∀ i, ∃ r : ℝ, x i = (r : EReal))
include hfin

/-- The row maximum of finite logits is a real number. -/
theorem rowMax_real (b : Fin 131072) : ∃ m : ℝ, rowMax x b = (m : EReal) := by
  unfold rowMax; rw [negInf_eq]
  exact fold_max_real (fun c => x (ix2 b c)) (fun c => hfin (ix2 b c)) Finset.univ ⟨⟨0, by norm_num⟩, Finset.mem_univ _⟩

/-- The row sum of finite logits is a positive real number. -/
theorem rowSum_real_pos (b : Fin 131072) : ∃ S : ℝ, 0 < S ∧ rowSum x b = (S : EReal) := by
  obtain ⟨m, hm⟩ := rowMax_real x hfin b
  choose g hg using fun c : Fin 1000 => hfin (ix2 b c)
  refine ⟨∑ c : Fin 1000, Real.exp (g c - m), ?_, ?_⟩
  · exact Finset.sum_pos (fun c _ => Real.exp_pos _) ⟨⟨0, by norm_num⟩, Finset.mem_univ _⟩
  · unfold rowSum
    rw [← sum_coe_real]
    refine Finset.sum_congr rfl fun c _ => ?_
    unfold expShift
    rw [hg, hm, ← EReal.coe_sub, Ideal.exp_coe]

/-- The logarithm of the row sum of finite logits is a real number. -/
theorem log_rowSum_real (b : Fin 131072) : ∃ L : ℝ, Ideal.log (rowSum x b) = (L : EReal) := by
  obtain ⟨S, hS, hSe⟩ := rowSum_real_pos x hfin b
  exact ⟨Real.log S, by rw [hSe, Ideal.log_coe, if_neg (not_le.mpr hS)]⟩

/-- The target's log-probability, for finite logits, is never `+∞`: it is a real number when the target is in range
    and `−∞` when it is not. -/
theorem logptR_ne_top (μ : Fin 131072 → BitVec 1) (κ : Fin 131072 → Fin 1000) (b : Fin 131072) :
    logptR x μ κ b ≠ ⊤ := by
  unfold logptR
  by_cases h : μ b = 1#1
  · obtain ⟨m, hm⟩ := rowMax_real x hfin b
    obtain ⟨L, hL⟩ := log_rowSum_real x hfin b
    obtain ⟨r, hr⟩ := hfin (ix2 b (κ b))
    rw [h, select_one, logpR_eq, hr, hm, hL, ← EReal.coe_sub, ← EReal.coe_sub]
    exact EReal.coe_ne_top _
  · rw [eq_zero_of_ne_one h, select_zero, fillv_eq]
    exact bot_ne_top

end Cert.FocalAlgebra
-- ==== Proof.FocalTerm.lean ====
/-
  The focal term of one row, in the two spellings. With `d = 1 − eᵛ` the kernel writes `(0 − d·d)·v` and the
  reference `(−(d ^ 2.0))·v`. For a log-probability `v` that is a real number or `−∞` the difference `d` is a real
  number (`e^{−∞} = 0`), and for a real `d` the power with exponent two is the product `d·d`; `0 − y` is `−y` for
  every extended real `y`. At `v = +∞` the two spellings differ (`d = −∞`: the product is `+∞`, the power `−∞`),
  which is why the statement excludes it.
-/
import proofs.«145446_j66486093742616_2_alg».proof.Proof.FocalWords

namespace Cert.FocalAlgebra

open Idealize.ShloMosaic Cert.FocalSpec

/-- For a real `d` the power `d ^ 2.0` is the product `d · d`. -/
theorem pow_two_coe (d : ℝ) : Ideal.pow (d : EReal) twoW = (d : EReal) * (d : EReal) := by
  rw [twoW_eq, Ideal.pow_coe_coe, ← EReal.coe_mul]
  congr 1
  show d ^ (2 : ℝ) = d * d
  rw [Real.rpow_two, sq]

/-- For `v` below `+∞` the difference `1 − eᵛ` is a real number: `1 − 0` at `v = −∞`, `1 − e^r` at a real `r`. -/
theorem one_sub_exp_real (v : EReal) (hv : v ≠ ⊤) : ∃ d : ℝ, oneW - Ideal.exp v = (d : EReal) := by
  rw [oneW_eq]
  induction v using EReal.rec with
  | bot => exact ⟨1, by rw [Ideal.exp_bot, sub_zero, EReal.coe_one]⟩
  | coe r => exact ⟨1 - Real.exp r, by rw [Ideal.exp_coe, EReal.coe_sub, EReal.coe_one]⟩
  | top => exact absurd rfl hv

/-- The kernel's focal term and the reference's agree at every log-probability below `+∞`. -/
theorem focalK_eq_focalR (v : EReal) (hv : v ≠ ⊤) : focalK v = focalR v := by
  obtain ⟨d, hd⟩ := one_sub_exp_real v hv
  unfold focalK focalR
  rw [hd, pow_two_coe, zero_sub]

end Cert.FocalAlgebra
-- ==== Proof.RowAlgebra.lean ====
/-
  The two programs' sums agree. The kernel adds the rows' focal terms, and the rows' probabilities of each class, tile
  by tile; the reference adds them all at once. Row by row the terms are equal (the focal terms because, for finite
  logits, the target's log-probability is never `+∞`; the probabilities with no hypothesis), and a sum over the rows
  may be taken in either order.
-/
import proofs.«145446_j66486093742616_2_alg».proof.Proof.RowRegroup
import proofs.«145446_j66486093742616_2_alg».proof.Proof.RowSoftmax
import proofs.«145446_j66486093742616_2_alg».proof.Proof.FocalTerm

open scoped BigOperators

namespace Cert.FocalAlgebra

open Idealize.ShloMosaic Cert.FocalSpec

/-- For finite logits, whatever the targets name, the kernel's sum of focal terms is the reference's. -/
theorem focalSum_eq (x : SX.Idx → EReal) (hfin : ∀ i, ∃ r : ℝ, x i = (r : EReal))
    (μ : Fin 131072 → BitVec 1) (κ : Fin 131072 → Fin 1000) : focalSumK x μ κ = focalSumR x μ κ := by
  unfold focalSumK focalSumR
  rw [sum_rows_eq_sum_core_tile_row (fun b => focalR (logptR x μ κ b))]
  refine Finset.sum_congr rfl fun core _ => Finset.sum_congr rfl fun tile _ => Finset.sum_congr rfl fun r _ => ?_
  rw [logptK_eq_logptR, focalK_eq_focalR _ (logptR_ne_top x hfin μ κ _)]

/-- The kernel's sum of the probabilities of class `c` is the reference's (no hypothesis on the logits is needed). -/
theorem probSum_eq (x : SX.Idx → EReal) (c : Fin 1000) : probSumK x c = probSumR x c := by
  unfold probSumK probSumR
  rw [sum_rows_eq_sum_core_tile_row (fun b => probR x b c)]
  simp only [probR_eq]

end Cert.FocalAlgebra
-- ==== Proof.Bridge.lean ====
/-
  The two programs compute one function.

  The reference's result is its tail applied to the sum of its focal terms over all rows and to its sums of each
  class's probabilities; the kernel's is the same tail applied to its two cores' totals. Row by row the reference's
  spelling and the kernel's agree on the extended reals once every logit is a real number (then the row maximum and
  the row's sum of exponentials are real, so the target's log-probability is never +∞, which is the one value at which
  a power with exponent 2 and a product differ), a sum over all rows is the sum core by core, tile by tile, row by
  row, and the mask, the class and the tail are the same integer and host operations in both programs.
-/
import proofs.«145446_j66486093742616_2_alg».proof.Proof.KernelTail
import proofs.«145446_j66486093742616_2_alg».proof.Proof.KernelSpec
import proofs.«145446_j66486093742616_2_alg».proof.Proof.RefValue
import proofs.«145446_j66486093742616_2_alg».proof.Proof.RefTail
import proofs.«145446_j66486093742616_2_alg».proof.Proof.RowAlgebra

set_option maxRecDepth 16384

noncomputable section

open scoped BigOperators

namespace Cert.FocalBridge

open Idealize.ShloMosaic Idealize.ShloMosaic.TcCoe Idealize.ShloMosaic.ValueIdx
open Idealize.SL Idealize.SL.Sem
open Cert.FocalSpec

/-- The bit "row b's target is in range" is computed by the same integer operations in both programs. -/
theorem mask_eq (t : Cert.KernelIdeal.S131072.Idx → BitVec 32) : Cert.FocalKernel.maskK t = Cert.FocalRef.maskR t := rfl

/-- So is the class row b's target names. -/
theorem col_eq (t : Cert.KernelIdeal.S131072.Idx → BitVec 32) : Cert.FocalKernel.colK t = Cert.FocalRef.colR t := rfl

/-- And the tail — the means, the counts of each class among the targets, the mean absolute difference, the factor
    five and the final sum — is the same composition of host operations. -/
theorem tail_eq (f : Cert.KernelIdeal.S_.Idx → EReal) (p : Cert.KernelIdeal.S1000.Idx → EReal)
    (t : Cert.KernelIdeal.S131072.Idx → BitVec 32) : Cert.FocalKernel.tailK f p t = Cert.FocalRef.tailR f p t := rfl

/-- The tail depends on its two array arguments only through their values. -/
theorem tail_congr {f f' : Cert.KernelIdeal.S_.Idx → EReal} {p p' : Cert.KernelIdeal.S1000.Idx → EReal} (hf : f = f') (hp : p = p')
    (t : Cert.KernelIdeal.S131072.Idx → BitVec 32) : Cert.FocalKernel.tailK f p t = Cert.FocalKernel.tailK f' p' t := by
  subst hf; subst hp; rfl

/-- THE REFERENCE'S VALUE, in the kernel's spelling: for real logits its result is the tail of the kernel's two sums. -/
theorem ref_value (x : SX.Idx → EReal) (hfin : ∀ i, ∃ r : ℝ, x i = (r : EReal))
    (t : Cert.KernelIdeal.S131072.Idx → BitVec 32) :
    Cert.ReferenceIdeal.ReadP.val_main_v43 (F := Ideal) x t
      = Cert.FocalKernel.tailK (fun _ => focalSumK x (Cert.FocalKernel.maskK t) (Cert.FocalKernel.colK t))
          (fun j => probSumK x ⟨(j 0).val, (j 0).isLt⟩) t := by
  have hf : Cert.ReferenceIdeal.ReadP.val_main_v11 (F := Ideal) x t
      = fun _ => focalSumK x (Cert.FocalKernel.maskK t) (Cert.FocalKernel.colK t) := by
    funext i
    rw [Cert.FocalRef.focalSum_stage, mask_eq, col_eq]
    exact (Cert.FocalAlgebra.focalSum_eq x hfin _ _).symm
  have hp : Cert.ReferenceIdeal.ReadP.val_main_v24 (F := Ideal) x = fun j => probSumK x ⟨(j 0).val, (j 0).isLt⟩ := by
    funext j
    rw [Cert.FocalRef.probSum_stage]
    exact (Cert.FocalAlgebra.probSum_eq x _).symm
  exact (Cert.FocalRef.val_main_v43_eq_tailR x t).trans ((tail_eq _ _ t).symm.trans (tail_congr hf hp t))

/-- THE KERNEL'S VALUE, in the same spelling: its two cores' totals are those two sums of the arguments. -/
theorem kernel_value (m : (ℓ : Loc Cert.KernelIdeal.nD Cert.KernelIdeal.τ Cert.KernelIdeal.sig) → Buf (Elt Ideal) ℓ)
    (c : Dev Cert.KernelIdeal.nD) :
    Cert.FocalKernel.tailK (fun _ => ∑ core : Fin 2, Cert.FocalKernel.focalTotal m c core)
        (fun j => ∑ core : Fin 2, Cert.FocalKernel.classTotal m c core ⟨(j 0).val, (j 0).isLt⟩)
        (m ((c.tc : Thread Cert.KernelIdeal.nD Cert.KernelIdeal.τ).loc Cert.KernelIdeal.main_arg1))
      = Cert.FocalKernel.tailK
          (fun _ => focalSumK (m ((c.tc : Thread Cert.KernelIdeal.nD Cert.KernelIdeal.τ).loc Cert.KernelIdeal.main_arg0))
            (Cert.FocalKernel.maskK (m ((c.tc : Thread Cert.KernelIdeal.nD Cert.KernelIdeal.τ).loc Cert.KernelIdeal.main_arg1)))
            (Cert.FocalKernel.colK (m ((c.tc : Thread Cert.KernelIdeal.nD Cert.KernelIdeal.τ).loc Cert.KernelIdeal.main_arg1))))
          (fun j => probSumK (m ((c.tc : Thread Cert.KernelIdeal.nD Cert.KernelIdeal.τ).loc Cert.KernelIdeal.main_arg0)) ⟨(j 0).val, (j 0).isLt⟩)
          (m ((c.tc : Thread Cert.KernelIdeal.nD Cert.KernelIdeal.τ).loc Cert.KernelIdeal.main_arg1)) := by
  have h0 := Cert.KernelIdeal.Gen.V_main_arg0 m c
  have h1 := Cert.KernelIdeal.Gen.V_main_arg1 m c
  refine tail_congr (funext fun _ => ?_) (funext fun j => ?_) _
  · rw [Cert.FocalKernel.focalTotals_eq m c, h1]
    show focalSumK (Cert.KernelIdeal.Gen.V m c Cert.KernelIdeal.main_arg0) _ _ = _
    rw [h0]
  · rw [Cert.FocalKernel.classTotals_eq m c]
    show probSumK (Cert.KernelIdeal.Gen.V m c Cert.KernelIdeal.main_arg0) _ = _
    rw [h0]

end Cert.FocalBridge

end
-- ==== Proof.RefOps.lean ====
/-
  The reference program as a straight line of operations, cut in three.

  The reference's entry function is one operation after another, 96 of them: first the log-softmax of the logits
  (15 operations, ending in the log-probabilities), then the pick of one log-probability per row at the row's
  target (23 operations: the targets as a column, the wrap of negative targets, the in-range test, the gather, the
  select against the fill value), then everything else (58 operations: the focal terms and their mean, the softmax
  once more, the per-class means and counts, and the final combination). What a line of operations leaves in the
  buffers is a fold of the operations' results over the starting contents, and the fold of a concatenation is the
  fold of the second part started from the fold of the first: so the program's effect can be read one part at a time.
-/
import proofs.«145446_j66486093742616_2_alg».proof.Proof.Gen.ReferenceIdeal
import Idealize.ShloMosaic.Lib.StableHlo.Run

noncomputable section

namespace Cert.FocalRef

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold, started from the first's. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The log-softmax of the logits: 15 operations, the last one writing the log-probabilities. -/
abbrev opsA : List (HloOp τ sig (Elt F)) :=
  [ TRef.nullary (TRef.of (T := ⟨S_, .f32⟩) main_call0_cst) (constant S_ .f32 0xFF800000#32),
    TRef.binary (TRef.of (T := ⟨S131072x1000, .f32⟩) main_arg0) (TRef.of (T := ⟨S_, .f32⟩) main_call0_cst) (TRef.of (T := ⟨S131072, .f32⟩) main_call0_v0) (fun x v => Host.reduce FloatOps.maximumf x v reducesTo_S131072x1000_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x1000, .f32⟩) main_call0_v4) (broadcastInDim S131072x1000 ![0, 1] bcast_S131072x1_S131072x1000_0_1),
    TRef.binary (TRef.of (T := ⟨S131072x1000, .f32⟩) main_arg0) (TRef.of (T := ⟨S131072x1000, .f32⟩) main_call0_v4) (TRef.of (T := ⟨S131072x1000, .f32⟩) main_call0_v5) subf,
    TRef.unary (TRef.of (T := ⟨S131072x1000, .f32⟩) main_call0_v5) (TRef.of (T := ⟨S131072x1000, .f32⟩) main_call0_v6) Host.exp,
    TRef.nullary (TRef.of (T := ⟨S_, .f32⟩) main_call0_cst_1) (constant S_ .f32 0x00000000#32),
    TRef.binary (TRef.of (T := ⟨S131072x1000, .f32⟩) main_call0_v6) (TRef.of (T := ⟨S_, .f32⟩) main_call0_cst_1) (TRef.of (T := ⟨S131072, .f32⟩) main_call0_v7) (fun x v => Host.reduceAdd x v reducesTo_S131072x1000_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x1000, .f32⟩) main_call0_v10) (broadcastInDim S131072x1000 ![0, 1] bcast_S131072x1_S131072x1000_0_1),
    TRef.binary (TRef.of (T := ⟨S131072x1000, .f32⟩) main_call0_v5) (TRef.of (T := ⟨S131072x1000, .f32⟩) main_call0_v10) (TRef.of (T := ⟨S131072x1000, .f32⟩) main_v0) subf ]

/-- The pick of one log-probability per row: 23 operations, the last one writing the picked column. -/
abbrev opsB : List (HloOp τ sig (Elt F)) :=
  [ unary main_arg1 main_v1 (broadcastInDim S131072x1 ![0] bcast_S131072_S131072x1_0 : (⟨S131072, .i32⟩ : BufTy).Contents (Elt F) → (⟨S131072x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S131072x1, .i32⟩) main_call1_v0) (broadcastInDim S131072x1 ![] bcast_S_S131072x1),
    TRef.binary (TRef.of (T := ⟨S131072x1, .i32⟩) main_v1) (TRef.of (T := ⟨S131072x1, .i32⟩) main_call1_v0) (TRef.of (T := ⟨S131072x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S131072x1, .i32⟩) main_call1_v2) (broadcastInDim S131072x1 ![] bcast_S_S131072x1),
    TRef.binary (TRef.of (T := ⟨S131072x1, .i32⟩) main_v1) (TRef.of (T := ⟨S131072x1, .i32⟩) main_call1_v2) (TRef.of (T := ⟨S131072x1, .i32⟩) main_call1_v3) addi,
    TRef.ternary (TRef.of (T := ⟨S131072x1, .i1⟩) main_call1_v1) (TRef.of (T := ⟨S131072x1, .i32⟩) main_call1_v3) (TRef.of (T := ⟨S131072x1, .i32⟩) main_v1) (TRef.of (T := ⟨S131072x1, .i32⟩) main_call1_v4) select,
    TRef.reshape (TRef.of (T := ⟨S131072x1, .i32⟩) main_call1_v4) (TRef.of (T := ⟨S131072x1x1, .i32⟩) main_call1_v5) rfl shapeCasts_S131072x1_S131072x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S131072x1x1, .i32⟩) main_call1_v6) (broadcastInDim S131072x1x1 ![] bcast_S_S131072x1x1),
    TRef.binary (TRef.of (T := ⟨S131072x1x1, .i32⟩) main_call1_v5) (TRef.of (T := ⟨S131072x1x1, .i32⟩) main_call1_v6) (TRef.of (T := ⟨S131072x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S131072x1x1, .i32⟩) main_call1_v9) (broadcastInDim S131072x1x1 ![0, 1, 2] bcast_S1x1x1_S131072x1x1_0_1_2),
    TRef.binary (TRef.of (T := ⟨S131072x1x1, .i32⟩) main_call1_v5) (TRef.of (T := ⟨S131072x1x1, .i32⟩) main_call1_v9) (TRef.of (T := ⟨S131072x1x1, .i1⟩) main_call1_v10) (cmpi .sle),
    TRef.binary (TRef.of (T := ⟨S131072x1x1, .i1⟩) main_call1_v7) (TRef.of (T := ⟨S131072x1x1, .i1⟩) main_call1_v10) (TRef.of (T := ⟨S131072x1x1, .i1⟩) main_call1_v11) andi,
    TRef.nullary (TRef.of (T := ⟨S_, .i1⟩) main_call1_c_3) (constantI S_ 1 1#1),
    TRef.binary (TRef.of (T := ⟨S131072x1x1, .i1⟩) main_call1_v11) (TRef.of (T := ⟨S_, .i1⟩) main_call1_c_3) (TRef.of (T := ⟨S131072x1, .i1⟩) main_call1_v12) (fun x v => Host.reduce IntOp.andi x v reducesTo_S131072x1x1_S131072x1_d2 h_S_),
    TRef.binary (TRef.of (T := ⟨S131072x1000, .f32⟩) main_v0) (TRef.of (T := ⟨S131072x1x1, .i32⟩) main_call1_v5) (TRef.of (T := ⟨S131072x1, .f32⟩) main_call1_v13) (fun x i => Host.gather gather_S131072x1000_S131072x1x1_S131072x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S131072x1, .f32⟩) main_call1_v14) (broadcastInDim S131072x1 ![] bcast_S_S131072x1),
    TRef.ternary (TRef.of (T := ⟨S131072x1, .i1⟩) main_call1_v12) (TRef.of (T := ⟨S131072x1, .f32⟩) main_call1_v13) (TRef.of (T := ⟨S131072x1, .f32⟩) main_call1_v14) (TRef.of (T := ⟨S131072x1, .f32⟩) main_v2) select ]

/-- The rest: 58 operations, the last one writing the result. -/
abbrev opsC : List (HloOp τ sig (Elt F)) :=
  [ reshape main_v2 main_v3 rfl shapeCasts_S131072x1_S131072,
    unary main_v3 main_v4 (Host.exp : (⟨S131072, .f32⟩ : BufTy).Contents (Elt F) → (⟨S131072, .f32⟩ : BufTy).Contents (Elt F)),
    nullary main_cst (constant S_ .f32 0x3F800000#32),
    unary main_cst main_v5 (broadcastInDim S131072 ![] bcast_S_S131072 : (⟨S_, .f32⟩ : BufTy).Contents (Elt F) → (⟨S131072, .f32⟩ : BufTy).Contents (Elt F)),
    binary main_v5 main_v4 main_v6 (subf : (⟨S131072, .f32⟩ : BufTy).Contents (Elt F) → (⟨S131072, .f32⟩ : BufTy).Contents (Elt F) → (⟨S131072, .f32⟩ : BufTy).Contents (Elt F)),
    nullary main_cst_0 (constant S_ .f32 0x40000000#32),
    unary main_cst_0 main_v7 (broadcastInDim S131072 ![] bcast_S_S131072 : (⟨S_, .f32⟩ : BufTy).Contents (Elt F) → (⟨S131072, .f32⟩ : BufTy).Contents (Elt F)),
    binary main_v6 main_v7 main_v8 (Host.powf : (⟨S131072, .f32⟩ : BufTy).Contents (Elt F) → (⟨S131072, .f32⟩ : BufTy).Contents (Elt F) → (⟨S131072, .f32⟩ : BufTy).Contents (Elt F)),
    unary main_v8 main_v9 (Host.negf : (⟨S131072, .f32⟩ : BufTy).Contents (Elt F) → (⟨S131072, .f32⟩ : BufTy).Contents (Elt F)),
    binary main_v9 main_v3 main_v10 (mulf : (⟨S131072, .f32⟩ : BufTy).Contents (Elt F) → (⟨S131072, .f32⟩ : BufTy).Contents (Elt F) → (⟨S131072, .f32⟩ : BufTy).Contents (Elt F)),
    nullary main_cst_1 (constant S_ .f32 0x00000000#32),
    binary main_v10 main_cst_1 main_v11 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_2 (constant S_ .f32 0x48000000#32),
    binary main_v11 main_cst_2 main_v12 (Host.divf : (⟨S_, .f32⟩ : BufTy).Contents (Elt F) → (⟨S_, .f32⟩ : BufTy).Contents (Elt F) → (⟨S_, .f32⟩ : BufTy).Contents (Elt F)),
    nullary main_cst_3 (constant S_ .f32 0xFF800000#32),
    binary main_arg0 main_cst_3 main_v13 ((fun x v => Host.reduce FloatOps.maximumf x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    nullary main_cst_4 (constant S_ .f32 0xFF800000#32),
    unary main_cst_4 main_v14 (broadcastInDim S131072 ![] bcast_S_S131072 : (⟨S_, .f32⟩ : BufTy).Contents (Elt F) → (⟨S131072, .f32⟩ : BufTy).Contents (Elt F)),
    binary main_v14 main_v13 main_v15 (maximumf : (⟨S131072, .f32⟩ : BufTy).Contents (Elt F) → (⟨S131072, .f32⟩ : BufTy).Contents (Elt F) → (⟨S131072, .f32⟩ : BufTy).Contents (Elt F)),
    unary main_v15 main_v16 (broadcastInDim S131072x1 ![0] bcast_S131072_S131072x1_0 : (⟨S131072, .f32⟩ : BufTy).Contents (Elt F) → (⟨S131072x1, .f32⟩ : BufTy).Contents (Elt F)),
    unary main_v16 main_v17 (broadcastInDim S131072x1000 ![0, 1] bcast_S131072x1_S131072x1000_0_1 : (⟨S131072x1, .f32⟩ : BufTy).Contents (Elt F) → (⟨S131072x1000, .f32⟩ : BufTy).Contents (Elt F)),
    binary main_arg0 main_v17 main_v18 (subf : (⟨S131072x1000, .f32⟩ : BufTy).Contents (Elt F) → (⟨S131072x1000, .f32⟩ : BufTy).Contents (Elt F) → (⟨S131072x1000, .f32⟩ : BufTy).Contents (Elt F)),
    unary main_v18 main_v19 (Host.exp : (⟨S131072x1000, .f32⟩ : BufTy).Contents (Elt F) → (⟨S131072x1000, .f32⟩ : BufTy).Contents (Elt F)),
    nullary main_cst_5 (constant S_ .f32 0x00000000#32),
    binary main_v19 main_cst_5 main_v20 ((fun x v => Host.reduceAdd x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    unary main_v20 main_v21 (broadcastInDim S131072x1 ![0] bcast_S131072_S131072x1_0 : (⟨S131072, .f32⟩ : BufTy).Contents (Elt F) → (⟨S131072x1, .f32⟩ : BufTy).Contents (Elt F)),
    unary main_v21 main_v22 (broadcastInDim S131072x1000 ![0, 1] bcast_S131072x1_S131072x1000_0_1 : (⟨S131072x1, .f32⟩ : BufTy).Contents (Elt F) → (⟨S131072x1000, .f32⟩ : BufTy).Contents (Elt F)),
    binary main_v19 main_v22 main_v23 (Host.divf : (⟨S131072x1000, .f32⟩ : BufTy).Contents (Elt F) → (⟨S131072x1000, .f32⟩ : BufTy).Contents (Elt F) → (⟨S131072x1000, .f32⟩ : BufTy).Contents (Elt F)),
    nullary main_cst_6 (constant S_ .f32 0x00000000#32),
    binary main_v23 main_cst_6 main_v24 ((fun x v => Host.reduceAdd x v reducesTo_S131072x1000_S1000_d0 h_S_) : (⟨S131072x1000, .f32⟩ : BufTy).Contents (Elt F) → (⟨S_, .f32⟩ : BufTy).Contents (Elt F) → (⟨S1000, .f32⟩ : BufTy).Contents (Elt F)),
    nullary main_cst_7 (constant S_ .f32 0x48000000#32),
    unary main_cst_7 main_v25 (broadcastInDim S1000 ![] bcast_S_S1000 : (⟨S_, .f32⟩ : BufTy).Contents (Elt F) → (⟨S1000, .f32⟩ : BufTy).Contents (Elt F)),
    binary main_v24 main_v25 main_v26 (Host.divf : (⟨S1000, .f32⟩ : BufTy).Contents (Elt F) → (⟨S1000, .f32⟩ : BufTy).Contents (Elt F) → (⟨S1000, .f32⟩ : BufTy).Contents (Elt F)),
    nullary main_cst_8 (constant S_ .f32 0x00000000#32),
    unary main_cst_8 main_v27 (broadcastInDim S1000 ![] bcast_S_S1000 : (⟨S_, .f32⟩ : BufTy).Contents (Elt F) → (⟨S1000, .f32⟩ : BufTy).Contents (Elt F)),
    nullary main_c (constantI S_ 32 0#32),
    unary main_c main_v28 (broadcastInDim S131072 ![] bcast_S_S131072 : (⟨S_, .i32⟩ : BufTy).Contents (Elt F) → (⟨S131072, .i32⟩ : BufTy).Contents (Elt F)),
    binary main_arg1 main_v28 main_v29 (cmpi .slt : (⟨S131072, .i32⟩ : BufTy).Contents (Elt F) → (⟨S131072, .i32⟩ : BufTy).Contents (Elt F) → (⟨S131072, .i1⟩ : BufTy).Contents (Elt F)),
    nullary main_c_9 (constantI S_ 32 1000#32),
    unary main_c_9 main_v30 (broadcastInDim S131072 ![] bcast_S_S131072 : (⟨S_, .i32⟩ : BufTy).Contents (Elt F) → (⟨S131072, .i32⟩ : BufTy).Contents (Elt F)),
    binary main_arg1 main_v30 main_v31 (addi : (⟨S131072, .i32⟩ : BufTy).Contents (Elt F) → (⟨S131072, .i32⟩ : BufTy).Contents (Elt F) → (⟨S131072, .i32⟩ : BufTy).Contents (Elt F)),
    ternary main_v29 main_v31 main_arg1 main_v32 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v32 main_v33 (broadcastInDim S131072x1 ![0] bcast_S131072_S131072x1_0 : (⟨S131072, .i32⟩ : BufTy).Contents (Elt F) → (⟨S131072x1, .i32⟩ : BufTy).Contents (Elt F)),
    nullary main_cst_10 (constant S_ .f32 0x3F800000#32),
    unary main_cst_10 main_v34 (broadcastInDim S131072 ![] bcast_S_S131072 : (⟨S_, .f32⟩ : BufTy).Contents (Elt F) → (⟨S131072, .f32⟩ : BufTy).Contents (Elt F)),
    ternary main_v27 main_v33 main_v34 main_v35 ((fun x i u => Host.scatterAdd scatter_S1000_S131072x1_S131072_n_0_0_1 x i u) : (⟨S1000, .f32⟩ : BufTy).Contents (Elt F) → (⟨S131072x1, .i32⟩ : BufTy).Contents (Elt F) → (⟨S131072, .f32⟩ : BufTy).Contents (Elt F) → (⟨S1000, .f32⟩ : BufTy).Contents (Elt F)),
    nullary main_cst_11 (constant S_ .f32 0x48000000#32),
    unary main_cst_11 main_v36 (broadcastInDim S1000 ![] bcast_S_S1000 : (⟨S_, .f32⟩ : BufTy).Contents (Elt F) → (⟨S1000, .f32⟩ : BufTy).Contents (Elt F)),
    binary main_v35 main_v36 main_v37 (Host.divf : (⟨S1000, .f32⟩ : BufTy).Contents (Elt F) → (⟨S1000, .f32⟩ : BufTy).Contents (Elt F) → (⟨S1000, .f32⟩ : BufTy).Contents (Elt F)),
    binary main_v26 main_v37 main_v38 (subf : (⟨S1000, .f32⟩ : BufTy).Contents (Elt F) → (⟨S1000, .f32⟩ : BufTy).Contents (Elt F) → (⟨S1000, .f32⟩ : BufTy).Contents (Elt F)),
    unary main_v38 main_v39 (Host.absf : (⟨S1000, .f32⟩ : BufTy).Contents (Elt F) → (⟨S1000, .f32⟩ : BufTy).Contents (Elt F)),
    nullary main_cst_12 (constant S_ .f32 0x00000000#32),
    binary main_v39 main_cst_12 main_v40 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    nullary main_cst_13 (constant S_ .f32 0x447A0000#32),
    binary main_v40 main_cst_13 main_v41 (Host.divf : (⟨S_, .f32⟩ : BufTy).Contents (Elt F) → (⟨S_, .f32⟩ : BufTy).Contents (Elt F) → (⟨S_, .f32⟩ : BufTy).Contents (Elt F)),
    nullary main_cst_14 (constant S_ .f32 0x40A00000#32),
    binary main_cst_14 main_v41 main_v42 (mulf : (⟨S_, .f32⟩ : BufTy).Contents (Elt F) → (⟨S_, .f32⟩ : BufTy).Contents (Elt F) → (⟨S_, .f32⟩ : BufTy).Contents (Elt F)),
    binary main_v12 main_v42 main_v43 (addf : (⟨S_, .f32⟩ : BufTy).Contents (Elt F) → (⟨S_, .f32⟩ : BufTy).Contents (Elt F) → (⟨S_, .f32⟩ : BufTy).Contents (Elt F)) ]

/-- The entry function's 96 operations, in order (a called function's operations stand where it is called). -/
abbrev ops : List (HloOp τ sig (Elt F)) :=
  [ TRef.nullary (TRef.of (T := ⟨S_, .f32⟩) main_call0_cst) (constant S_ .f32 0xFF800000#32),
    TRef.binary (TRef.of (T := ⟨S131072x1000, .f32⟩) main_arg0) (TRef.of (T := ⟨S_, .f32⟩) main_call0_cst) (TRef.of (T := ⟨S131072, .f32⟩) main_call0_v0) (fun x v => Host.reduce FloatOps.maximumf x v reducesTo_S131072x1000_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x1000, .f32⟩) main_call0_v4) (broadcastInDim S131072x1000 ![0, 1] bcast_S131072x1_S131072x1000_0_1),
    TRef.binary (TRef.of (T := ⟨S131072x1000, .f32⟩) main_arg0) (TRef.of (T := ⟨S131072x1000, .f32⟩) main_call0_v4) (TRef.of (T := ⟨S131072x1000, .f32⟩) main_call0_v5) subf,
    TRef.unary (TRef.of (T := ⟨S131072x1000, .f32⟩) main_call0_v5) (TRef.of (T := ⟨S131072x1000, .f32⟩) main_call0_v6) Host.exp,
    TRef.nullary (TRef.of (T := ⟨S_, .f32⟩) main_call0_cst_1) (constant S_ .f32 0x00000000#32),
    TRef.binary (TRef.of (T := ⟨S131072x1000, .f32⟩) main_call0_v6) (TRef.of (T := ⟨S_, .f32⟩) main_call0_cst_1) (TRef.of (T := ⟨S131072, .f32⟩) main_call0_v7) (fun x v => Host.reduceAdd x v reducesTo_S131072x1000_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x1000, .f32⟩) main_call0_v10) (broadcastInDim S131072x1000 ![0, 1] bcast_S131072x1_S131072x1000_0_1),
    TRef.binary (TRef.of (T := ⟨S131072x1000, .f32⟩) main_call0_v5) (TRef.of (T := ⟨S131072x1000, .f32⟩) main_call0_v10) (TRef.of (T := ⟨S131072x1000, .f32⟩) main_v0) subf,
    unary main_arg1 main_v1 (broadcastInDim S131072x1 ![0] bcast_S131072_S131072x1_0 : (⟨S131072, .i32⟩ : BufTy).Contents (Elt F) → (⟨S131072x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S131072x1, .i32⟩) main_call1_v0) (broadcastInDim S131072x1 ![] bcast_S_S131072x1),
    TRef.binary (TRef.of (T := ⟨S131072x1, .i32⟩) main_v1) (TRef.of (T := ⟨S131072x1, .i32⟩) main_call1_v0) (TRef.of (T := ⟨S131072x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S131072x1, .i32⟩) main_call1_v2) (broadcastInDim S131072x1 ![] bcast_S_S131072x1),
    TRef.binary (TRef.of (T := ⟨S131072x1, .i32⟩) main_v1) (TRef.of (T := ⟨S131072x1, .i32⟩) main_call1_v2) (TRef.of (T := ⟨S131072x1, .i32⟩) main_call1_v3) addi,
    TRef.ternary (TRef.of (T := ⟨S131072x1, .i1⟩) main_call1_v1) (TRef.of (T := ⟨S131072x1, .i32⟩) main_call1_v3) (TRef.of (T := ⟨S131072x1, .i32⟩) main_v1) (TRef.of (T := ⟨S131072x1, .i32⟩) main_call1_v4) select,
    TRef.reshape (TRef.of (T := ⟨S131072x1, .i32⟩) main_call1_v4) (TRef.of (T := ⟨S131072x1x1, .i32⟩) main_call1_v5) rfl shapeCasts_S131072x1_S131072x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S131072x1x1, .i32⟩) main_call1_v6) (broadcastInDim S131072x1x1 ![] bcast_S_S131072x1x1),
    TRef.binary (TRef.of (T := ⟨S131072x1x1, .i32⟩) main_call1_v5) (TRef.of (T := ⟨S131072x1x1, .i32⟩) main_call1_v6) (TRef.of (T := ⟨S131072x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S131072x1x1, .i32⟩) main_call1_v9) (broadcastInDim S131072x1x1 ![0, 1, 2] bcast_S1x1x1_S131072x1x1_0_1_2),
    TRef.binary (TRef.of (T := ⟨S131072x1x1, .i32⟩) main_call1_v5) (TRef.of (T := ⟨S131072x1x1, .i32⟩) main_call1_v9) (TRef.of (T := ⟨S131072x1x1, .i1⟩) main_call1_v10) (cmpi .sle),
    TRef.binary (TRef.of (T := ⟨S131072x1x1, .i1⟩) main_call1_v7) (TRef.of (T := ⟨S131072x1x1, .i1⟩) main_call1_v10) (TRef.of (T := ⟨S131072x1x1, .i1⟩) main_call1_v11) andi,
    TRef.nullary (TRef.of (T := ⟨S_, .i1⟩) main_call1_c_3) (constantI S_ 1 1#1),
    TRef.binary (TRef.of (T := ⟨S131072x1x1, .i1⟩) main_call1_v11) (TRef.of (T := ⟨S_, .i1⟩) main_call1_c_3) (TRef.of (T := ⟨S131072x1, .i1⟩) main_call1_v12) (fun x v => Host.reduce IntOp.andi x v reducesTo_S131072x1x1_S131072x1_d2 h_S_),
    TRef.binary (TRef.of (T := ⟨S131072x1000, .f32⟩) main_v0) (TRef.of (T := ⟨S131072x1x1, .i32⟩) main_call1_v5) (TRef.of (T := ⟨S131072x1, .f32⟩) main_call1_v13) (fun x i => Host.gather gather_S131072x1000_S131072x1x1_S131072x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S131072x1, .f32⟩) main_call1_v14) (broadcastInDim S131072x1 ![] bcast_S_S131072x1),
    TRef.ternary (TRef.of (T := ⟨S131072x1, .i1⟩) main_call1_v12) (TRef.of (T := ⟨S131072x1, .f32⟩) main_call1_v13) (TRef.of (T := ⟨S131072x1, .f32⟩) main_call1_v14) (TRef.of (T := ⟨S131072x1, .f32⟩) main_v2) select,
    reshape main_v2 main_v3 rfl shapeCasts_S131072x1_S131072,
    unary main_v3 main_v4 (Host.exp : (⟨S131072, .f32⟩ : BufTy).Contents (Elt F) → (⟨S131072, .f32⟩ : BufTy).Contents (Elt F)),
    nullary main_cst (constant S_ .f32 0x3F800000#32),
    unary main_cst main_v5 (broadcastInDim S131072 ![] bcast_S_S131072 : (⟨S_, .f32⟩ : BufTy).Contents (Elt F) → (⟨S131072, .f32⟩ : BufTy).Contents (Elt F)),
    binary main_v5 main_v4 main_v6 (subf : (⟨S131072, .f32⟩ : BufTy).Contents (Elt F) → (⟨S131072, .f32⟩ : BufTy).Contents (Elt F) → (⟨S131072, .f32⟩ : BufTy).Contents (Elt F)),
    nullary main_cst_0 (constant S_ .f32 0x40000000#32),
    unary main_cst_0 main_v7 (broadcastInDim S131072 ![] bcast_S_S131072 : (⟨S_, .f32⟩ : BufTy).Contents (Elt F) → (⟨S131072, .f32⟩ : BufTy).Contents (Elt F)),
    binary main_v6 main_v7 main_v8 (Host.powf : (⟨S131072, .f32⟩ : BufTy).Contents (Elt F) → (⟨S131072, .f32⟩ : BufTy).Contents (Elt F) → (⟨S131072, .f32⟩ : BufTy).Contents (Elt F)),
    unary main_v8 main_v9 (Host.negf : (⟨S131072, .f32⟩ : BufTy).Contents (Elt F) → (⟨S131072, .f32⟩ : BufTy).Contents (Elt F)),
    binary main_v9 main_v3 main_v10 (mulf : (⟨S131072, .f32⟩ : BufTy).Contents (Elt F) → (⟨S131072, .f32⟩ : BufTy).Contents (Elt F) → (⟨S131072, .f32⟩ : BufTy).Contents (Elt F)),
    nullary main_cst_1 (constant S_ .f32 0x00000000#32),
    binary main_v10 main_cst_1 main_v11 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_2 (constant S_ .f32 0x48000000#32),
    binary main_v11 main_cst_2 main_v12 (Host.divf : (⟨S_, .f32⟩ : BufTy).Contents (Elt F) → (⟨S_, .f32⟩ : BufTy).Contents (Elt F) → (⟨S_, .f32⟩ : BufTy).Contents (Elt F)),
    nullary main_cst_3 (constant S_ .f32 0xFF800000#32),
    binary main_arg0 main_cst_3 main_v13 ((fun x v => Host.reduce FloatOps.maximumf x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    nullary main_cst_4 (constant S_ .f32 0xFF800000#32),
    unary main_cst_4 main_v14 (broadcastInDim S131072 ![] bcast_S_S131072 : (⟨S_, .f32⟩ : BufTy).Contents (Elt F) → (⟨S131072, .f32⟩ : BufTy).Contents (Elt F)),
    binary main_v14 main_v13 main_v15 (maximumf : (⟨S131072, .f32⟩ : BufTy).Contents (Elt F) → (⟨S131072, .f32⟩ : BufTy).Contents (Elt F) → (⟨S131072, .f32⟩ : BufTy).Contents (Elt F)),
    unary main_v15 main_v16 (broadcastInDim S131072x1 ![0] bcast_S131072_S131072x1_0 : (⟨S131072, .f32⟩ : BufTy).Contents (Elt F) → (⟨S131072x1, .f32⟩ : BufTy).Contents (Elt F)),
    unary main_v16 main_v17 (broadcastInDim S131072x1000 ![0, 1] bcast_S131072x1_S131072x1000_0_1 : (⟨S131072x1, .f32⟩ : BufTy).Contents (Elt F) → (⟨S131072x1000, .f32⟩ : BufTy).Contents (Elt F)),
    binary main_arg0 main_v17 main_v18 (subf : (⟨S131072x1000, .f32⟩ : BufTy).Contents (Elt F) → (⟨S131072x1000, .f32⟩ : BufTy).Contents (Elt F) → (⟨S131072x1000, .f32⟩ : BufTy).Contents (Elt F)),
    unary main_v18 main_v19 (Host.exp : (⟨S131072x1000, .f32⟩ : BufTy).Contents (Elt F) → (⟨S131072x1000, .f32⟩ : BufTy).Contents (Elt F)),
    nullary main_cst_5 (constant S_ .f32 0x00000000#32),
    binary main_v19 main_cst_5 main_v20 ((fun x v => Host.reduceAdd x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    unary main_v20 main_v21 (broadcastInDim S131072x1 ![0] bcast_S131072_S131072x1_0 : (⟨S131072, .f32⟩ : BufTy).Contents (Elt F) → (⟨S131072x1, .f32⟩ : BufTy).Contents (Elt F)),
    unary main_v21 main_v22 (broadcastInDim S131072x1000 ![0, 1] bcast_S131072x1_S131072x1000_0_1 : (⟨S131072x1, .f32⟩ : BufTy).Contents (Elt F) → (⟨S131072x1000, .f32⟩ : BufTy).Contents (Elt F)),
    binary main_v19 main_v22 main_v23 (Host.divf : (⟨S131072x1000, .f32⟩ : BufTy).Contents (Elt F) → (⟨S131072x1000, .f32⟩ : BufTy).Contents (Elt F) → (⟨S131072x1000, .f32⟩ : BufTy).Contents (Elt F)),
    nullary main_cst_6 (constant S_ .f32 0x00000000#32),
    binary main_v23 main_cst_6 main_v24 ((fun x v => Host.reduceAdd x v reducesTo_S131072x1000_S1000_d0 h_S_) : (⟨S131072x1000, .f32⟩ : BufTy).Contents (Elt F) → (⟨S_, .f32⟩ : BufTy).Contents (Elt F) → (⟨S1000, .f32⟩ : BufTy).Contents (Elt F)),
    nullary main_cst_7 (constant S_ .f32 0x48000000#32),
    unary main_cst_7 main_v25 (broadcastInDim S1000 ![] bcast_S_S1000 : (⟨S_, .f32⟩ : BufTy).Contents (Elt F) → (⟨S1000, .f32⟩ : BufTy).Contents (Elt F)),
    binary main_v24 main_v25 main_v26 (Host.divf : (⟨S1000, .f32⟩ : BufTy).Contents (Elt F) → (⟨S1000, .f32⟩ : BufTy).Contents (Elt F) → (⟨S1000, .f32⟩ : BufTy).Contents (Elt F)),
    nullary main_cst_8 (constant S_ .f32 0x00000000#32),
    unary main_cst_8 main_v27 (broadcastInDim S1000 ![] bcast_S_S1000 : (⟨S_, .f32⟩ : BufTy).Contents (Elt F) → (⟨S1000, .f32⟩ : BufTy).Contents (Elt F)),
    nullary main_c (constantI S_ 32 0#32),
    unary main_c main_v28 (broadcastInDim S131072 ![] bcast_S_S131072 : (⟨S_, .i32⟩ : BufTy).Contents (Elt F) → (⟨S131072, .i32⟩ : BufTy).Contents (Elt F)),
    binary main_arg1 main_v28 main_v29 (cmpi .slt : (⟨S131072, .i32⟩ : BufTy).Contents (Elt F) → (⟨S131072, .i32⟩ : BufTy).Contents (Elt F) → (⟨S131072, .i1⟩ : BufTy).Contents (Elt F)),
    nullary main_c_9 (constantI S_ 32 1000#32),
    unary main_c_9 main_v30 (broadcastInDim S131072 ![] bcast_S_S131072 : (⟨S_, .i32⟩ : BufTy).Contents (Elt F) → (⟨S131072, .i32⟩ : BufTy).Contents (Elt F)),
    binary main_arg1 main_v30 main_v31 (addi : (⟨S131072, .i32⟩ : BufTy).Contents (Elt F) → (⟨S131072, .i32⟩ : BufTy).Contents (Elt F) → (⟨S131072, .i32⟩ : BufTy).Contents (Elt F)),
    ternary main_v29 main_v31 main_arg1 main_v32 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v32 main_v33 (broadcastInDim S131072x1 ![0] bcast_S131072_S131072x1_0 : (⟨S131072, .i32⟩ : BufTy).Contents (Elt F) → (⟨S131072x1, .i32⟩ : BufTy).Contents (Elt F)),
    nullary main_cst_10 (constant S_ .f32 0x3F800000#32),
    unary main_cst_10 main_v34 (broadcastInDim S131072 ![] bcast_S_S131072 : (⟨S_, .f32⟩ : BufTy).Contents (Elt F) → (⟨S131072, .f32⟩ : BufTy).Contents (Elt F)),
    ternary main_v27 main_v33 main_v34 main_v35 ((fun x i u => Host.scatterAdd scatter_S1000_S131072x1_S131072_n_0_0_1 x i u) : (⟨S1000, .f32⟩ : BufTy).Contents (Elt F) → (⟨S131072x1, .i32⟩ : BufTy).Contents (Elt F) → (⟨S131072, .f32⟩ : BufTy).Contents (Elt F) → (⟨S1000, .f32⟩ : BufTy).Contents (Elt F)),
    nullary main_cst_11 (constant S_ .f32 0x48000000#32),
    unary main_cst_11 main_v36 (broadcastInDim S1000 ![] bcast_S_S1000 : (⟨S_, .f32⟩ : BufTy).Contents (Elt F) → (⟨S1000, .f32⟩ : BufTy).Contents (Elt F)),
    binary main_v35 main_v36 main_v37 (Host.divf : (⟨S1000, .f32⟩ : BufTy).Contents (Elt F) → (⟨S1000, .f32⟩ : BufTy).Contents (Elt F) → (⟨S1000, .f32⟩ : BufTy).Contents (Elt F)),
    binary main_v26 main_v37 main_v38 (subf : (⟨S1000, .f32⟩ : BufTy).Contents (Elt F) → (⟨S1000, .f32⟩ : BufTy).Contents (Elt F) → (⟨S1000, .f32⟩ : BufTy).Contents (Elt F)),
    unary main_v38 main_v39 (Host.absf : (⟨S1000, .f32⟩ : BufTy).Contents (Elt F) → (⟨S1000, .f32⟩ : BufTy).Contents (Elt F)),
    nullary main_cst_12 (constant S_ .f32 0x00000000#32),
    binary main_v39 main_cst_12 main_v40 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    nullary main_cst_13 (constant S_ .f32 0x447A0000#32),
    binary main_v40 main_cst_13 main_v41 (Host.divf : (⟨S_, .f32⟩ : BufTy).Contents (Elt F) → (⟨S_, .f32⟩ : BufTy).Contents (Elt F) → (⟨S_, .f32⟩ : BufTy).Contents (Elt F)),
    nullary main_cst_14 (constant S_ .f32 0x40A00000#32),
    binary main_cst_14 main_v41 main_v42 (mulf : (⟨S_, .f32⟩ : BufTy).Contents (Elt F) → (⟨S_, .f32⟩ : BufTy).Contents (Elt F) → (⟨S_, .f32⟩ : BufTy).Contents (Elt F)),
    binary main_v12 main_v42 main_v43 (addf : (⟨S_, .f32⟩ : BufTy).Contents (Elt F) → (⟨S_, .f32⟩ : BufTy).Contents (Elt F) → (⟨S_, .f32⟩ : BufTy).Contents (Elt F)) ]

/-- The line is its three parts, one after the other. -/
theorem ops_split : (ops : List (HloOp τ sig (Elt F))) = opsA ++ (opsB ++ opsC) := rfl

set_option maxRecDepth 8192 in
set_option maxHeartbeats 4000000 in
/-- The entry function is that line. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches only buffers of the program. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub ..⟩

end Cert.FocalRef

end
-- ==== Proof.RefSegA.lean ====
/-
  The log-softmax part of the reference, read off its operations.

  From any contents `W` of the buffers, the 15 operations of the log-softmax leave in their last buffer the
  log-softmax stage as a function of the logits found in the first argument's buffer, and leave both arguments'
  buffers as they were. The operations are first respelt over their bare buffers (each typed buffer's transport of
  contents is the identity, one operation at a time, the row-maximum reduction kept closed meanwhile); then each
  operation's result is read at its own buffer and passed over at the others, and what is left is the stage's
  own composition, term for term.
-/
import proofs.«145446_j66486093742616_2_alg».proof.Proof.RefOps
import proofs.«145446_j66486093742616_2_alg».proof.Proof.RefStages

noncomputable section

namespace Cert.FocalRef

open Cert.ReferenceIdeal Cert.ReferenceIdeal.Gen Idealize.ShloMosaic Idealize.ShloMosaic.TcCoe Idealize.SL.Sem Idealize.ShloMosaic.StableHlo

variable {F : FTy → Type} [FloatOps F]

/-- The log-softmax's operations over their bare buffers. -/
abbrev opsA' : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    nullary main_call0_cst_0 ((constant S_ .f32 0xFF800000#32) : (⟨S_, .f32⟩ : BufTy).Contents (Elt F)),
    unary main_call0_cst_0 main_call0_v1 ((broadcastInDim S131072 ![] bcast_S_S131072) : (⟨S_, .f32⟩ : BufTy).Contents (Elt F) → (⟨S131072, .f32⟩ : BufTy).Contents (Elt F)),
    binary main_call0_v1 main_call0_v0 main_call0_v2 ((maximumf) : (⟨S131072, .f32⟩ : BufTy).Contents (Elt F) → (⟨S131072, .f32⟩ : BufTy).Contents (Elt F) → (⟨S131072, .f32⟩ : BufTy).Contents (Elt F)),
    unary main_call0_v2 main_call0_v3 ((broadcastInDim S131072x1 ![0] bcast_S131072_S131072x1_0) : (⟨S131072, .f32⟩ : BufTy).Contents (Elt F) → (⟨S131072x1, .f32⟩ : BufTy).Contents (Elt F)),
    unary main_call0_v3 main_call0_v4 ((broadcastInDim S131072x1000 ![0, 1] bcast_S131072x1_S131072x1000_0_1) : (⟨S131072x1, .f32⟩ : BufTy).Contents (Elt F) → (⟨S131072x1000, .f32⟩ : BufTy).Contents (Elt F)),
    binary main_arg0 main_call0_v4 main_call0_v5 ((subf) : (⟨S131072x1000, .f32⟩ : BufTy).Contents (Elt F) → (⟨S131072x1000, .f32⟩ : BufTy).Contents (Elt F) → (⟨S131072x1000, .f32⟩ : BufTy).Contents (Elt F)),
    unary main_call0_v5 main_call0_v6 ((Host.exp) : (⟨S131072x1000, .f32⟩ : BufTy).Contents (Elt F) → (⟨S131072x1000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    unary main_call0_v7 main_call0_v8 ((broadcastInDim S131072x1 ![0] bcast_S131072_S131072x1_0) : (⟨S131072, .f32⟩ : BufTy).Contents (Elt F) → (⟨S131072x1, .f32⟩ : BufTy).Contents (Elt F)),
    unary main_call0_v8 main_call0_v9 ((Host.log) : (⟨S131072x1, .f32⟩ : BufTy).Contents (Elt F) → (⟨S131072x1, .f32⟩ : BufTy).Contents (Elt F)),
    unary main_call0_v9 main_call0_v10 ((broadcastInDim S131072x1000 ![0, 1] bcast_S131072x1_S131072x1000_0_1) : (⟨S131072x1, .f32⟩ : BufTy).Contents (Elt F) → (⟨S131072x1000, .f32⟩ : BufTy).Contents (Elt F)),
    binary main_call0_v5 main_call0_v10 main_v0 ((subf) : (⟨S131072x1000, .f32⟩ : BufTy).Contents (Elt F) → (⟨S131072x1000, .f32⟩ : BufTy).Contents (Elt F) → (⟨S131072x1000, .f32⟩ : BufTy).Contents (Elt F)) ]

attribute [local irreducible] Host.reduce in
/-- The two spellings are the same line, operation by operation. -/
theorem opsA_eq : (opsA : List (HloOp τ sig (Elt F))) = opsA' := by
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  rfl

attribute [local irreducible] Host.reduce Host.reduceAdd in
/-- The log-probabilities' buffer after the log-softmax's operations. -/
theorem segA_out (W : Valuation τ sig (Elt F)) :
    after opsA W (main_v0 : DevRef τ sig) = ReadP.val_main_v0 (F := F) (W (main_arg0 : DevRef τ sig)) := by
  rw [opsA_eq]
  after_results_simp
  unfold ReadP.val_main_v0 ReadP.val_main_call0_v10 ReadP.val_main_call0_v9 ReadP.val_main_call0_v8
    ReadP.val_main_call0_v7 ReadP.val_main_call0_cst_1 ReadP.val_main_call0_v6 ReadP.val_main_call0_v5
    ReadP.val_main_call0_v4 ReadP.val_main_call0_v3 ReadP.val_main_call0_v2 ReadP.val_main_call0_v1
    ReadP.val_main_call0_cst_0 ReadP.val_main_call0_v0 ReadP.val_main_call0_cst
  rfl

/-- The logits' buffer is not written. -/
theorem segA_arg0 (W : Valuation τ sig (Elt F)) :
    after opsA W (main_arg0 : DevRef τ sig) = W (main_arg0 : DevRef τ sig) := by
  rw [opsA_eq]
  after_results_simp

/-- The targets' buffer is not written. -/
theorem segA_arg1 (W : Valuation τ sig (Elt F)) :
    after opsA W (main_arg1 : DevRef τ sig) = W (main_arg1 : DevRef τ sig) := by
  rw [opsA_eq]
  after_results_simp

end Cert.FocalRef

end
-- ==== Proof.RefSegB.lean ====
/-
  The pick of one log-probability per row, read off its operations.

  From any contents `W` of the buffers, the 23 operations of the pick leave in their last buffer the select of
  the gathered entries against the fill value, as a function of whatever matrix `W` holds in the
  log-probabilities' buffer and of the targets in the second argument's buffer: the in-range bits and the gather's
  indices are the reference's integer stages of the targets, the gather reads the matrix found. Both arguments'
  buffers are left as they were. The operations are first respelt over their bare buffers (each typed buffer's
  transport of contents is the identity, one operation at a time, the in-range reduction kept closed meanwhile);
  then each operation's result is read at its own buffer and passed over at the others.
-/
import proofs.«145446_j66486093742616_2_alg».proof.Proof.RefOps
import proofs.«145446_j66486093742616_2_alg».proof.Proof.RefStages

noncomputable section

namespace Cert.FocalRef

open Cert.ReferenceIdeal Cert.ReferenceIdeal.Gen Idealize.ShloMosaic Idealize.ShloMosaic.TcCoe Idealize.SL.Sem Idealize.ShloMosaic.StableHlo

variable {F : FTy → Type} [FloatOps F]

/-- The pick's operations over their bare buffers. -/
abbrev opsB' : List (HloOp τ sig (Elt F)) :=
  [ unary main_arg1 main_v1 (broadcastInDim S131072x1 ![0] bcast_S131072_S131072x1_0 : (⟨S131072, .i32⟩ : BufTy).Contents (Elt F) → (⟨S131072x1, .i32⟩ : BufTy).Contents (Elt F)),
    nullary main_call1_c ((constantI S_ 32 0#32) : (⟨S_, .i32⟩ : BufTy).Contents (Elt F)),
    unary main_call1_c main_call1_v0 ((broadcastInDim S131072x1 ![] bcast_S_S131072x1) : (⟨S_, .i32⟩ : BufTy).Contents (Elt F) → (⟨S131072x1, .i32⟩ : BufTy).Contents (Elt F)),
    binary main_v1 main_call1_v0 main_call1_v1 ((cmpi .slt) : (⟨S131072x1, .i32⟩ : BufTy).Contents (Elt F) → (⟨S131072x1, .i32⟩ : BufTy).Contents (Elt F) → (⟨S131072x1, .i1⟩ : BufTy).Contents (Elt F)),
    nullary main_call1_c_0 ((constantI S_ 32 1000#32) : (⟨S_, .i32⟩ : BufTy).Contents (Elt F)),
    unary main_call1_c_0 main_call1_v2 ((broadcastInDim S131072x1 ![] bcast_S_S131072x1) : (⟨S_, .i32⟩ : BufTy).Contents (Elt F) → (⟨S131072x1, .i32⟩ : BufTy).Contents (Elt F)),
    binary main_v1 main_call1_v2 main_call1_v3 ((addi) : (⟨S131072x1, .i32⟩ : BufTy).Contents (Elt F) → (⟨S131072x1, .i32⟩ : BufTy).Contents (Elt F) → (⟨S131072x1, .i32⟩ : BufTy).Contents (Elt F)),
    ternary main_call1_v1 main_call1_v3 main_v1 main_call1_v4 ((select) : (⟨S131072x1, .i1⟩ : BufTy).Contents (Elt F) → (⟨S131072x1, .i32⟩ : BufTy).Contents (Elt F) → (⟨S131072x1, .i32⟩ : BufTy).Contents (Elt F) → (⟨S131072x1, .i32⟩ : BufTy).Contents (Elt F)),
    reshape main_call1_v4 main_call1_v5 rfl shapeCasts_S131072x1_S131072x1x1,
    nullary main_call1_c_1 ((constantI S1 32 999#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S131072x1x1 ![] bcast_S_S131072x1x1) : (⟨S_, .i32⟩ : BufTy).Contents (Elt F) → (⟨S131072x1x1, .i32⟩ : BufTy).Contents (Elt F)),
    binary main_call1_v5 main_call1_v6 main_call1_v7 ((cmpi .sge) : (⟨S131072x1x1, .i32⟩ : BufTy).Contents (Elt F) → (⟨S131072x1x1, .i32⟩ : BufTy).Contents (Elt F) → (⟨S131072x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S131072x1x1 ![0, 1, 2] bcast_S1x1x1_S131072x1x1_0_1_2) : (⟨S1x1x1, .i32⟩ : BufTy).Contents (Elt F) → (⟨S131072x1x1, .i32⟩ : BufTy).Contents (Elt F)),
    binary main_call1_v5 main_call1_v9 main_call1_v10 ((cmpi .sle) : (⟨S131072x1x1, .i32⟩ : BufTy).Contents (Elt F) → (⟨S131072x1x1, .i32⟩ : BufTy).Contents (Elt F) → (⟨S131072x1x1, .i1⟩ : BufTy).Contents (Elt F)),
    binary main_call1_v7 main_call1_v10 main_call1_v11 ((andi) : (⟨S131072x1x1, .i1⟩ : BufTy).Contents (Elt F) → (⟨S131072x1x1, .i1⟩ : BufTy).Contents (Elt F) → (⟨S131072x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S131072x1x1_S131072x1_d2 h_S_) : (⟨S131072x1x1, .i1⟩ : BufTy).Contents (Elt F) → (⟨S_, .i1⟩ : BufTy).Contents (Elt F) → (⟨S131072x1, .i1⟩ : BufTy).Contents (Elt F)),
    binary main_v0 main_call1_v5 main_call1_v13 ((fun x i => Host.gather gather_S131072x1000_S131072x1x1_S131072x1_n_1_0_0_1_2_11 x i) : (⟨S131072x1000, .f32⟩ : BufTy).Contents (Elt F) → (⟨S131072x1x1, .i32⟩ : BufTy).Contents (Elt F) → (⟨S131072x1, .f32⟩ : BufTy).Contents (Elt F)),
    nullary main_call1_cst ((constant S_ .f32 0x7FC00000#32) : (⟨S_, .f32⟩ : BufTy).Contents (Elt F)),
    unary main_call1_cst main_call1_v14 ((broadcastInDim S131072x1 ![] bcast_S_S131072x1) : (⟨S_, .f32⟩ : BufTy).Contents (Elt F) → (⟨S131072x1, .f32⟩ : BufTy).Contents (Elt F)),
    ternary main_call1_v12 main_call1_v13 main_call1_v14 main_v2 ((select) : (⟨S131072x1, .i1⟩ : BufTy).Contents (Elt F) → (⟨S131072x1, .f32⟩ : BufTy).Contents (Elt F) → (⟨S131072x1, .f32⟩ : BufTy).Contents (Elt F) → (⟨S131072x1, .f32⟩ : BufTy).Contents (Elt F)) ]

attribute [local irreducible] Host.reduce in
/-- The two spellings are the same line, operation by operation. -/
theorem opsB_eq : (opsB : List (HloOp τ sig (Elt F))) = opsB' := by
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  rfl

attribute [local irreducible] Host.reduce Host.gather in
/-- The picked column's buffer after the pick's operations. -/
theorem segB_out (W : Valuation τ sig (Elt F)) :
    after opsB W (main_v2 : DevRef τ sig)
      = select (ReadP.val_main_call1_v12 (F := F) (W (main_arg1 : DevRef τ sig)))
          (Host.gather gather_S131072x1000_S131072x1x1_S131072x1_n_1_0_0_1_2_11 (W (main_v0 : DevRef τ sig))
            (ReadP.val_main_call1_v5 (F := F) (W (main_arg1 : DevRef τ sig))))
          (ReadP.val_main_call1_v14 (F := F)) := by
  rw [opsB_eq]
  after_results_simp
  unfold ReadP.val_main_call1_v12 ReadP.val_main_call1_v11 ReadP.val_main_call1_v10 ReadP.val_main_call1_v9
    ReadP.val_main_call1_v8 ReadP.val_main_call1_c_1 ReadP.val_main_call1_v7 ReadP.val_main_call1_v6
    ReadP.val_main_call1_c_2 ReadP.val_main_call1_v5 ReadP.val_main_call1_v4 ReadP.val_main_call1_v3
    ReadP.val_main_call1_v2 ReadP.val_main_call1_c_0 ReadP.val_main_call1_v1 ReadP.val_main_call1_v0
    ReadP.val_main_call1_c ReadP.val_main_v1 ReadP.val_main_call1_c_3 ReadP.val_main_call1_v14
    ReadP.val_main_call1_cst
  rfl

/-- The logits' buffer is not written. -/
theorem segB_arg0 (W : Valuation τ sig (Elt F)) :
    after opsB W (main_arg0 : DevRef τ sig) = W (main_arg0 : DevRef τ sig) := by
  rw [opsB_eq]
  after_results_simp

/-- The targets' buffer is not written. -/
theorem segB_arg1 (W : Valuation τ sig (Elt F)) :
    after opsB W (main_arg1 : DevRef τ sig) = W (main_arg1 : DevRef τ sig) := by
  rw [opsB_eq]
  after_results_simp

end Cert.FocalRef

end
-- ==== Proof.RefSegC.lean ====
/-
  The rest of the reference, read off its operations.

  From contents `W` whose picked-column buffer holds the pick stage of the logits and targets found in the two
  arguments' buffers, the remaining 58 operations leave in the result's buffer the reference's last stage of those
  logits and targets, and leave the arguments' buffers as they were. These are plain operations of the entry
  function; the reductions and the scatter-add are kept closed while the fold is evaluated.
-/
import proofs.«145446_j66486093742616_2_alg».proof.Proof.RefOps
import proofs.«145446_j66486093742616_2_alg».proof.Proof.RefStages

noncomputable section

namespace Cert.FocalRef

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.scatterAdd in
set_option maxRecDepth 16384 in
set_option maxHeartbeats 4000000 in
/-- The result's buffer after the remaining operations. -/
theorem segC_out (W : Valuation τ sig (Elt F))
    (h2 : W (main_v2 : DevRef τ sig)
      = ReadP.val_main_v2 (F := F) (W (main_arg0 : DevRef τ sig)) (W (main_arg1 : DevRef τ sig))) :
    after opsC W (main_v43 : DevRef τ sig)
      = ReadP.val_main_v43 (F := F) (W (main_arg0 : DevRef τ sig)) (W (main_arg1 : DevRef τ sig)) := by
  after_results_simp
  rw [h2]
  rfl

attribute [local irreducible] Host.reduce Host.reduceAdd Host.scatterAdd in
set_option maxRecDepth 16384 in
/-- The logits' buffer is not written. -/
theorem segC_arg0 (W : Valuation τ sig (Elt F)) :
    after opsC W (main_arg0 : DevRef τ sig) = W (main_arg0 : DevRef τ sig) := by
  after_results_simp

attribute [local irreducible] Host.reduce Host.reduceAdd Host.scatterAdd in
set_option maxRecDepth 16384 in
/-- The targets' buffer is not written. -/
theorem segC_arg1 (W : Valuation τ sig (Elt F)) :
    after opsC W (main_arg1 : DevRef τ sig) = W (main_arg1 : DevRef τ sig) := by
  after_results_simp

end Cert.FocalRef

end
-- ==== Proof.RefRun.lean ====
/-
  The reference's run: every execution ends with the result at the reference's last stage.

  The program's line of operations is its three parts one after the other, so what it leaves in a buffer is the
  third part's fold started from the second's started from the first's. The first part leaves the log-softmax stage
  of the logits; the second, started there, leaves the select of the gather from that stage, which is the pick
  stage; the third, started from contents whose picked-column buffer holds the pick stage, leaves the last stage.
  No part writes the arguments' buffers. A straight line of operations on every core always terminates without a
  fault in the state its fold describes, which gives the run: the result's buffer holds the last stage of the
  logits and targets the program was started with, and those are unchanged.
-/
import proofs.«145446_j66486093742616_2_alg».proof.Proof.RefSegA
import proofs.«145446_j66486093742616_2_alg».proof.Proof.RefSegB
import proofs.«145446_j66486093742616_2_alg».proof.Proof.RefSegC

noncomputable section

namespace Cert.FocalRef

open Cert.ReferenceIdeal Cert.ReferenceIdeal.Gen Idealize.ShloMosaic Idealize.ShloMosaic.TcCoe Idealize.SL.Sem Idealize.ShloMosaic.StableHlo

variable {F : FTy → Type} [FloatOps F]

/-- The pick stage is the select, by the in-range bits, of the gather from the log-softmax stage against the
    fill value. -/
theorem pick_of_logSoftmax (x : (⟨S131072x1000, .f32⟩ : BufTy).Contents (Elt F))
    (t : (⟨S131072, .i32⟩ : BufTy).Contents (Elt F)) :
    select (ReadP.val_main_call1_v12 (F := F) t)
        (Host.gather gather_S131072x1000_S131072x1x1_S131072x1_n_1_0_0_1_2_11 (ReadP.val_main_v0 (F := F) x)
          (ReadP.val_main_call1_v5 (F := F) t))
        (ReadP.val_main_call1_v14 (F := F))
      = ReadP.val_main_v2 (F := F) x t := by
  unfold ReadP.val_main_v2 ReadP.val_main_call1_v13
  rfl

/-- After the first two parts the arguments' buffers are as they were, and the picked-column buffer holds the
    pick stage of their contents. -/
theorem two_parts_arg0 (W : Valuation τ sig (Elt F)) :
    after opsB (after opsA W) (main_arg0 : DevRef τ sig) = W (main_arg0 : DevRef τ sig) := by
  rw [segB_arg0, segA_arg0]

theorem two_parts_arg1 (W : Valuation τ sig (Elt F)) :
    after opsB (after opsA W) (main_arg1 : DevRef τ sig) = W (main_arg1 : DevRef τ sig) := by
  rw [segB_arg1, segA_arg1]

theorem two_parts_pick (W : Valuation τ sig (Elt F)) :
    after opsB (after opsA W) (main_v2 : DevRef τ sig)
      = ReadP.val_main_v2 (F := F) (W (main_arg0 : DevRef τ sig)) (W (main_arg1 : DevRef τ sig)) := by
  rw [segB_out, segA_out, segA_arg1]
  exact pick_of_logSoftmax _ _

/-- The result's buffer after the whole line: the reference's last stage of the arguments' contents. -/
theorem out_eq (W : Valuation τ sig (Elt F)) :
    after ops W (main_v43 : DevRef τ sig)
      = ReadP.val_main_v43 (F := F) (W (main_arg0 : DevRef τ sig)) (W (main_arg1 : DevRef τ sig)) := by
  rw [ops_split, after_append, after_append,
    segC_out (after opsB (after opsA W)) (by rw [two_parts_pick, two_parts_arg0, two_parts_arg1]),
    two_parts_arg0, two_parts_arg1]

/-- The arguments' buffers are not written by the line. -/
theorem arg0_eq (W : Valuation τ sig (Elt F)) :
    after ops W (main_arg0 : DevRef τ sig) = W (main_arg0 : DevRef τ sig) := by
  rw [ops_split, after_append, after_append, segC_arg0, two_parts_arg0]

theorem arg1_eq (W : Valuation τ sig (Elt F)) :
    after ops W (main_arg1 : DevRef τ sig) = W (main_arg1 : DevRef τ sig) := by
  rw [ops_split, after_append, after_append, segC_arg1, two_parts_arg1]

/-- On every core, from any memory with zero counters: every weakly fair execution of the reference terminates
    without a fault, with the result's buffer at the reference's last stage of the logits and targets it was
    started with, and with those unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = ReadP.val_main_v43 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v43).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.FocalRef

end
-- ==== Proof.FiniteInputs.lean ====
/-
  From the precondition to "every logit is a real number". The precondition is the conjunction, over all entries
  `x[b,c]` of the logits, of the comparison `|x[b,c]| < +∞`, and it says that this conjunction is true. So every
  single comparison is true; and an extended real whose absolute value `max y (−y)` is below `+∞` is neither `+∞`
  nor `−∞` (at either infinity the absolute value is `+∞`): it is a real number.
-/
import proofs.«145446_j66486093742616_2_alg».proof.Pre_finite_inputs
import Idealize.ShloMosaic.PureOps.Ideal
import Idealize.ShloMosaic.Lib.ValueIdx
import Idealize.ShloMosaic.Lib.ReduceAll

namespace Cert.FocalAlgebra

open Idealize.ShloMosaic

/-- The shape with no axes has one index. -/
instance : Subsingleton Cert.Pre_finite_inputs.S_.Idx := ⟨fun a b => funext fun d => d.elim0⟩

/-- An extended real whose absolute value compares below the pattern of `+∞` is a real number. -/
theorem real_of_abs_lt_inf (y : EReal)
    (h : Ideal.cmp .olt (max y (-y)) (Ideal.ofBits .f32 0x7F800000#32) = 1#1) : ∃ r : ℝ, y = (r : EReal) := by
  have htop : Ideal.ofBits .f32 0x7F800000#32 = ⊤ := by simp [Ideal.ofBits, Ideal.ieee]
  rw [htop] at h
  induction y using EReal.rec with
  | bot => exfalso; revert h; simp [Ideal.cmp]
  | coe r => exact ⟨r, rfl⟩
  | top => exfalso; revert h; simp [Ideal.cmp]

/-- Under the precondition every entry of the logits is a real number. -/
theorem finite_of_pre [Cert.Pre_finite_inputs.Facts]
    (x : FVec Ideal Cert.Pre_finite_inputs.S131072x1000 .f32) (t : IVec Cert.Pre_finite_inputs.S131072 32)
    (h : Cert.Pre_finite_inputs.fn (F := Ideal) x t = fun _ => 1#1) :
    ∀ i, ∃ r : ℝ, x i = (r : EReal) := by
  intro i
  have h0 := congrFun h ValueIdx.ix0
  dsimp only [Cert.Pre_finite_inputs.fn] at h0
  have hi := Host.reduce_andi_all _ _ _ _ ValueIdx.ix0 h0 i
  exact real_of_abs_lt_inf (x i) hi

end Cert.FocalAlgebra
-- ==== Proof.lean ====
/-
  A focal loss plus a calibration term, computed by a two-core accumulating kernel and by plain array code.

  From logits x : [131072, 1000] and one target class per row both programs compute
      (1/131072) · Σ_b −(1 − p_b)² · log p_b  +  5 · (1/1000) · Σ_c | (1/131072) · Σ_b softmax(x)[b,c] − count_c / 131072 |,
  where p_b is the softmax probability of row b's target class and count_c the number of rows whose target is c.
  The kernel streams the logits once, 1024 rows at a time, 64 tiles on each of two cores; each core keeps a running
  sum of the tiles' focal terms and, per class, of the tiles' column sums of probabilities, cleared at the core's
  first tile and written back after its last. The target's logit is picked out of x beforehand, the square is a
  product, and the two cores' rows are added afterwards. The reference takes the log-softmax, picks the target's entry
  out of it, raises to the power 2.0, and sums over all rows at once.

  On the extended reals the two agree whenever every logit is a real number, which the precondition says:
  * row by row the two spellings of the target's log-probability, of the focal term and of the probabilities are
    equal (Proof/RowSoftmax.lean, Proof/FocalTerm.lean) — an out-of-range target gives −∞ on both sides, and a power
    with exponent 2 and a product differ only at a base of −∞, which a real row maximum and a positive real row sum
    exclude;
  * a sum over the 131072 rows is the sum over cores, tiles and rows within a tile (Proof/RowRegroup.lean);
  * the kernel's accumulators after each point hold the core's sum so far (Proof/KernelAccum.lean), so its result
    arrays hold each core's totals (Proof/KernelArrays.lean), and the operations after the region add the two cores
    and apply the same tail as the reference (Proof/KernelTail.lean);
  * the reference's operations, read one at a time, are the specification's reference spelling
    (Proof/RefRows.lean, Proof/RefValue.lean), run as a straight line (Proof/RefRun.lean).
  Proof/Bridge.lean joins the two sides; the idealized kernel is the printed kernel read at the extended reals with no
  rewrite, so there is nothing to preserve.
-/
import proofs.«145446_j66486093742616_2_alg».proof.Defs
import proofs.«145446_j66486093742616_2_alg».proof.Proof.Gen.Kernel
import proofs.«145446_j66486093742616_2_alg».proof.Proof.Gen.Kernel.Frame
import proofs.«145446_j66486093742616_2_alg».proof.Proof.Gen.KernelIdeal
import proofs.«145446_j66486093742616_2_alg».proof.Proof.Gen.KernelIdeal.Frame
import proofs.«145446_j66486093742616_2_alg».proof.Proof.Gen.ReferenceIdeal
import proofs.«145446_j66486093742616_2_alg».proof.Proof.Gen.Pre_finite_inputs
import proofs.«145446_j66486093742616_2_alg».proof.Proof.Bridge
import proofs.«145446_j66486093742616_2_alg».proof.Proof.RefRun
import proofs.«145446_j66486093742616_2_alg».proof.Proof.FiniteInputs
import Idealize.ShloMosaic.Adequacy
import Idealize.ShloMosaic.Init

noncomputable section

namespace Cert.Proof

open Idealize.ShloMosaic Idealize.SL.Sem

/-- The printed kernel runs and leaves its arguments alone: the generated frame. -/
theorem frame_kernel [Cert.Kernel.Facts] [Cert.Pre_finite_inputs.Facts] : Cert.frame_Kernel :=
  fun m ρ _ => Cert.Kernel.Gen.frame m ρ

/-- So does its reading at the extended reals. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.FocalRef.run m ρ)

/-- The idealization rewrote nothing. -/
theorem preserves : Cert.preserves_Kernel_KernelIdeal := trivial

/-- From memories that agree on the logits and the targets, the logits finite, both programs end with the same
    extended real: the tail of the kernel's two sums (Proof/Bridge.lean: `kernel_value` for the kernel's totals,
    `ref_value` for the reference's stages). -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.FocalKernel.kernel_run m ρ, ?_⟩
  refine (θ_run Cert.ReferenceIdeal.defs _ _).mono (fun _ h c => ⟨(h c).1.trans ?_, (h c).2⟩)
    (Cert.FocalRef.run m' ρ')
  rw [(hagree c).1, (hagree c).2]
  exact (Cert.FocalBridge.ref_value _ (Cert.FocalAlgebra.finite_of_pre _ _ (hpre c)) _).trans
    (Cert.FocalBridge.kernel_value m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
